-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S100000x128 : Shape := ⟨2, ![100000, 128]⟩
abbrev S2x400000 : Shape := ⟨2, ![2, 400000]⟩
abbrev S32x128 : Shape := ⟨2, ![32, 128]⟩
abbrev S128 : Shape := ⟨1, ![128]⟩
abbrev S256x128 : Shape := ⟨2, ![256, 128]⟩
abbrev S128x8 : Shape := ⟨2, ![128, 8]⟩
abbrev S8 : Shape := ⟨1, ![8]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part4 {F : FTy → Type} [FloatOps F] (main_arg15 : FVec F S128x8 .f32) (main_arg16 : FVec F S8 .f32) (main_v63 : IVec S_ 1) (main_v67 : IVec S_ 1) : IVec S_ 1 :=
  let main_v68 : IVec S_ 1 := andi main_v63 main_v67
  let main_v69 : FVec F S128x8 .f32 := Host.absf main_arg15
  let main_cst_26 : FVec F S_ .f32 := constant S_ .f32 0x7F800000#32
  let main_v70 : FVec F S128x8 .f32 := broadcastInDim S128x8 ![] bcast_S_S128x8 main_cst_26
  let main_v71 : IVec S128x8 1 := cmpf .olt main_v69 main_v70
  let main_c_27 : IVec S_ 1 := constantI S_ 1 1#1
  let main_v72 : IVec S_ 1 := (fun x v => Host.reduce IntOp.andi x v reducesTo_S128x8_S_d0_1 h_S_) main_v71 main_c_27
  let main_v73 : IVec S_ 1 := andi main_v68 main_v72
  let main_v74 : FVec F S8 .f32 := Host.absf main_arg16
  let main_cst_28 : FVec F S_ .f32 := constant S_ .f32 0x7F800000#32
  let main_v75 : FVec F S8 .f32 := broadcastInDim S8 ![] bcast_S_S8 main_cst_28
  let main_v76 : IVec S8 1 := cmpf .olt main_v74 main_v75
  let main_c_29 : IVec S_ 1 := constantI S_ 1 1#1
  let main_v77 : IVec S_ 1 := (fun x v => Host.reduce IntOp.andi x v reducesTo_S8_S_d0 h_S_) main_v76 main_c_29
  let main_v78 : IVec S_ 1 := andi main_v73 main_v77
  main_v78

def fn_part3 {F : FTy → Type} [FloatOps F] (main_arg12 : FVec F S128 .f32) (main_arg13 : FVec F S256x128 .f32) (main_arg14 : FVec F S128 .f32) (main_arg15 : FVec F S128x8 .f32) (main_arg16 : FVec F S8 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S256x128 .f32 := Host.absf main_arg13
  let main_cst_22 : FVec F S_ .f32 := constant S_ .f32 0x7F800000#32
  let main_v60 : FVec F S256x128 .f32 := broadcastInDim S256x128 ![] bcast_S_S256x128 main_cst_22
  let main_v61 : IVec S256x128 1 := cmpf .olt main_v59 main_v60
  let main_c_23 : IVec S_ 1 := constantI S_ 1 1#1
  let main_v62 : IVec S_ 1 := (fun x v => Host.reduce IntOp.andi x v reducesTo_S256x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_v63 main_v67

def fn_part2 {F : FTy → Type} [FloatOps F] (main_arg8 : FVec F S128 .f32) (main_arg9 : FVec F S256x128 .f32) (main_arg10 : FVec F S128 .f32) (main_arg11 : FVec F S256x128 .f32) (main_arg12 : FVec F S128 .f32) (main_arg13 : FVec F S256x128 .f32) (main_arg14 : FVec F S128 .f32) (main_arg15 : FVec F S128x8 .f32) (main_arg16 : FVec F S8 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg12 main_arg13 main_arg14 main_arg15 main_arg16 main_v48 main_v49 main_v50

def fn_part1 {F : FTy → Type} [FloatOps F] (main_arg5 : FVec F S32x128 .f32) (main_arg6 : FVec F S128 .f32) (main_arg7 : FVec F S32x128 .f32) (main_arg8 : FVec F S128 .f32) (main_arg9 : FVec F S256x128 .f32) (main_arg10 : FVec F S128 .f32) (main_arg11 : FVec F S256x128 .f32) (main_arg12 : FVec F S128 .f32) (main_arg13 : FVec F S256x128 .f32) (main_arg14 : FVec F S128 .f32) (main_arg15 : FVec F S128x8 .f32) (main_arg16 : FVec F S8 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S32x128 .f32 := Host.absf main_arg5
  let main_cst_6 : FVec F S_ .f32 := constant S_ .f32 0x7F800000#32
  let main_v20 : FVec F S32x128 .f32 := broadcastInDim S32x128 ![] bcast_S_S32x128 main_cst_6
  let main_v21 : IVec S32x128 1 := cmpf .olt main_v19 main_v20
  let main_c_7 : IVec S_ 1 := constantI S_ 1 1#1
  let main_v22 : IVec S_ 1 := (fun x v => Host.reduce IntOp.andi x v reducesTo_S32x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S32x128 .f32 := Host.absf main_arg7
  let main_cst_10 : FVec F S_ .f32 := constant S_ .f32 0x7F800000#32
  let main_v30 : FVec F S32x128 .f32 := broadcastInDim S32x128 ![] bcast_S_S32x128 main_cst_10
  let main_v31 : IVec S32x128 1 := cmpf .olt main_v29 main_v30
  let main_c_11 : IVec S_ 1 := constantI S_ 1 1#1
  let main_v32 : IVec S_ 1 := (fun x v => Host.reduce IntOp.andi x v reducesTo_S32x128_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S100000x32 .f32) (main_arg1 : FVec F S100000x128 .f32) (main_arg2 : IVec S2x400000 32) (main_arg3 : FVec F S32x128 .f32) (main_arg4 : FVec F S128 .f32) (main_arg5 : FVec F S32x128 .f32) (main_arg6 : FVec F S128 .f32) (main_arg7 : FVec F S32x128 .f32) (main_arg8 : FVec F S128 .f32) (main_arg9 : FVec F S256x128 .f32) (main_arg10 : FVec F S128 .f32) (main_arg11 : FVec F S256x128 .f32) (main_arg12 : FVec F S128 .f32) (main_arg13 : FVec F S256x128 .f32) (main_arg14 : FVec F S128 .f32) (main_arg15 : FVec F S128x8 .f32) (main_arg16 : FVec F S8 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S32x128 .f32 := Host.absf main_arg3
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S100000x32 : Shape := ⟨2, ![100000, 32]⟩
abbrev S100000x128 : Shape := ⟨2, ![100000, 128]⟩
abbrev S2x400000 : Shape := ⟨2, ![2, 400000]⟩
abbrev S32x128 : Shape := ⟨2, ![32, 128]⟩
abbrev S128 : Shape := ⟨1, ![128]⟩
abbrev S256x128 : Shape := ⟨2, ![256, 128]⟩
abbrev S128x8 : Shape := ⟨2, ![128, 8]⟩
abbrev S8 : Shape := ⟨1, ![8]⟩
abbrev S1x400000 : Shape := ⟨2, ![1, 400000]⟩
abbrev S400000 : Shape := ⟨1, ![400000]⟩
abbrev S_ : Shape := ⟨0, ![]⟩
abbrev S100000 : Shape := ⟨1, ![100000]⟩
abbrev S400000x1 : Shape := ⟨2, ![400000, 1]⟩
abbrev S400000x32 : Shape := ⟨2, ![400000, 32]⟩
abbrev S50000x32 : Shape := ⟨2, ![50000, 32]⟩
abbrev S50000 : Shape := ⟨1, ![50000]⟩
abbrev S50000x1 : Shape := ⟨2, ![50000, 1]⟩
abbrev S50000x128 : Shape := ⟨2, ![50000, 128]⟩
abbrev S128x128 : Shape := ⟨2, ![128, 128]⟩
abbrev S1x128 : Shape := ⟨2, ![1, 128]⟩
abbrev S1x8 : Shape := ⟨2, ![1, 8]⟩
abbrev S50000x8 : Shape := ⟨2, ![50000, 8]⟩
abbrev S2000x32 : Shape := ⟨2, ![2000, 32]⟩
abbrev S2000x128 : Shape := ⟨2, ![2000, 128]⟩
abbrev S2000x8 : Shape := ⟨2, ![2000, 8]⟩

abbrev nBuf : Space → Nat
  | .hbm => 95
  | .vmem => 23
  | .smem => 0
  | _ => 0

abbrev bufTy : (tb : Table) → Fin (tcTables nBuf tb) → BufTy
  | .hbm, ⟨0, _⟩ => ⟨S100000x32, .f32⟩
  | .hbm, ⟨1, _⟩ => ⟨S100000x128, .f32⟩
  | .hbm, ⟨2, _⟩ => ⟨S2x400000, .i32⟩
  | .hbm, ⟨3, _⟩ => ⟨S32x128, .f32⟩
  | .hbm, ⟨4, _⟩ => ⟨S128, .f32⟩
  | .hbm, ⟨5, _⟩ => ⟨S32x128, .f32⟩
  | .hbm, ⟨6, _⟩ => ⟨S128, .f32⟩
  | .hbm, ⟨7, _⟩ => ⟨S32x128, .f32⟩
  | .hbm, ⟨8, _⟩ => ⟨S128, .f32⟩
  | .hbm, ⟨9, _⟩ => ⟨S256x128, .f32⟩
  | .hbm, ⟨10, _⟩ => ⟨S128, .f32⟩
  | .hbm, ⟨11, _⟩ => ⟨S256x128, .f32⟩
  | .hbm, ⟨12, _⟩ => ⟨S128, .f32⟩
  | .hbm, ⟨13, _⟩ => ⟨S256x128, .f32⟩
  | .hbm, ⟨14, _⟩ => ⟨S128, .f32⟩
  | .hbm, ⟨15, _⟩ => ⟨S128x8, .f32⟩
  | .hbm, ⟨16, _⟩ => ⟨S8, .f32⟩
  | .hbm, ⟨17, _⟩ => ⟨S1x400000, .i32⟩
  | .hbm, ⟨18, _⟩ => ⟨S400000, .i32⟩
  | .hbm, ⟨19, _⟩ => ⟨S1x400000, .i32⟩
  | .hbm, ⟨20, _⟩ => ⟨S400000, .i32⟩
  | .hbm, ⟨21, _⟩ => ⟨S_, .f32⟩
  | .hbm, ⟨22, _⟩ => ⟨S100000, .f32⟩
  | .hbm, ⟨23, _⟩ => ⟨S_, .i32⟩
  | .hbm, ⟨24, _⟩ => ⟨S400000, .i32⟩
  | .hbm, ⟨25, _⟩ => ⟨S400000, .i1⟩
  | .hbm, ⟨26, _⟩ => ⟨S_, .i32⟩
  | .hbm, ⟨27, _⟩ => ⟨S400000, .i32⟩
  | .hbm, ⟨28, _⟩ => ⟨S400000, .i32⟩
  | .hbm, ⟨29, _⟩ => ⟨S400000, .i32⟩
  | .hbm, ⟨30, _⟩ => ⟨S400000x1, .i32⟩
  | .hbm, ⟨31, _⟩ => ⟨S_, .f32⟩
  | .hbm, ⟨32, _⟩ => ⟨S400000, .f32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000, .f32⟩
  | .hbm, ⟨38, _⟩ => ⟨S_, .i32⟩
  | .hbm, ⟨39, _⟩ => ⟨S400000, .i32⟩
  | .hbm, ⟨40, _⟩ => ⟨S400000, .i1⟩
  | .hbm, ⟨41, _⟩ => ⟨S_, .i32⟩
  | .hbm, ⟨42, _⟩ => ⟨S400000, .i32⟩
  | .hbm, ⟨43, _⟩ => ⟨S400000, .i32⟩
  | .hbm, ⟨44, _⟩ => ⟨S400000, .i32⟩
  | .hbm, ⟨45, _⟩ => ⟨S400000x1, .i32⟩
  | .hbm, ⟨46, _⟩ => ⟨S400000, .f32⟩
  | .hbm, ⟨47, _⟩ => ⟨S_, .i32⟩
  | .hbm, ⟨48, _⟩ => ⟨S400000, .i32⟩
  | .hbm, ⟨49, _⟩ => ⟨S400000, .i1⟩
  | .hbm, ⟨50, _⟩ => ⟨S_, .i32⟩
  | .hbm, ⟨51, _⟩ => ⟨S400000, .i32⟩
  | .hbm, ⟨52, _⟩ => ⟨S400000, .i32⟩
  | .hbm, ⟨53, _⟩ => ⟨S400000, .i32⟩
  | .hbm, ⟨54, _⟩ => ⟨S400000x1, .i32⟩
  | .hbm, ⟨55, _⟩ => ⟨S400000, .f32⟩
  | .hbm, ⟨56, _⟩ => ⟨S400000, .f32⟩
  | .hbm, ⟨57, _⟩ => ⟨S_, .i32⟩
  | .hbm, ⟨58, _⟩ => ⟨S400000, .i32⟩
  | .hbm, ⟨59, _⟩ => ⟨S400000, .i1⟩
  | .hbm, ⟨60, _⟩ => ⟨S_, .i32⟩
  | .hbm, ⟨61, _⟩ => ⟨S400000, .i32⟩
  | .hbm, ⟨62, _⟩ => ⟨S400000, .i32⟩
  | .hbm, ⟨63, _⟩ => ⟨S400000, .i32⟩
  | .hbm, ⟨64, _⟩ => ⟨S400000x1, .i32⟩
  | .hbm, ⟨65, _⟩ => ⟨S400000x32, .f32⟩
  | .hbm, ⟨66, _⟩ => ⟨S400000x1, .f32⟩
  | .hbm, ⟨67, _⟩ => ⟨S400000x32, .f32⟩
  | .hbm, ⟨68, _⟩ => ⟨S400000x32, .f32⟩
  | .hbm, ⟨69, _⟩ => ⟨S_, .f32⟩
  | .hbm, ⟨70, _⟩ => ⟨S50000x32, .f32⟩
  | .hbm, ⟨71, _⟩ => ⟨S400000x1, .i32⟩
  | .hbm, ⟨72, _⟩ => ⟨S50000x32, .f32⟩
  | .hbm, ⟨73, _⟩ => ⟨S50000x32, .f32⟩
  | .hbm, ⟨74, _⟩ => ⟨S50000, .f32⟩
  | .hbm, ⟨75, _⟩ => ⟨S50000, .f32⟩
  | .hbm, ⟨76, _⟩ => ⟨S50000x1, .f32⟩
  | .hbm, ⟨77, _⟩ => ⟨S50000x32, .f32⟩
  | .hbm, ⟨78, _⟩ => ⟨S50000x32, .f32⟩
  | .hbm, ⟨79, _⟩ => ⟨S50000x32, .f32⟩
  | .hbm, ⟨80, _⟩ => ⟨S50000x128, .f32⟩
  | .hbm, ⟨81, _⟩ => ⟨S128x128, .f32⟩
  | .hbm, ⟨82, _⟩ => ⟨S128x128, .f32⟩
  | .hbm, ⟨83, _⟩ => ⟨S128x128, .f32⟩
  | .hbm, ⟨84, _⟩ => ⟨S128x128, .f32⟩
  | .hbm, ⟨85, _⟩ => ⟨S128x128, .f32⟩
  | .hbm, ⟨86, _⟩ => ⟨S128x128, .f32⟩
  | .hbm, ⟨87, _⟩ => ⟨S1x128, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S1x8, .f32⟩
  | .hbm, ⟨94, _⟩ => ⟨S50000x8, .f32⟩
  | .local _ .vmem, ⟨0, _⟩ => ⟨S2000x32, .f32⟩
  | .local _ .vmem, ⟨1, _⟩ => ⟨S2000x32, .f32⟩
  | .local _ .vmem, ⟨2, _⟩ => ⟨S2000x128, .f32⟩
  | .local _ .vmem, ⟨3, _⟩ => ⟨S2000x128, .f32⟩
  | .local _ .vmem, ⟨4, _⟩ => ⟨S32x128, .f32⟩
  | .local _ .vmem, ⟨5, _⟩ => ⟨S1x128, .f32⟩
  | .local _ .vmem, ⟨6, _⟩ => ⟨S32x128, .f32⟩
  | .local _ .vmem, ⟨7, _⟩ => ⟨S1x128, .f32⟩
  | .local _ .vmem, ⟨8, _⟩ => ⟨S32x128, .f32⟩
  | .local _ .vmem, ⟨9, _⟩ => ⟨S1x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S128x8, .f32⟩
  | .local _ .vmem, ⟨20, _⟩ => ⟨S1x8, .f32⟩
  | .local _ .vmem, ⟨21, _⟩ => ⟨S2000x8, .f32⟩
  | .local _ .vmem, ⟨22, _⟩ => ⟨S2000x8, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_3 : Ref sig .tc := ⟨.hbm, 38, rfl⟩
abbrev main_v16 : Ref sig .tc := ⟨.hbm, 39, rfl⟩
abbrev main_v17 : Ref sig .tc := ⟨.hbm, 40, rfl⟩
abbrev main_c_4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_5 : Ref sig .tc := ⟨.hbm, 47, rfl⟩
abbrev main_v23 : Ref sig .tc := ⟨.hbm, 48, rfl⟩
abbrev main_v24 : Ref sig .tc := ⟨.hbm, 49, rfl⟩
abbrev main_c_6 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_7 : Ref sig .tc := ⟨.hbm, 57, rfl⟩
abbrev main_v31 : Ref sig .tc := ⟨.hbm, 58, rfl⟩
abbrev main_v32 : Ref sig .tc := ⟨.hbm, 59, rfl⟩
abbrev main_c_8 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_9 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg19_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem19_1 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x8 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S2000x8 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S100000 : S_.BroadcastsInDim S100000 (![] : Fin 0 → Fin S100000.rank)
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x32_0_1 : S400000x1.BroadcastsInDim S400000x32 (![0, 1] : Fin 2 → Fin S400000x32.rank)
  bcast_S_S50000x32 : S_.BroadcastsInDim S50000x32 (![] : Fin 0 → Fin S50000x32.rank)
  slices_S100000x32_S50000x32_0_0 : S100000x32.Slices ![0, 0] S50000x32
  slices_S100000_S50000_0 : S100000.Slices ![0] S50000
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  slices_S100000x128_S50000x128_0_0 : S100000x128.Slices ![0, 0] S50000x128
  slices_S256x128_S128x128_0_0 : S256x128.Slices ![0, 0] S128x128
  slices_S256x128_S128x128_128_0 : S256x128.Slices ![128, 0] S128x128
  bcast_S128_S1x128_1 : S128.BroadcastsInDim S1x128 (![1] : Fin 1 → Fin S1x128.rank)
  bcast_S8_S1x8_1 : S8.BroadcastsInDim S1x8 (![1] : Fin 1 → Fin S1x8.rank)
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x8_S128x8_0_0 : ∀ a, (![0, 0] : Fin 2 → Nat) a + S128x8.size a ≤ S128x8.size a
  h_S128x8 : 0 < S128x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S2000x8 : S1x8.Broadcasts S2000x8
  inb_S2000x8_S2000x8_0_0 : ∀ a, (![0, 0] : Fin 2 → Nat) a + S2000x8.size a ≤ S2000x8.size a
  h_S2000x8 : 0 < S2000x8.numel
  scatter_S100000_S400000x1_S400000_n_0_0_1_wf : ScatterDims.WF S100000 S400000x1 S400000 [] [0] [0] 1
  gather_S100000_S400000x1_S400000_n_0_n_n_0_1_1_wf : GatherDims.WF S100000 S400000x1 S400000 [] [0] [] [0] [] 1 ![1]
  gather_S100000x32_S400000x1_S400000x32_1_0_n_n_0_1_132_wf : GatherDims.WF S100000x32 S400000x1 S400000x32 [1] [0] [] [0] [] 1 ![1, 32]
  scatter_S50000x32_S400000x1_S400000x32_1_0_0_1_wf : ScatterDims.WF S50000x32 S400000x1 S400000x32 [1] [0] [0] 1
  dot_S2000x32_S32x128_S2000x128_1_0_0_1_n_n_wf : DotDims.WF S2000x32 S32x128 S2000x128 [1] [0] [0] [1] [] []
  dot_S2000x128_S128x128_S2000x128_1_0_0_1_n_n_wf : DotDims.WF S2000x128 S128x128 S2000x128 [1] [0] [0] [1] [] []
  dot_S2000x128_S128x8_S2000x8_1_0_0_1_n_n_wf : DotDims.WF S2000x128 S128x8 S2000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S50000x32.size a
  hwx0_0 : ∀ i : grid0.Coords, EltTy.bits .f32 = 32 ∨ (Rect.block (s := S50000x32) S2000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x128.size a
  hwx0_4 : ∀ i : grid0.Coords, EltTy.bits .f32 = 32 ∨ (Rect.block (s := S32x128) S32x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x128.size a ≤ S32x128.size a
  hwx0_6 : ∀ i : grid0.Coords, EltTy.bits .f32 = 32 ∨ (Rect.block (s := S32x128) S32x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x128.size a ≤ S128x128.size a
  hwx0_14 : ∀ i : grid0.Coords, EltTy.bits .f32 = 32 ∨ (Rect.block (s := S128x128) S128x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x128.size a ≤ S128x128.size a
  hwx0_15 : ∀ i : grid0.Coords, EltTy.bits .f32 = 32 ∨ (Rect.block (s := S128x128) S128x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x8.size a ≤ S128x8.size a
  hwx0_17 : ∀ i : grid0.Coords, EltTy.bits .f32 = 32 ∨ (Rect.block (s := S128x8) S128x8.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x8.size a ≤ S1x8.size a
  hwx0_18 : ∀ i : grid0.Coords, EltTy.bits .f32 = 32 ∨ (Rect.block (s := S1x8) S1x8.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S2000x8.size a ≤ S50000x8.size a
  hwx0_19 : ∀ i : grid0.Coords, EltTy.bits .f32 = 32 ∨ (Rect.block (s := S50000x8) S2000x8.size (cc0_transform_19 i) (hinb0_19 i)).WholeWords (EltTy.packing .f32)

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def gather_S100000x32_S400000x1_S400000x32_1_0_n_n_0_1_132 : GatherDims S100000x32 S400000x1 S400000x32 where
  offsetDims := [1]
  collapsedSliceDims := [0]
  operandBatchingDims := []
  startIndicesBatchingDims := []
  startIndexMap := [0]
  indexVectorDim := 1
  sliceSizes := ![1, 32]
  wf := gather_S100000x32_S400000x1_S400000x32_1_0_n_n_0_1_132_wf
def scatter_S50000x32_S400000x1_S400000x32_1_0_0_1 : ScatterDims S50000x32 S400000x1 S400000x32 where
  updateWindowDims := [1]
  insertedWindowDims := [0]
  scatterDimsToOperandDims := [0]
  indexVectorDim := 1
  wf := scatter_S50000x32_S400000x1_S400000x32_1_0_0_1_wf
def dot_S2000x32_S32x128_S2000x128_1_0_0_1_n_n : DotDims S2000x32 S32x128 S2000x128 where
  lhsContracting := [1]
  rhsContracting := [0]
  lhsNonContracting := [0]
  rhsNonContracting := [1]
  lhsBatch := []
  rhsBatch := []
  wf := dot_S2000x32_S32x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x8_S2000x8_1_0_0_1_n_n : DotDims S2000x128 S128x8 S2000x8 where
  lhsContracting := [1]
  rhsContracting := [0]
  lhsNonContracting := [0]
  rhsNonContracting := [1]
  lhsBatch := []
  rhsBatch := []
  wf := dot_S2000x128_S128x8_S2000x8_1_0_0_1_n_n_wf

abbrev win0_0 : Pipeline.Window sig grid0 :=
  Pipeline.Window.ofSpec (Memref.whole main_v50) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v51) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v58) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S32x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v59) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S32x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v60) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v52) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v53) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v61) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v54) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v55) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v62) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v56) S128x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v57) S128x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v63) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg15) S128x8.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v64) S1x8.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v65) S2000x8.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S100000x32 : Shape := ⟨2, ![100000, 32]⟩
abbrev S100000x128 : Shape := ⟨2, ![100000, 128]⟩
abbrev S2x400000 : Shape := ⟨2, ![2, 400000]⟩
abbrev S32x128 : Shape := ⟨2, ![32, 128]⟩
abbrev S128 : Shape := ⟨1, ![128]⟩
abbrev S256x128 : Shape := ⟨2, ![256, 128]⟩
abbrev S128x8 : Shape := ⟨2, ![128, 8]⟩
abbrev S8 : Shape := ⟨1, ![8]⟩
abbrev S1x400000 : Shape := ⟨2, ![1, 400000]⟩
abbrev S400000 : Shape := ⟨1, ![400000]⟩
abbrev S_ : Shape := ⟨0, ![]⟩
abbrev S100000 : Shape := ⟨1, ![100000]⟩
abbrev S400000x1 : Shape := ⟨2, ![400000, 1]⟩
abbrev S400000x128 : Shape := ⟨2, ![400000, 128]⟩
abbrev S100000x1 : Shape := ⟨2, ![100000, 1]⟩
abbrev S1x128 : Shape := ⟨2, ![1, 128]⟩
abbrev S100000x256 : Shape := ⟨2, ![100000, 256]⟩
abbrev S100000x8 : Shape := ⟨2, ![100000, 8]⟩
abbrev S1x8 : Shape := ⟨2, ![1, 8]⟩
abbrev S50000x8 : Shape := ⟨2, ![50000, 8]⟩

abbrev nBuf : Space → Nat
  | .hbm => 217
  | .vmem => 0
  | .smem => 0
  | _ => 0

abbrev hbmTy0_0 (i : Nat) : BufTy := match i % 128 with
  | 0 => ⟨S100000x32, .f32⟩
  | 1 => ⟨S100000x128, .f32⟩
  | 2 => ⟨S2x400000, .i32⟩
  | 3 => ⟨S32x128, .f32⟩
  | 4 => ⟨S128, .f32⟩
  | 5 => ⟨S32x128, .f32⟩
  | 6 => ⟨S128, .f32⟩
  | 7 => ⟨S32x128, .f32⟩
  | 8 => ⟨S128, .f32⟩
  | 9 => ⟨S256x128, .f32⟩
  | 10 => ⟨S128, .f32⟩
  | 11 => ⟨S256x128, .f32⟩
  | 12 => ⟨S128, .f32⟩
  | 13 => ⟨S256x128, .f32⟩
  | 14 => ⟨S128, .f32⟩
  | 15 => ⟨S128x8, .f32⟩
  | 16 => ⟨S8, .f32⟩
  | 17 => ⟨S1x400000, .i32⟩
  | 18 => ⟨S400000, .i32⟩
  | 19 => ⟨S1x400000, .i32⟩
  | 20 => ⟨S400000, .i32⟩
  | 21 => ⟨S_, .f32⟩
  | 22 => ⟨S100000, .f32⟩
  | 23 => ⟨S_, .i32⟩
  | 24 => ⟨S400000, .i32⟩
  | 25 => ⟨S400000, .i1⟩
  | 26 => ⟨S_, .i32⟩
  | 27 => ⟨S400000, .i32⟩
  | 28 => ⟨S400000, .i32⟩
  | 29 => ⟨S400000, .i32⟩
  | 30 => ⟨S400000x1, .i32⟩
  | 31 => ⟨S_, .f32⟩
  | 32 => ⟨S400000, .f32⟩
  | 33 => ⟨S100000, .f32⟩
  | 34 => ⟨S_, .f32⟩
  | 35 => ⟨S100000, .f32⟩
  | 36 => ⟨S100000, .f32⟩
  | 37 => ⟨S100000, .f32⟩
  | 38 => ⟨S100000x128, .f32⟩
  | 39 => ⟨S_, .i32⟩
  | 40 => ⟨S400000, .i32⟩
  | 41 => ⟨S400000, .i1⟩
  | 42 => ⟨S_, .i32⟩
  | 43 => ⟨S400000, .i32⟩
  | 44 => ⟨S400000, .i32⟩
  | 45 => ⟨S400000, .i32⟩
  | 46 => ⟨S400000x1, .i32⟩
  | 47 => ⟨S400000, .f32⟩
  | 48 => ⟨S_, .i32⟩
  | 49 => ⟨S400000, .i32⟩
  | 50 => ⟨S400000, .i1⟩
  | 51 => ⟨S_, .i32⟩
  | 52 => ⟨S400000, .i32⟩
  | 53 => ⟨S400000, .i32⟩
  | 54 => ⟨S400000, .i32⟩
  | 55 => ⟨S400000x1, .i32⟩
  | 56 => ⟨S400000, .f32⟩
  | 57 => ⟨S400000, .f32⟩
  | 58 => ⟨S_, .i32⟩
  | 59 => ⟨S400000, .i32⟩
  | 60 => ⟨S400000, .i1⟩
  | 61 => ⟨S_, .i32⟩
  | 62 => ⟨S400000, .i32⟩
  | 63 => ⟨S400000, .i32⟩
  | 64 => ⟨S400000, .i32⟩
  | 65 => ⟨S400000x1, .i32⟩
  | 66 => ⟨S400000x128, .f32⟩
  | 67 => ⟨S400000x1, .f32⟩
  | 68 => ⟨S400000x128, .f32⟩
  | 69 => ⟨S400000x128, .f32⟩
  | 70 => ⟨S_, .f32⟩
  | 71 => ⟨S100000x128, .f32⟩
  | 72 => ⟨S400000x1, .i32⟩
  | 73 => ⟨S100000x128, .f32⟩
  | 74 => ⟨S100000, .f32⟩
  | 75 => ⟨S100000x1, .f32⟩
  | 76 => ⟨S100000x128, .f32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S100000x128, .f32⟩
  | 83 => ⟨S_, .i32⟩
  | 84 => ⟨S400000, .i32⟩
  | 85 => ⟨S400000, .i1⟩
  | 86 => ⟨S_, .i32⟩
  | 87 => ⟨S400000, .i32⟩
  | 88 => ⟨S400000, .i32⟩
  | 89 => ⟨S400000, .i32⟩
  | 90 => ⟨S400000x1, .i32⟩
  | 91 => ⟨S400000, .f32⟩
  | 92 => ⟨S_, .i32⟩
  | 93 => ⟨S400000, .i32⟩
  | 94 => ⟨S400000, .i1⟩
  | 95 => ⟨S_, .i32⟩
  | 96 => ⟨S400000, .i32⟩
  | 97 => ⟨S400000, .i32⟩
  | 98 => ⟨S400000, .i32⟩
  | 99 => ⟨S400000x1, .i32⟩
  | 100 => ⟨S400000, .f32⟩
  | 101 => ⟨S400000, .f32⟩
  | 102 => ⟨S_, .i32⟩
  | 103 => ⟨S400000, .i32⟩
  | 104 => ⟨S400000, .i1⟩
  | 105 => ⟨S_, .i32⟩
  | 106 => ⟨S400000, .i32⟩
  | 107 => ⟨S400000, .i32⟩
  | 108 => ⟨S400000, .i32⟩
  | 109 => ⟨S400000x1, .i32⟩
  | 110 => ⟨S400000x128, .f32⟩
  | 111 => ⟨S400000x1, .f32⟩
  | 112 => ⟨S400000x128, .f32⟩
  | 113 => ⟨S400000x128, .f32⟩
  | 114 => ⟨S_, .f32⟩
  | 115 => ⟨S100000x128, .f32⟩
  | 116 => ⟨S400000x1, .i32⟩
  | 117 => ⟨S100000x128, .f32⟩
  | 118 => ⟨S100000, .f32⟩
  | 119 => ⟨S100000x1, .f32⟩
  | 120 => ⟨S100000x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S100000x128, .f32⟩
  | 127 => ⟨S_, .i32⟩
  | _ => ⟨S100000x32, .f32⟩

abbrev hbmTy0_1 (i : Nat) : BufTy := match i % 128 with
  | 0 => ⟨S400000, .i32⟩
  | 1 => ⟨S400000, .i1⟩
  | 2 => ⟨S_, .i32⟩
  | 3 => ⟨S400000, .i32⟩
  | 4 => ⟨S400000, .i32⟩
  | 5 => ⟨S400000, .i32⟩
  | 6 => ⟨S400000x1, .i32⟩
  | 7 => ⟨S400000, .f32⟩
  | 8 => ⟨S_, .i32⟩
  | 9 => ⟨S400000, .i32⟩
  | 10 => ⟨S400000, .i1⟩
  | 11 => ⟨S_, .i32⟩
  | 12 => ⟨S400000, .i32⟩
  | 13 => ⟨S400000, .i32⟩
  | 14 => ⟨S400000, .i32⟩
  | 15 => ⟨S400000x1, .i32⟩
  | 16 => ⟨S400000, .f32⟩
  | 17 => ⟨S400000, .f32⟩
  | 18 => ⟨S_, .i32⟩
  | 19 => ⟨S400000, .i32⟩
  | 20 => ⟨S400000, .i1⟩
  | 21 => ⟨S_, .i32⟩
  | 22 => ⟨S400000, .i32⟩
  | 23 => ⟨S400000, .i32⟩
  | 24 => ⟨S400000, .i32⟩
  | 25 => ⟨S400000x1, .i32⟩
  | 26 => ⟨S400000x128, .f32⟩
  | 27 => ⟨S400000x1, .f32⟩
  | 28 => ⟨S400000x128, .f32⟩
  | 29 => ⟨S400000x128, .f32⟩
  | 30 => ⟨S_, .f32⟩
  | 31 => ⟨S100000x128, .f32⟩
  | 32 => ⟨S400000x1, .i32⟩
  | 33 => ⟨S100000x128, .f32⟩
  | 34 => ⟨S100000, .f32⟩
  | 35 => ⟨S100000x1, .f32⟩
  | 36 => ⟨S100000x128, .f32⟩
  | 37 => ⟨S100000x128, .f32⟩
  | 38 => ⟨S100000x128, .f32⟩
  | 39 => ⟨S1x128, .f32⟩
  | 40 => ⟨S100000x128, .f32⟩
  | 41 => ⟨S100000x128, .f32⟩
  | 42 => ⟨S100000x256, .f32⟩
  | 43 => ⟨S100000x128, .f32⟩
  | 44 => ⟨S1x128, .f32⟩
  | 45 => ⟨S100000x128, .f32⟩
  | 46 => ⟨S100000x128, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S_, .f32⟩
  | 53 => ⟨S100000x128, .f32⟩
  | 54 => ⟨S100000x128, .f32⟩
  | 55 => ⟨S100000x256, .f32⟩
  | 56 => ⟨S100000x128, .f32⟩
  | 57 => ⟨S1x128, .f32⟩
  | 58 => ⟨S100000x128, .f32⟩
  | 59 => ⟨S100000x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S100000x128, .f32⟩
  | 69 => ⟨S100000x256, .f32⟩
  | 70 => ⟨S100000x128, .f32⟩
  | 71 => ⟨S1x128, .f32⟩
  | 72 => ⟨S100000x128, .f32⟩
  | 73 => ⟨S100000x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S100000x8, .f32⟩
  | 85 => ⟨S1x8, .f32⟩
  | 86 => ⟨S100000x8, .f32⟩
  | 87 => ⟨S100000x8, .f32⟩
  | 88 => ⟨S50000x8, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_c_0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_cst_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_c_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_c_6 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_c_7 : Ref sig .tc := ⟨.hbm, 58, rfl⟩
abbrev main_v32 : Ref sig .tc := ⟨.hbm, 59, rfl⟩
abbrev main_v33 : Ref sig .tc := ⟨.hbm, 60, rfl⟩
abbrev main_c_8 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_9 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_c_10 : Ref sig .tc := ⟨.hbm, 83, rfl⟩
abbrev main_v54 : Ref sig .tc := ⟨.hbm, 84, rfl⟩
abbrev main_v55 : Ref sig .tc := ⟨.hbm, 85, rfl⟩
abbrev main_c_11 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_12 : Ref sig .tc := ⟨.hbm, 92, rfl⟩
abbrev main_v61 : Ref sig .tc := ⟨.hbm, 93, rfl⟩
abbrev main_v62 : Ref sig .tc := ⟨.hbm, 94, rfl⟩
abbrev main_c_13 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_c_14 : Ref sig .tc := ⟨.hbm, 102, rfl⟩
abbrev main_v69 : Ref sig .tc := ⟨.hbm, 103, rfl⟩
abbrev main_v70 : Ref sig .tc := ⟨.hbm, 104, rfl⟩
abbrev main_c_15 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_16 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_c_17 : Ref sig .tc := ⟨.hbm, 127, rfl⟩
abbrev main_v91 : Ref sig .tc := ⟨.hbm, 128, rfl⟩
abbrev main_v92 : Ref sig .tc := ⟨.hbm, 129, rfl⟩
abbrev main_c_18 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_c_19 : Ref sig .tc := ⟨.hbm, 136, rfl⟩
abbrev main_v98 : Ref sig .tc := ⟨.hbm, 137, rfl⟩
abbrev main_v99 : Ref sig .tc := ⟨.hbm, 138, rfl⟩
abbrev main_c_20 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_c_21 : Ref sig .tc := ⟨.hbm, 146, rfl⟩
abbrev main_v106 : Ref sig .tc := ⟨.hbm, 147, rfl⟩
abbrev main_v107 : Ref sig .tc := ⟨.hbm, 148, rfl⟩
abbrev main_c_22 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_cst_23 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_cst_24 : Ref sig .tc := ⟨.hbm, 177, rfl⟩
abbrev main_v134 : Ref sig .tc := ⟨.hbm, 178, rfl⟩
abbrev main_v135 : Ref sig .tc := ⟨.hbm, 179, rfl⟩
abbrev main_cst_25 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_cst_26 : Ref sig .tc := ⟨.hbm, 190, rfl⟩
abbrev main_v145 : Ref sig .tc := ⟨.hbm, 191, rfl⟩
abbrev main_v146 : Ref sig .tc := ⟨.hbm, 192, rfl⟩
abbrev main_cst_27 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_cst_28 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_call0_cst : Ref sig .tc := ⟨.hbm, 209, rfl⟩
abbrev main_call0_v0 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S100000 : S_.BroadcastsInDim S100000 (![] : Fin 0 → Fin S100000.rank)
  bcast_S_S400000 : S_.BroadcastsInDim S400000 (![] : Fin 0 → Fin S400000.rank)
  bcast_S400000_S400000x1_0 : S400000.BroadcastsInDim S400000x1 (![0] : Fin 1 → Fin S400000x1.rank)
  bcast_S400000x1_S400000x128_0_1 : S400000x1.BroadcastsInDim S400000x128 (![0, 1] : Fin 2 → Fin S400000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x256_d1 : Shape.Concatenates [S100000x128, S100000x128] S100000x256 1
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  slices_S100000x8_S50000x8_0_0 : S100000x8.Slices ![0, 0] S50000x8
  scatter_S100000_S400000x1_S400000_n_0_0_1_wf : ScatterDims.WF S100000 S400000x1 S400000 [] [0] [0] 1
  dot_S100000x32_S32x128_S100000x128_1_0_0_1_n_n_wf : DotDims.WF S100000x32 S32x128 S100000x128 [1] [0] [0] [1] [] []
  gather_S100000_S400000x1_S400000_n_0_n_n_0_1_1_wf : GatherDims.WF S100000 S400000x1 S400000 [] [0] [] [0] [] 1 ![1]
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  dot_S100000x256_S256x128_S100000x128_1_0_0_1_n_n_wf : DotDims.WF S100000x256 S256x128 S100000x128 [1] [0] [0] [1] [] []
  dot_S100000x128_S128x8_S100000x8_1_0_0_1_n_n_wf : DotDims.WF S100000x128 S128x8 S100000x8 [1] [0] [0] [1] [] []

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def gather_S100000_S400000x1_S400000_n_0_n_n_0_1_1 : GatherDims S100000 S400000x1 S400000 where
  offsetDims := []
  collapsedSliceDims := [0]
  operandBatchingDims := []
  startIndicesBatchingDims := []
  startIndexMap := [0]
  indexVectorDim := 1
  sliceSizes := ![1]
  wf := gather_S100000_S400000x1_S400000_n_0_n_n_0_1_1_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x8_S100000x8_1_0_0_1_n_n : DotDims S100000x128 S128x8 S100000x8 where
  lhsContracting := [1]
  rhsContracting := [0]
  lhsNonContracting := [0]
  rhsNonContracting := [1]
  lhsBatch := []
  rhsBatch := []
  wf := dot_S100000x128_S128x8_S100000x8_1_0_0_1_n_n_wf

class Facts : Prop extends Facts₀ where

variable [Facts]
-- ==== Proof.Spec.lean ====
/-
  The arithmetic of one output row of the gated recurrent step, on the extended reals.

  For a node i the step combines three graph-convolved feature rows cz, cr, ch (128 entries each) with the
  node's hidden row h:
    z  = sigm (cz · Lz1 + h · Lz2 + lzb)            update gate
    r  = sigm (cr · Lr1 + h · Lr2 + lrb)            reset gate
    h~ = tanh (ch · Lh1 + (h ∘ r) · Lh2 + lhb)      candidate
    h' = z ∘ h + (1 - z) ∘ h~
    y  = max h' 0 · Wo + bo                         the 8 outputs
  where · is a row-by-matrix product, ∘ the entrywise product, and sigm x = 1 / (1 + exp (-x)).
  A weight matrix of 256 rows that multiplies the concatenation [a, h] appears here as its upper half
  (against a) and its lower half (against h): a sum over 256 positions is the sum over the first 128
  plus the sum over the last 128.
-/
import Idealize.ShloMosaic.PureOps.Ideal.Laws
import Idealize.ShloMosaic.Lib.ValueIdx

noncomputable section

namespace Cert.Gru

open Idealize.ShloMosaic
open scoped BigOperators

/-- The single-precision word of 1.0 as an extended real. -/
abbrev one32 : EReal := Ideal.ofBits .f32 0x3F800000#32
/-- The single-precision word of 0.0 as an extended real. -/
abbrev zero32 : EReal := Ideal.ofBits .f32 0x00000000#32

/-- The word of 1.0 denotes the number one. -/
theorem one32_eq : one32 = 1 := by
  show Ideal.ofBits .f32 0x3F800000#32 = 1
  simp [Ideal.ofBits, Ideal.ieee, -EReal.coe_mul]; norm_num

/-- The logistic function spelt as a quotient, with the word of 1.0 for both ones. -/
def sigm (x : EReal) : EReal := Ideal.div one32 (one32 + Ideal.exp (-x))

/-- The quotient spelling is the logistic function. -/
theorem sigm_eq_logistic (x : EReal) : sigm x = Ideal.logistic x := by
  unfold sigm Ideal.logistic; rw [one32_eq]

/-- A gate's pre-activation at position f: the row a against the upper weights, the hidden row h against the
    lower weights, plus the bias. -/
def gate (a h : Fin 128 → EReal) (L1 L2 : Fin 128 → Fin 128 → EReal) (b : Fin 128 → EReal) (f : Fin 128) : EReal :=
  (∑ k : Fin 128, a k * L1 k f + ∑ k : Fin 128, h k * L2 k f) + b f

/-- Output p of one row. -/
def rowOut (cz cr ch h : Fin 128 → EReal) (Lz1 Lz2 Lr1 Lr2 Lh1 Lh2 : Fin 128 → Fin 128 → EReal)
    (lzb lrb lhb : Fin 128 → EReal) (Wo : Fin 128 → Fin 8 → EReal) (bo : Fin 8 → EReal) (p : Fin 8) : EReal :=
  (∑ f : Fin 128,
      max (sigm (gate cz h Lz1 Lz2 lzb f) * h f
            + (one32 - sigm (gate cz h Lz1 Lz2 lzb f))
              * Ideal.tanh (gate ch (fun k => h k * sigm (gate cr h Lr1 Lr2 lrb k)) Lh1 Lh2 lhb f))
          zero32
        * Wo f p)
    + bo p

/-- A sum over 256 positions is the sum over the first 128 plus the sum over the last 128. -/
theorem sum_256_split (g : Fin 256 → EReal) :
    ∑ k : Fin 256, g k = ∑ k : Fin 128, g (Fin.castAdd 128 k) + ∑ k : Fin 128, g (Fin.natAdd 128 k) :=
  Fin.sum_univ_add (a := 128) (b := 128) g

/-- Row i of the first 50000 rows, as a row of all 100000. -/
abbrev up (i : Fin 50000) : Fin 100000 := ⟨i.val, by have := i.isLt; omega⟩

end Cert.Gru

end
-- ==== Proof.LibDotSum.lean ====
/-
  A matrix product with ONE contracted axis, read at an index as a plain sum over that axis: for the host's
  product and for the matrix unit's product into a zero accumulator, both on the extended reals. The caller names the
  two operands' indices at contraction position k; the lemma re-indexes the sum by the axis's one coordinate.
-/
import Idealize.ShloMosaic.Lib.ValueIdx
import Idealize.ShloMosaic.Lib.KernelVsHost
import Idealize.ShloMosaic.PureOps.Ideal.Laws

namespace Idealize.ShloMosaic.DotSum

open Idealize.ShloMosaic Idealize.ShloMosaic.ValueIdx

/-- The host's product at an output index is the sum over the contracted axis of the operands' products, each read
    where the dimension numbers put it. -/
theorem dotGeneral_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    Host.dotGeneral d none x w j = ∑ k : Fin K, x (li k) * w (ri k) := by
  show FloatOps.dotGeneral d none _ x w j = _
  rw [Ideal.dotGeneral_apply, ← Equiv.sum_comp (contrEquiv1 d K hr hs).symm]
  exact Finset.sum_congr rfl fun k _ => by rw [hl k, hw k]

/-- The matrix unit's product into a zero accumulator likewise (its operands may be of a narrower format: on the
    extended reals a format is no restriction). -/
theorem matmul_zero_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d none x w (constant so .f32 0x00000000#32) j = ∑ k : Fin K, x (li k) * w (ri k) := by
  rw [matmul_zero_eq_dotGeneral]
  exact dotGeneral_eq_sum d K hr hs x w j li ri hl hw

end Idealize.ShloMosaic.DotSum
-- ==== Proof.RefRow.lean ====
/-
  The reference program's last stretch, read at one entry of its result.

  After the three graph convolutions the reference program holds three arrays cz, cr, ch of 100000 rows by 128
  columns, and the hidden state H of the same shape. For each gate it joins two such arrays side by side into
  100000 by 256, multiplies by a 256-row weight matrix and adds a bias row; the update and reset gates apply
  x ↦ 1 / (1 + exp (-x)), the candidate applies tanh to the product built from [ch, H ∘ r]; the new hidden state is
  z ∘ H + (1 - z) ∘ candidate; its positive part is multiplied by the 128 by 8 output matrix, the output bias is
  added, and rows 0 … 49999 are kept.

  Read at the entry (i, p) this is the row specification: every operation is entrywise or a product along one
  axis, so the entry depends on row i of the four arrays only. The one step that is not a plain unfolding is the
  product with a joined array: a sum over 256 positions splits into the first 128, where the joined array reads
  its first piece, and the last 128, where it reads its second piece 128 columns to the left.
-/
import proofs.«110348_j49383533969725_2_alg».proof.Proof.Gen.ReferenceIdeal.Read
import proofs.«110348_j49383533969725_2_alg».proof.Proof.Spec
import proofs.«110348_j49383533969725_2_alg».proof.Proof.LibDotSum
import Idealize.ShloMosaic.Lib.Pipeline.Value
import Idealize.ShloMosaic.Lib.ValueIdx

noncomputable section

namespace Cert.RefRow

open Cert.ReferenceIdeal Cert.ReferenceIdeal.Gen Cert.ReferenceIdeal.Read
open Idealize.ShloMosaic Idealize.ShloMosaic.ValueIdx Idealize.SL.Sem
open Cert.Gru
open scoped BigOperators

/-- The contents of a single-precision array of the given shape, on the extended reals. -/
abbrev Arr (s : Shape) : Type := (⟨s, .f32⟩ : BufTy).Contents (Elt Ideal)

/-- Two rank-2 indices are equal when their coordinates are. -/
local macro "idx2" : tactic => `(tactic| (funext a; match a with | ⟨0, _⟩ => rfl | ⟨1, _⟩ => rfl))
/-- Two rank-1 indices are equal when their coordinate is. -/
local macro "idx1" : tactic => `(tactic| (funext a; match a with | ⟨0, _⟩ => rfl))

/-! ### Where each operation reads its operands, in coordinates -/

section Indices

variable (n : Fin 100000) (f : Fin 128) (k : Fin 256)

theorem lidx128 : lidx_main_v128 (ix2 n f) k = ix2 n k := by idx2
theorem ridx128 : ridx_main_v128 (ix2 n f) k = ix2 k f := by idx2
theorem lidx139 : lidx_main_v139 (ix2 n f) k = ix2 n k := by idx2
theorem ridx139 : ridx_main_v139 (ix2 n f) k = ix2 k f := by idx2
theorem lidx151 : lidx_main_v151 (ix2 n f) k = ix2 n k := by idx2
theorem ridx151 : ridx_main_v151 (ix2 n f) k = ix2 k f := by idx2
theorem bias129 : idx_main_v129 (idx_main_v130 (ix2 n f)) = ix1 f := by idx1
theorem bias140 : idx_main_v140 (idx_main_v141 (ix2 n f)) = ix1 f := by idx1
theorem bias152 : idx_main_v152 (idx_main_v153 (ix2 n f)) = ix1 f := by idx1

theorem lidx162 (p : Fin 8) (j : Fin 128) : lidx_main_v162 (ix2 n p) j = ix2 n j := by idx2
theorem ridx162 (p : Fin 8) (j : Fin 128) : ridx_main_v162 (ix2 n p) j = ix2 j p := by idx2
theorem bias163 (p : Fin 8) : idx_main_v163 (idx_main_v164 (ix2 n p)) = ix1 p := by idx1
/-- The result keeps rows 0 … 49999: its row i is row i of the full array. -/
theorem out_idx (i : Fin 50000) (p : Fin 8) : idx_main_v166 (ix2 i p) = ix2 (up i) p := by idx2

end Indices

/-! ### A row of the concatenation [A, B] against a 256-row weight matrix -/

section Concat

variable (A B : Arr S100000x128) (L : Arr S256x128)
  (hc : Shape.Concatenates [S100000x128, S100000x128] S100000x256 1) (n : Fin 100000)

/-- Columns 0 … 127 of the concatenation are the first piece. -/
theorem cat_left (k : Fin 128) :
    concatenate S100000x256 1 [⟨S100000x128, A⟩, ⟨S100000x128, B⟩] hc (ix2 n (Fin.castAdd 128 k : Fin 256))
      = A (ix2 n k) :=
  concatenate_pair_apply_left 1 A B hc _ rfl (ix2 n k)
    (fun b => match b with | ⟨0, _⟩ => rfl | ⟨1, _⟩ => rfl)

/-- Columns 128 … 255 of the concatenation are the second piece, shifted by 128. -/
theorem cat_right (k : Fin 128) :
    concatenate S100000x256 1 [⟨S100000x128, A⟩, ⟨S100000x128, B⟩] hc (ix2 n (Fin.natAdd 128 k : Fin 256))
      = B (ix2 n k) :=
  concatenate_pair_apply_right 1 A B hc _ rfl rfl (ix2 n k)
    (fun b hb => match b, hb with
      | ⟨0, _⟩, _ => rfl
      | ⟨1, _⟩, hb => absurd (Fin.ext rfl) hb)
    (by show k.val + 128 = 128 + k.val; omega)

/-- The product of row n of [A, B] with column f of L: the sum over 256 positions splits into row n of A against
    the upper half of L plus row n of B against the lower half. -/
theorem cat_dot (f : Fin 128) :
    ∑ k : Fin 256, concatenate S100000x256 1 [⟨S100000x128, A⟩, ⟨S100000x128, B⟩] hc (ix2 n k) * L (ix2 k f)
      = ∑ k : Fin 128, A (ix2 n k) * L (ix2 (Fin.castAdd 128 k : Fin 256) f)
        + ∑ k : Fin 128, B (ix2 n k) * L (ix2 (Fin.natAdd 128 k : Fin 256) f) := by
  rw [Cert.Gru.sum_256_split]
  congr 1
  · exact Finset.sum_congr rfl fun k _ => by rw [cat_left]
  · exact Finset.sum_congr rfl fun k _ => by rw [cat_right]

end Concat

/-! ### The three gates, the combination and the output layer, at one entry -/

section Row

variable (x0 : Arr S100000x32) (x1 : Arr S100000x128) (x2 : (⟨S2x400000, .i32⟩ : BufTy).Contents (Elt Ideal))
  (x3 : Arr S32x128) (x4 : Arr S128) (x5 : Arr S32x128) (x6 : Arr S128) (x7 : Arr S32x128) (x8 : Arr S128)
  (x9 : Arr S256x128) (x10 : Arr S128) (x11 : Arr S256x128) (x12 : Arr S128) (x13 : Arr S256x128) (x14 : Arr S128)
  (x15 : Arr S128x8) (x16 : Arr S8) (n : Fin 100000) (f : Fin 128)

/-- The update gate's product: row n of [cz, H] against the 256-row weights. -/
theorem dot_z :
    val_main_v128 (F := Ideal) x0 x1 x2 x3 x4 x9 (ix2 n f)
      = ∑ k : Fin 128, val_main_v52 (F := Ideal) x0 x2 x3 x4 (ix2 n k) * x9 (ix2 (Fin.castAdd 128 k : Fin 256) f)
        + ∑ k : Fin 128, x1 (ix2 n k) * x9 (ix2 (Fin.natAdd 128 k : Fin 256) f) := by
  rw [val_main_v128_apply]
  unfold val_main_v127
  refine (Finset.sum_congr rfl fun k _ => ?_).trans (cat_dot _ _ x9 concatenates_S100000x128_S100000x128_S100000x256_d1 n f)
  rw [lidx128, ridx128]

/-- The update gate's pre-activation is the specification's. -/
theorem pre_z :
    val_main_v131 (F := Ideal) x0 x1 x2 x3 x4 x9 x10 (ix2 n f)
      = gate (fun k => val_main_v52 (F := Ideal) x0 x2 x3 x4 (ix2 n k)) (fun k => x1 (ix2 n k))
          (fun k f => x9 (ix2 (Fin.castAdd 128 k) f)) (fun k f => x9 (ix2 (Fin.natAdd 128 k) f))
          (fun f => x10 (ix1 f)) f := by
  rw [val_main_v131_apply, dot_z, val_main_v130_apply, val_main_v129_apply, bias129] <;> rfl

/-- The update gate: one over one plus the exponential of the negated pre-activation. -/
theorem sig_z :
    val_main_v137 (F := Ideal) x0 x1 x2 x3 x4 x9 x10 (ix2 n f)
      = sigm (gate (fun k => val_main_v52 (F := Ideal) x0 x2 x3 x4 (ix2 n k)) (fun k => x1 (ix2 n k))
          (fun k f => x9 (ix2 (Fin.castAdd 128 k) f)) (fun k f => x9 (ix2 (Fin.natAdd 128 k) f))
          (fun f => x10 (ix1 f)) f) := by
  rw [val_main_v137_apply, val_main_v136_apply, val_main_cst_25_apply, val_main_v135_apply, val_main_v134_apply,
    val_main_cst_24_apply, val_main_v133_apply, val_main_v132_apply, pre_z]
  simp only [Ideal.hostDivf_def, Ideal.addf_def, Ideal.hostUnary_exp_def, Ideal.hostNegf_def, Ideal.negf_def,
    Ideal.ofBits_def]
  rfl

/-- The reset gate's product: row n of [cr, H] against the 256-row weights. -/
theorem dot_r :
    val_main_v139 (F := Ideal) x0 x1 x2 x5 x6 x11 (ix2 n f)
      = ∑ k : Fin 128, val_main_v89 (F := Ideal) x0 x2 x5 x6 (ix2 n k) * x11 (ix2 (Fin.castAdd 128 k : Fin 256) f)
        + ∑ k : Fin 128, x1 (ix2 n k) * x11 (ix2 (Fin.natAdd 128 k : Fin 256) f) := by
  rw [val_main_v139_apply]
  unfold val_main_v138
  refine (Finset.sum_congr rfl fun k _ => ?_).trans
    (cat_dot _ _ x11 concatenates_S100000x128_S100000x128_S100000x256_d1 n f)
  rw [lidx139, ridx139]

/-- The reset gate's pre-activation is the specification's. -/
theorem pre_r :
    val_main_v142 (F := Ideal) x0 x1 x2 x5 x6 x11 x12 (ix2 n f)
      = gate (fun k => val_main_v89 (F := Ideal) x0 x2 x5 x6 (ix2 n k)) (fun k => x1 (ix2 n k))
          (fun k f => x11 (ix2 (Fin.castAdd 128 k) f)) (fun k f => x11 (ix2 (Fin.natAdd 128 k) f))
          (fun f => x12 (ix1 f)) f := by
  rw [val_main_v142_apply, dot_r, val_main_v141_apply, val_main_v140_apply, bias140] <;> rfl

/-- The reset gate. -/
theorem sig_r :
    val_main_v148 (F := Ideal) x0 x1 x2 x5 x6 x11 x12 (ix2 n f)
      = sigm (gate (fun k => val_main_v89 (F := Ideal) x0 x2 x5 x6 (ix2 n k)) (fun k => x1 (ix2 n k))
          (fun k f => x11 (ix2 (Fin.castAdd 128 k) f)) (fun k f => x11 (ix2 (Fin.natAdd 128 k) f))
          (fun f => x12 (ix1 f)) f) := by
  rw [val_main_v148_apply, val_main_v147_apply, val_main_cst_27_apply, val_main_v146_apply, val_main_v145_apply,
    val_main_cst_26_apply, val_main_v144_apply, val_main_v143_apply, pre_r]
  simp only [Ideal.hostDivf_def, Ideal.addf_def, Ideal.hostUnary_exp_def, Ideal.hostNegf_def, Ideal.negf_def,
    Ideal.ofBits_def]
  rfl

/-- The candidate's product: row n of [ch, H ∘ r] against the 256-row weights; the second piece is the hidden row
    times the reset gate, entry by entry. -/
theorem dot_h :
    val_main_v151 (F := Ideal) x0 x1 x2 x5 x6 x7 x8 x11 x12 x13 (ix2 n f)
      = ∑ k : Fin 128, val_main_v126 (F := Ideal) x0 x2 x7 x8 (ix2 n k) * x13 (ix2 (Fin.castAdd 128 k : Fin 256) f)
        + ∑ k : Fin 128,
            (x1 (ix2 n k)
              * sigm (gate (fun k => val_main_v89 (F := Ideal) x0 x2 x5 x6 (ix2 n k)) (fun k => x1 (ix2 n k))
                  (fun k f => x11 (ix2 (Fin.castAdd 128 k) f)) (fun k f => x11 (ix2 (Fin.natAdd 128 k) f))
                  (fun f => x12 (ix1 f)) k))
            * x13 (ix2 (Fin.natAdd 128 k : Fin 256) f) := by
  rw [val_main_v151_apply]
  unfold val_main_v150
  refine (Finset.sum_congr rfl fun k _ => ?_).trans
    ((cat_dot (val_main_v126 (F := Ideal) x0 x2 x7 x8) (val_main_v149 (F := Ideal) x0 x1 x2 x5 x6 x11 x12) x13
      concatenates_S100000x128_S100000x128_S100000x256_d1 n f).trans ?_)
  · rw [lidx151, ridx151]
  · refine congrArg (fun t : EReal => (∑ k : Fin 128, val_main_v126 (F := Ideal) x0 x2 x7 x8 (ix2 n k)
        * x13 (ix2 (Fin.castAdd 128 k : Fin 256) f)) + t) (Finset.sum_congr rfl fun k _ => ?_)
    rw [val_main_v149_apply, sig_r] <;> simp only [Ideal.mulf_def]

/-- The candidate's pre-activation is the specification's, with the hidden row replaced by its product with the
    reset gate. -/
theorem pre_h :
    val_main_v154 (F := Ideal) x0 x1 x2 x5 x6 x7 x8 x11 x12 x13 x14 (ix2 n f)
      = gate (fun k => val_main_v126 (F := Ideal) x0 x2 x7 x8 (ix2 n k))
          (fun k => x1 (ix2 n k)
            * sigm (gate (fun k => val_main_v89 (F := Ideal) x0 x2 x5 x6 (ix2 n k)) (fun k => x1 (ix2 n k))
                (fun k f => x11 (ix2 (Fin.castAdd 128 k) f)) (fun k f => x11 (ix2 (Fin.natAdd 128 k) f))
                (fun f => x12 (ix1 f)) k))
          (fun k f => x13 (ix2 (Fin.castAdd 128 k) f)) (fun k f => x13 (ix2 (Fin.natAdd 128 k) f))
          (fun f => x14 (ix1 f)) f := by
  rw [val_main_v154_apply, dot_h, val_main_v153_apply, val_main_v152_apply, bias152] <;> rfl

/-- The new hidden entry: z ∘ h + (1 - z) ∘ tanh (candidate pre-activation). -/
theorem new_h :
    val_main_v160 (F := Ideal) x0 x1 x2 x3 x4 x5 x6 x7 x8 x9 x10 x11 x12 x13 x14 (ix2 n f)
      = sigm (gate (fun k => val_main_v52 (F := Ideal) x0 x2 x3 x4 (ix2 n k)) (fun k => x1 (ix2 n k))
            (fun k f => x9 (ix2 (Fin.castAdd 128 k) f)) (fun k f => x9 (ix2 (Fin.natAdd 128 k) f))
            (fun f => x10 (ix1 f)) f) * x1 (ix2 n f)
        + (one32 - sigm (gate (fun k => val_main_v52 (F := Ideal) x0 x2 x3 x4 (ix2 n k)) (fun k => x1 (ix2 n k))
            (fun k f => x9 (ix2 (Fin.castAdd 128 k) f)) (fun k f => x9 (ix2 (Fin.natAdd 128 k) f))
            (fun f => x10 (ix1 f)) f))
          * Ideal.tanh (gate (fun k => val_main_v126 (F := Ideal) x0 x2 x7 x8 (ix2 n k))
              (fun k => x1 (ix2 n k)
                * sigm (gate (fun k => val_main_v89 (F := Ideal) x0 x2 x5 x6 (ix2 n k)) (fun k => x1 (ix2 n k))
                    (fun k f => x11 (ix2 (Fin.castAdd 128 k) f)) (fun k f => x11 (ix2 (Fin.natAdd 128 k) f))
                    (fun f => x12 (ix1 f)) k))
              (fun k f => x13 (ix2 (Fin.castAdd 128 k) f)) (fun k f => x13 (ix2 (Fin.natAdd 128 k) f))
              (fun f => x14 (ix1 f)) f) := by
  rw [val_main_v160_apply, val_main_v156_apply, val_main_v159_apply, val_main_v158_apply, val_main_v157_apply,
    val_main_cst_28_apply, val_main_v155_apply, sig_z, pre_h]
  simp only [Ideal.addf_def, Ideal.mulf_def, Ideal.subf_def, Ideal.hostUnary_tanh_def, Ideal.ofBits_def]

/-- The rectified new hidden entry: the maximum with (the word of) zero. -/
theorem relu_row :
    val_main_v161 (F := Ideal) x0 x1 x2 x3 x4 x5 x6 x7 x8 x9 x10 x11 x12 x13 x14 (ix2 n f)
      = max (sigm (gate (fun k => val_main_v52 (F := Ideal) x0 x2 x3 x4 (ix2 n k)) (fun k => x1 (ix2 n k))
              (fun k f => x9 (ix2 (Fin.castAdd 128 k) f)) (fun k f => x9 (ix2 (Fin.natAdd 128 k) f))
              (fun f => x10 (ix1 f)) f) * x1 (ix2 n f)
          + (one32 - sigm (gate (fun k => val_main_v52 (F := Ideal) x0 x2 x3 x4 (ix2 n k)) (fun k => x1 (ix2 n k))
              (fun k f => x9 (ix2 (Fin.castAdd 128 k) f)) (fun k f => x9 (ix2 (Fin.natAdd 128 k) f))
              (fun f => x10 (ix1 f)) f))
            * Ideal.tanh (gate (fun k => val_main_v126 (F := Ideal) x0 x2 x7 x8 (ix2 n k))
                (fun k => x1 (ix2 n k)
                  * sigm (gate (fun k => val_main_v89 (F := Ideal) x0 x2 x5 x6 (ix2 n k)) (fun k => x1 (ix2 n k))
                      (fun k f => x11 (ix2 (Fin.castAdd 128 k) f)) (fun k f => x11 (ix2 (Fin.natAdd 128 k) f))
                      (fun f => x12 (ix1 f)) k))
                (fun k f => x13 (ix2 (Fin.castAdd 128 k) f)) (fun k f => x13 (ix2 (Fin.natAdd 128 k) f))
                (fun f => x14 (ix1 f)) f))
          zero32 := by
  rw [val_main_v161_apply, val_main_call0_v0_apply, val_main_call0_cst_apply, new_h] <;> rfl

/-- One entry of the full 100000-row output: the specification's row output at row n. -/
theorem out_row (p : Fin 8) :
    val_main_v165 (F := Ideal) x0 x1 x2 x3 x4 x5 x6 x7 x8 x9 x10 x11 x12 x13 x14 x15 x16 (ix2 n p)
      = rowOut
          (fun k => val_main_v52 (F := Ideal) x0 x2 x3 x4 (ix2 n k))
          (fun k => val_main_v89 (F := Ideal) x0 x2 x5 x6 (ix2 n k))
          (fun k => val_main_v126 (F := Ideal) x0 x2 x7 x8 (ix2 n k))
          (fun k => x1 (ix2 n k))
          (fun k f => x9 (ix2 (Fin.castAdd 128 k) f)) (fun k f => x9 (ix2 (Fin.natAdd 128 k) f))
          (fun k f => x11 (ix2 (Fin.castAdd 128 k) f)) (fun k f => x11 (ix2 (Fin.natAdd 128 k) f))
          (fun k f => x13 (ix2 (Fin.castAdd 128 k) f)) (fun k f => x13 (ix2 (Fin.natAdd 128 k) f))
          (fun f => x10 (ix1 f)) (fun f => x12 (ix1 f)) (fun f => x14 (ix1 f))
          (fun f q => x15 (ix2 f q)) (fun q => x16 (ix1 q)) p := by
  rw [val_main_v165_apply, val_main_v162_apply, val_main_v164_apply, val_main_v163_apply, bias163]
  refine congrArg (fun t : EReal => t + x16 (ix1 p)) (Finset.sum_congr rfl fun j _ => ?_)
  rw [lidx162, ridx162, relu_row]

/-- One entry of the reference program's result (rows 0 … 49999 of the full output): the specification's row output
    at row i, from the three graph-convolved rows, the hidden row, the gate weights split into upper and lower
    halves, the biases and the output layer. -/
theorem ref_row (i : Fin 50000) (p : Fin 8) :
    val_main_v166 (F := Ideal) x0 x1 x2 x3 x4 x5 x6 x7 x8 x9 x10 x11 x12 x13 x14 x15 x16 (ix2 i p)
      = Cert.Gru.rowOut
          (fun k => val_main_v52 (F := Ideal) x0 x2 x3 x4 (ix2 (Cert.Gru.up i) k))
          (fun k => val_main_v89 (F := Ideal) x0 x2 x5 x6 (ix2 (Cert.Gru.up i) k))
          (fun k => val_main_v126 (F := Ideal) x0 x2 x7 x8 (ix2 (Cert.Gru.up i) k))
          (fun k => x1 (ix2 (Cert.Gru.up i) k))
          (fun k f => x9 (ix2 (Fin.castAdd 128 k) f)) (fun k f => x9 (ix2 (Fin.natAdd 128 k) f))
          (fun k f => x11 (ix2 (Fin.castAdd 128 k) f)) (fun k f => x11 (ix2 (Fin.natAdd 128 k) f))
          (fun k f => x13 (ix2 (Fin.castAdd 128 k) f)) (fun k f => x13 (ix2 (Fin.natAdd 128 k) f))
          (fun f => x10 (ix1 f)) (fun f => x12 (ix1 f)) (fun f => x14 (ix1 f))
          (fun f q => x15 (ix2 f q)) (fun q => x16 (ix1 q)) p := by
  rw [val_main_v166_apply, out_idx]
  exact out_row x0 x1 x2 x3 x4 x5 x6 x7 x8 x9 x10 x11 x12 x13 x14 x15 x16 (Cert.Gru.up i) p

end Row

/-- The same for the result term of the reference program's run: on every device, from any memory m, the entry
    (i, p) of the result is the specification's row output at row i of the argument arrays m holds. -/
theorem ref_row_run (m : (ℓ : Loc Cert.ReferenceIdeal.nD Cert.ReferenceIdeal.τ Cert.ReferenceIdeal.sig) → Buf (Elt Ideal) ℓ)
    (c : Dev Cert.ReferenceIdeal.nD) (i : Fin 50000) (p : Fin 8) :
    Cert.ReferenceIdeal.Value.res_main_v166 (F := Ideal) m c (ix2 i p)
      = Cert.Gru.rowOut
          (fun k => val_main_v52 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (ix2 (Cert.Gru.up i) k))
          (fun k => val_main_v89 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (ix2 (Cert.Gru.up i) k))
          (fun k => val_main_v126 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (ix2 (Cert.Gru.up i) k))
          (fun k => (m ((c.tc : Thread Cert.ReferenceIdeal.nD Cert.ReferenceIdeal.τ).loc Cert.ReferenceIdeal.main_arg1)) (ix2 (Cert.Gru.up i) k))
          (fun k f => (m ((c.tc : Thread Cert.ReferenceIdeal.nD Cert.ReferenceIdeal.τ).loc Cert.ReferenceIdeal.main_arg9)) (ix2 (Fin.castAdd 128 k) f)) (fun k f => (m ((c.tc : Thread Cert.ReferenceIdeal.nD Cert.ReferenceIdeal.τ).loc Cert.ReferenceIdeal.main_arg9)) (ix2 (Fin.natAdd 128 k) f))
          (fun k f => (m ((c.tc : Thread Cert.ReferenceIdeal.nD Cert.ReferenceIdeal.τ).loc Cert.ReferenceIdeal.main_arg11)) (ix2 (Fin.castAdd 128 k) f)) (fun k f => (m ((c.tc : Thread Cert.ReferenceIdeal.nD Cert.ReferenceIdeal.τ).loc Cert.ReferenceIdeal.main_arg11)) (ix2 (Fin.natAdd 128 k) f))
          (fun k f => (m ((c.tc : Thread Cert.ReferenceIdeal.nD Cert.ReferenceIdeal.τ).loc Cert.ReferenceIdeal.main_arg13)) (ix2 (Fin.castAdd 128 k) f)) (fun k f => (m ((c.tc : Thread Cert.ReferenceIdeal.nD Cert.ReferenceIdeal.τ).loc Cert.ReferenceIdeal.main_arg13)) (ix2 (Fin.natAdd 128 k) f))
          (fun f => (m ((c.tc : Thread Cert.ReferenceIdeal.nD Cert.ReferenceIdeal.τ).loc Cert.ReferenceIdeal.main_arg10)) (ix1 f)) (fun f => (m ((c.tc : Thread Cert.ReferenceIdeal.nD Cert.ReferenceIdeal.τ).loc Cert.ReferenceIdeal.main_arg12)) (ix1 f)) (fun f => (m ((c.tc : Thread Cert.ReferenceIdeal.nD Cert.ReferenceIdeal.τ).loc Cert.ReferenceIdeal.main_arg14)) (ix1 f))
          (fun f q => (m ((c.tc : Thread Cert.ReferenceIdeal.nD Cert.ReferenceIdeal.τ).loc Cert.ReferenceIdeal.main_arg15)) (ix2 f q)) (fun q => (m ((c.tc : Thread Cert.ReferenceIdeal.nD Cert.ReferenceIdeal.τ).loc Cert.ReferenceIdeal.main_arg16)) (ix1 q)) p := by
  rw [val_main_v166_eq]
  exact ref_row _ _ _ _ _ _ _ _ _ _ _ _ _ _ _ _ _ i p

end Cert.RefRow

end
-- ==== Proof.RowOps.lean ====
/-
  A table of rows read and written by row number, on a matrix of N rows and C columns with E row numbers
  given as one column of integer words.

  GATHER: entry (e, c) of the result is the matrix's entry (row e, c), where "row e" is the e-th word read as a
  signed integer and clamped into [0, N - 1].
  SCATTER-ADD: entry (i, c) of the result is the matrix's entry plus the sum of the update's entries (e, c) over
  the edges e whose word, read as a signed integer and NOT clamped, equals i; an edge whose word names no row
  contributes nothing.
  In both, the column c passes through unchanged, so the row map does not depend on the number of columns.
-/
import Idealize.ShloMosaic.Lib.ValueIdx
import Idealize.ShloMosaic.PureOps.Ideal.Laws
import Idealize.ShloMosaic.PureOps.Contract

noncomputable section

namespace Cert.RowOps

open Idealize.ShloMosaic Idealize.ShloMosaic.ValueIdx
open scoped BigOperators

variable {α : Type}

/-- The dimension numbers of a gather of whole rows by one column of row numbers. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a word names for a gather: read signed, clamped into [0, N - 1]. -/
def clampRow (N : Nat) (hN : 0 < N) {w : Nat} (b : BitVec w) : Fin N := ⟨min b.toInt.toNat (N - 1), by omega⟩

/-- The gather read at (e, c). -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather N E C wf) x idx (ix2 e c) = x (ix2 (clampRow N hN (idx (ix2 e (0 : Fin 1)))) c) := by
  unfold Host.gather
  congr 1
  funext a
  refine Fin.ext ?_
  match a with
  | ⟨0, _⟩ =>
    show (rowGather N E C wf).start (ix2 e c) idx 0 + (rowGather N E C wf).batchCoord (ix2 e c) 0
      + (rowGather N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e c) ⟨List.idxOf (0 : Fin 2) (rowGather N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N E C wf).start (ix2 e c) idx 1 + (rowGather N E C wf).batchCoord (ix2 e c) 1
      + (rowGather N E C wf).offCoord (ix2 e c) 1 = c.val
    rw [GatherDims.batchCoord_eq_zero _ _ _ List.not_mem_nil]
    unfold GatherDims.start
    rw [dif_neg (show ¬ (1 : Fin 2) ∈ (rowGather N E C wf).startIndexMap from
      (by decide : (1 : Fin 2) ∉ [(0 : Fin 2)]))]
    unfold GatherDims.offCoord
    rw [dif_pos (show (1 : Fin 2) ∈ (rowGather N E C wf).sKept from
      (GatherDims.mem_sKept _ _).mpr ⟨(by decide : (1 : Fin 2) ∉ [(0 : Fin 2)]), List.not_mem_nil⟩)]
    simp only [Nat.zero_add, Nat.add_zero]
    rfl

/-- The dimension numbers of a scatter of whole rows by one column of row numbers. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where the update entry (e, c) lands: row number = the e-th word read signed, same column; nowhere when that
    is not a row of the matrix. -/
theorem rowScatter_resultIdx {N E C w : Nat} (wf : ScatterDims.WF ⟨2, ![N, C]⟩ ⟨2, ![E, 1]⟩ ⟨2, ![E, C]⟩ [1] [0] [0] 1)
    (idx : IVec ⟨2, ![E, 1]⟩ w) (e : Fin E) (c : Fin C) (i : Fin N) (c' : Fin C) :
    (rowScatter N E C wf).resultIdx? (ix2 e c) idx = some (ix2 i c')
      ↔ (idx (ix2 e (0 : Fin 1))).toInt = (i.val : Int) ∧ c = c' := by
  have hs0 : (rowScatter N E C wf).start (ix2 e c) idx 0 = (idx (ix2 e (0 : Fin 1))).toInt := by
    unfold ScatterDims.start
    rw [dif_pos (show (0 : Fin 2) ∈ (rowScatter N E C wf).scatterDimsToOperandDims from List.mem_singleton.mpr rfl)]
    congr 1
    congr 1
    funext b; refine Fin.ext ?_
    match b with
    | ⟨0, _⟩ => rfl
    | ⟨1, _⟩ => rfl
  have hs1 : (rowScatter N E C wf).start (ix2 e c) idx 1 = 0 := by
    unfold ScatterDims.start
    rw [dif_neg (show ¬ (1 : Fin 2) ∈ (rowScatter N E C wf).scatterDimsToOperandDims from
      (by decide : (1 : Fin 2) ∉ [(0 : Fin 2)]))]
  have hw0 : (rowScatter N E C wf).window (ix2 e c) 0 = 0 := by
    unfold ScatterDims.window
    rw [dif_neg (show ¬ (0 : Fin 2) ∈ (rowScatter N E C wf).sKept from by
      show ¬ (0 : Fin 2) ∈ (⟨2, ![N, C]⟩ : Shape).kept [(0 : Fin 2)]
      simp [Shape.kept])]
  have hw1 : (rowScatter N E C wf).window (ix2 e c) 1 = c.val := by
    unfold ScatterDims.window
    rw [dif_pos (show (1 : Fin 2) ∈ (rowScatter N E C wf).sKept from by
      show (1 : Fin 2) ∈ (⟨2, ![N, C]⟩ : Shape).kept [(0 : Fin 2)]
      simp [Shape.kept])]
    rfl
  unfold ScatterDims.resultIdx?
  constructor
  · intro h
    split at h
    · rename_i hall
      have h' := Option.some.inj h
      have e0 := congrFun h' 0
      have e1 := congrFun h' 1
      have v0 : ((rowScatter N E C wf).start (ix2 e c) idx 0 + (rowScatter N E C wf).window (ix2 e c) 0).toNat = i.val :=
        congrArg Fin.val e0
      have v1 : ((rowScatter N E C wf).start (ix2 e c) idx 1 + (rowScatter N E C wf).window (ix2 e c) 1).toNat = c'.val :=
        congrArg Fin.val e1
      have b0 := (hall 0).1
      rw [hs0, hw0] at v0 b0
      rw [hs1, hw1] at v1
      refine ⟨by omega, Fin.ext (by omega)⟩
    · exact absurd h (by simp)
  · rintro ⟨hi, rfl⟩
    have hall : ∀ a : Fin 2, 0 ≤ (rowScatter N E C wf).start (ix2 e c) idx a + (rowScatter N E C wf).window (ix2 e c) a
        ∧ (rowScatter N E C wf).start (ix2 e c) idx a + (rowScatter N E C wf).window (ix2 e c) a
          < ((⟨2, ![N, C]⟩ : Shape).size a : Int) := by
      intro a
      match a with
      | ⟨0, _⟩ =>
        show 0 ≤ (rowScatter N E C wf).start (ix2 e c) idx 0 + (rowScatter N E C wf).window (ix2 e c) 0 ∧
          (rowScatter N E C wf).start (ix2 e c) idx 0 + (rowScatter N E C wf).window (ix2 e c) 0 < (N : Int)
        rw [hs0, hw0, hi]; have := i.isLt; omega
      | ⟨1, _⟩ =>
        show 0 ≤ (rowScatter N E C wf).start (ix2 e c) idx 1 + (rowScatter N E C wf).window (ix2 e c) 1 ∧
          (rowScatter N E C wf).start (ix2 e c) idx 1 + (rowScatter N E C wf).window (ix2 e c) 1 < (C : Int)
        rw [hs1, hw1]; have := c.isLt; omega
    rw [dif_pos hall]
    congr 1
    funext a; refine Fin.ext ?_
    match a with
    | ⟨0, _⟩ =>
      show ((rowScatter N E C wf).start (ix2 e c) idx 0 + (rowScatter N E C wf).window (ix2 e c) 0).toNat = i.val
      rw [hs0, hw0, hi]; omega
    | ⟨1, _⟩ =>
      show ((rowScatter N E C wf).start (ix2 e c) idx 1 + (rowScatter N E C wf).window (ix2 e c) 1).toNat = c.val
      rw [hs1, hw1]; omega

/-- The scatter-add read at (i, c): the matrix's entry plus the updates of the edges whose word is i. -/
theorem rowScatterAdd_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (i : Fin N) (c : Fin C) :
    Ideal.hostScatterAdd (rowScatter N E C wf) x idx upd (ix2 i c)
      = x (ix2 i c) + ∑ e ∈ Finset.univ.filter (fun e : Fin E => (idx (ix2 e (0 : Fin 1))).toInt = (i.val : Int)),
          upd (ix2 e c) := by
  unfold Ideal.hostScatterAdd
  congr 1
  refine Finset.sum_nbij' (fun j => (j 0 : Fin E)) (fun e => ix2 e c) ?_ ?_ ?_ ?_ ?_
  · intro j hj
    rw [Finset.mem_filter] at hj
    have h := hj.2
    rw [eq_ix2 j] at h
    exact Finset.mem_filter.mpr ⟨Finset.mem_univ _, ((rowScatter_resultIdx wf idx (j 0) (j 1) i c).mp h).1⟩
  · intro e he
    rw [Finset.mem_filter] at he ⊢
    exact ⟨Finset.mem_univ _, (rowScatter_resultIdx wf idx e c i c).mpr ⟨he.2, rfl⟩⟩
  · intro j hj
    rw [Finset.mem_filter] at hj
    have h := hj.2
    rw [eq_ix2 j] at h
    have hc := ((rowScatter_resultIdx wf idx (j 0) (j 1) i c).mp h).2
    show ix2 (j 0 : Fin E) c = j
    have hj2 := eq_ix2 j
    rw [hc] at hj2
    exact hj2.symm
  · intro e _
    rfl
  · intro j hj
    rw [Finset.mem_filter] at hj
    have h := hj.2
    rw [eq_ix2 j] at h
    have hc := ((rowScatter_resultIdx wf idx (j 0) (j 1) i c).mp h).2
    show upd j = upd (ix2 (j 0 : Fin E) c)
    have hj2 := eq_ix2 j
    rw [hc] at hj2
    exact congrArg upd hj2

end Cert.RowOps

end
-- ==== Proof.LibFiniteOps.lean ====
/-
  General lemmas about FINITENESS at the ideal instance, where a float is an extended real.

  An array "is real" when every entry is (the coercion of) a real number, that is, neither of the two
  infinities. The extended reals are not a ring: sums and products of infinities follow conventions
  (for instance the sum of the two infinities is the bottom one), so the usual algebraic identities hold only
  where all operands are real. This file shows that the array operations of a host program map real arrays
  to real arrays, so that realness of the inputs can be carried through a program one operation at a time.
  Nothing here mentions a particular program.
-/
import Idealize.ShloMosaic.PureOps.Ideal.Laws
import Idealize.ShloMosaic.PureOps.Contract

noncomputable section

namespace Cert.LibFiniteOps

open Idealize.ShloMosaic
open scoped BigOperators

/-! ### The two predicates -/

/-- Every entry of the array is a real number (not an infinity). -/
def AllReal {s : Shape} (v : s.Idx → EReal) : Prop := ∀ i, ∃ r : ℝ, v i = (r : EReal)

/-- Every entry of the array is a strictly positive real number. -/
def AllPos {s : Shape} (v : s.Idx → EReal) : Prop := ∀ i, ∃ r : ℝ, 0 < r ∧ v i = (r : EReal)

/-- Every entry of the array is a nonzero real number. -/
def AllNonzero {s : Shape} (v : s.Idx → EReal) : Prop := ∀ i, ∃ r : ℝ, r ≠ 0 ∧ v i = (r : EReal)

/-- A positive array is a real array. -/
theorem AllPos.allReal {s : Shape} {v : s.Idx → EReal} (h : AllPos v) : AllReal v :=
  fun i => let ⟨r, _, hr⟩ := h i; ⟨r, hr⟩

/-- A positive array is a nonzero array. -/
theorem AllPos.allNonzero {s : Shape} {v : s.Idx → EReal} (h : AllPos v) : AllNonzero v :=
  fun i => let ⟨r, hpos, hr⟩ := h i; ⟨r, hpos.ne', hr⟩

/-- A nonzero array is a real array. -/
theorem AllNonzero.allReal {s : Shape} {v : s.Idx → EReal} (h : AllNonzero v) : AllReal v :=
  fun i => let ⟨r, _, hr⟩ := h i; ⟨r, hr⟩

/-! ### Finite sums of reals inside the extended reals -/

/-- The coercion from the reals to the extended reals commutes with finite sums:
    the sum of the coercions is the coercion of the real sum. -/
theorem coe_finset_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of extended reals each of which is real is real. -/
theorem exists_real_sum {ι : Type} (s : Finset ι) (g : ι → EReal) (h : ∀ i ∈ s, ∃ r : ℝ, g i = (r : EReal)) :
    ∃ r : ℝ, ∑ i ∈ s, g i = (r : EReal) := by
  classical
  induction s using Finset.induction_on with
  | empty => exact ⟨0, by simp⟩
  | insert a s ha ih =>
    obtain ⟨r, hr⟩ := h a (Finset.mem_insert_self a s)
    obtain ⟨q, hq⟩ := ih (fun i hi => h i (Finset.mem_insert_of_mem hi))
    exact ⟨r + q, by rw [Finset.sum_insert ha, hr, hq, EReal.coe_add]⟩

/-- The sum of two reals is real. -/
theorem real_add {a b : EReal} (ha : ∃ r : ℝ, a = (r : EReal)) (hb : ∃ r : ℝ, b = (r : EReal)) :
    ∃ r : ℝ, a + b = (r : EReal) := by
  obtain ⟨r, rfl⟩ := ha; obtain ⟨q, rfl⟩ := hb; exact ⟨r + q, (EReal.coe_add r q).symm⟩

/-- The difference of two reals is real. -/
theorem real_sub {a b : EReal} (ha : ∃ r : ℝ, a = (r : EReal)) (hb : ∃ r : ℝ, b = (r : EReal)) :
    ∃ r : ℝ, a - b = (r : EReal) := by
  obtain ⟨r, rfl⟩ := ha; obtain ⟨q, rfl⟩ := hb; exact ⟨r - q, (EReal.coe_sub r q).symm⟩

/-- The product of two reals is real. -/
theorem real_mul {a b : EReal} (ha : ∃ r : ℝ, a = (r : EReal)) (hb : ∃ r : ℝ, b = (r : EReal)) :
    ∃ r : ℝ, a * b = (r : EReal) := by
  obtain ⟨r, rfl⟩ := ha; obtain ⟨q, rfl⟩ := hb; exact ⟨r * q, (EReal.coe_mul r q).symm⟩

/-- The negative of a real is real. -/
theorem real_neg {a : EReal} (ha : ∃ r : ℝ, a = (r : EReal)) : ∃ r : ℝ, -a = (r : EReal) := by
  obtain ⟨r, rfl⟩ := ha; exact ⟨-r, (EReal.coe_neg r).symm⟩

/-- The maximum of two reals is real (it is one of the two). -/
theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

/-! ### Literals -/

/-- A splat of a literal whose bit pattern denotes a real number is a real array. -/
theorem allReal_constant {s : Shape} {φ : FTy} {b : BitVec φ.bits} {q : ℝ} (h : Ideal.ofBits φ b = (q : EReal)) :
    AllReal (constant (F := Ideal) s φ b) := fun _ => ⟨q, h⟩

/-- A splat of a literal whose bit pattern denotes a positive real number is a positive array. -/
theorem allPos_constant {s : Shape} {φ : FTy} {b : BitVec φ.bits} {q : ℝ} (hq : 0 < q)
    (h : Ideal.ofBits φ b = (q : EReal)) : AllPos (constant (F := Ideal) s φ b) := fun _ => ⟨q, hq, h⟩

/-- The single-precision pattern of all zero bits denotes the real number zero. -/
theorem ofBits_00000000 : Ideal.ofBits .f32 0x00000000#32 = ((0 : ℝ) : EReal) := by
  simp [Ideal.ofBits, Ideal.ieee]

/-- The single-precision pattern 0x40000000 (exponent field 128, fraction 0) denotes the real number two. -/
theorem ofBits_40000000 : Ideal.ofBits .f32 0x40000000#32 = ((2 : ℝ) : EReal) := by
  simp [Ideal.ofBits, Ideal.ieee, -EReal.coe_mul]; norm_num

/-- The single-precision pattern 0x48800000 (exponent field 145, fraction 0) denotes 2^18 = 262144. -/
theorem ofBits_48800000 : Ideal.ofBits .f32 0x48800000#32 = ((262144 : ℝ) : EReal) := by
  simp [Ideal.ofBits, Ideal.ieee, -EReal.coe_mul]; norm_num

/-- The single-precision pattern 0x3727C5AC (exponent field 110, fraction 2606508) denotes the dyadic
    rational (2^23 + 2606508) / 2^40 = 10995116 / 2^40, the float nearest to one hundred-thousandth. -/
theorem ofBits_3727C5AC : Ideal.ofBits .f32 0x3727C5AC#32 = ((10995116 / 2 ^ 40 : ℝ) : EReal) := by
  simp [Ideal.ofBits, Ideal.ieee, -EReal.coe_mul]; norm_num

/-- The single-precision pattern 0x2B8CBCCC (exponent field 87, fraction 834764) denotes the dyadic
    rational (2^23 + 834764) / 2^63 = 9223372 / 2^63, the float nearest to ten to the minus twelve. -/
theorem ofBits_2B8CBCCC : Ideal.ofBits .f32 0x2B8CBCCC#32 = ((9223372 / 2 ^ 63 : ℝ) : EReal) := by
  simp [Ideal.ofBits, Ideal.ieee, -EReal.coe_mul]; norm_num

theorem pos_3727C5AC : (0 : ℝ) < 10995116 / 2 ^ 40 := by positivity
theorem pos_2B8CBCCC : (0 : ℝ) < 9223372 / 2 ^ 63 := by positivity

/-! ### Re-indexings: every output entry is one of the input's entries -/

/-- Broadcasting along new or size-one axes reads input entries: a real array stays real. -/
theorem allReal_broadcastInDim {s t : Shape} (dims : Fin s.rank → Fin t.rank) (h : s.BroadcastsInDim t dims)
    {x : s.Idx → EReal} (hx : AllReal x) : AllReal (broadcastInDim t dims h x) := fun _ => hx _

/-- Broadcasting a positive array gives a positive array. -/
theorem allPos_broadcastInDim {s t : Shape} (dims : Fin s.rank → Fin t.rank) (h : s.BroadcastsInDim t dims)
    {x : s.Idx → EReal} (hx : AllPos x) : AllPos (broadcastInDim t dims h x) := fun _ => hx _

/-- Broadcasting a nonzero array gives a nonzero array. -/
theorem allNonzero_broadcastInDim {s t : Shape} (dims : Fin s.rank → Fin t.rank) (h : s.BroadcastsInDim t dims)
    {x : s.Idx → EReal} (hx : AllNonzero x) : AllNonzero (broadcastInDim t dims h x) := fun _ => hx _

/-- A transposition permutes the entries. -/
theorem allReal_transpose {s t : Shape} (perm : List (Fin s.rank)) (h : s.Transposes perm t)
    {x : s.Idx → EReal} (hx : AllReal x) : AllReal (transpose t perm x h) := fun _ => hx _

/-- A reshape keeps the entries in row-major order. -/
theorem allReal_shapeCast {s t : Shape} (h : s.ShapeCasts t)
    {x : s.Idx → EReal} (hx : AllReal x) : AllReal (shapeCast t x h) := fun _ => hx _

/-- A slice reads a block of the entries. -/
theorem allReal_extractStridedSlice {s t : Shape} (off : Fin s.rank → Nat) (h : s.Slices off t)
    {x : s.Idx → EReal} (hx : AllReal x) : AllReal (extractStridedSlice t off x h) := fun _ => hx _

/-- A gather reads, at every output index, SOME entry of the operand (the start index read off the index
    array is clamped into range by the definition), so a real operand gives a real result whatever the
    index array holds. -/
theorem allReal_gather {s si t : Shape} {w : Nat} (d : GatherDims s si t) (idx : IVec si w)
    {x : s.Idx → EReal} (hx : AllReal x) : AllReal (Host.gather d x idx) := fun _ => hx _

/-- A gather of a positive operand is positive. -/
theorem allPos_gather {s si t : Shape} {w : Nat} (d : GatherDims s si t) (idx : IVec si w)
    {x : s.Idx → EReal} (hx : AllPos x) : AllPos (Host.gather d x idx) := fun _ => hx _

/-- A lane-by-lane choice between two real arrays is real. -/
theorem allReal_select {s : Shape} (c : IVec s 1) {a b : s.Idx → EReal} (ha : AllReal a) (hb : AllReal b) :
    AllReal (select c a b) := fun i => by
  show ∃ r : ℝ, (if c i = 1 then a i else b i) = (r : EReal)
  split
  · exact ha i
  · exact hb i

/-- A concatenation reads, at every output index, an entry of one of the pieces; if every piece is real, so is
    the result. -/
theorem allReal_concatenate {t : Shape} (a : Fin t.rank) (xs : List ((s : Shape) × (s.Idx → EReal)))
    (h : Shape.Concatenates (xs.map (·.1)) t a) (hx : ∀ p ∈ xs, AllReal p.2) :
    AllReal (concatenate t a xs h) := fun j => by
  unfold concatenate
  exact hx _ (List.getElem_mem _) _

/-! ### Elementwise arithmetic -/

/-- The entrywise sum of real arrays is real. -/
theorem allReal_addf {s : Shape} {φ : FTy} {x y : FVec Ideal s φ} (hx : AllReal x) (hy : AllReal y) :
    AllReal (addf x y) := fun i => real_add (hx i) (hy i)

/-- The entrywise difference of real arrays is real. -/
theorem allReal_subf {s : Shape} {φ : FTy} {x y : FVec Ideal s φ} (hx : AllReal x) (hy : AllReal y) :
    AllReal (subf x y) := fun i => real_sub (hx i) (hy i)

/-- The entrywise product of real arrays is real. -/
theorem allReal_mulf {s : Shape} {φ : FTy} {x y : FVec Ideal s φ} (hx : AllReal x) (hy : AllReal y) :
    AllReal (mulf x y) := fun i => real_mul (hx i) (hy i)

/-- The entrywise negative of a real array is real. -/
theorem allReal_hostNegf {s : Shape} {φ : FTy} {x : FVec Ideal s φ} (hx : AllReal x) :
    AllReal (Host.negf x) := fun i => real_neg (hx i)

/-- The entrywise maximum of real arrays is real. -/
theorem allReal_maximumf {s : Shape} {φ : FTy} {x y : FVec Ideal s φ} (hx : AllReal x) (hy : AllReal y) :
    AllReal (maximumf x y) := fun i => real_max (hx i) (hy i)

/-- The entrywise maximum of a real array and a positive array is positive: it is real, and at least the
    positive entry. -/
theorem allPos_maximumf {s : Shape} {φ : FTy} {x y : FVec Ideal s φ} (hx : AllReal x) (hy : AllPos y) :
    AllPos (maximumf x y) := fun i => by
  obtain ⟨a, ha⟩ := hx i
  obtain ⟨b, hb, hyb⟩ := hy i
  refine ⟨max a b, lt_of_lt_of_le hb (le_max_right a b), ?_⟩
  show max (x i) (y i) = ((max a b : ℝ) : EReal)
  rw [ha, hyb]
  rcases le_total a b with h | h
  · rw [max_eq_right h, max_eq_right (EReal.coe_le_coe_iff.2 h)]
  · rw [max_eq_left h, max_eq_left (EReal.coe_le_coe_iff.2 h)]

/-- The reciprocal square root of a positive real is a positive real. -/
theorem rsqrt_pos {r : ℝ} (hr : 0 < r) :
    Ideal.rsqrt (r : EReal) = (((Real.sqrt r)⁻¹ : ℝ) : EReal) ∧ 0 < (Real.sqrt r)⁻¹ := by
  refine ⟨?_, inv_pos.2 (Real.sqrt_pos.2 hr)⟩
  rw [Ideal.rsqrt_coe, if_neg (not_lt.2 hr.le), if_neg hr.ne']

/-- The entrywise reciprocal square root of a positive array is positive. -/
theorem allPos_hostRsqrt {s : Shape} {φ : FTy} {x : FVec Ideal s φ} (hx : AllPos x) :
    AllPos (Host.rsqrt x) := fun i => by
  obtain ⟨r, hr, hxr⟩ := hx i
  refine ⟨(Real.sqrt r)⁻¹, (rsqrt_pos hr).2, ?_⟩
  show Ideal.rsqrt (x i) = _
  rw [hxr]; exact (rsqrt_pos hr).1

/-- The entrywise reciprocal square root of a positive array is real. -/
theorem allReal_hostRsqrt {s : Shape} {φ : FTy} {x : FVec Ideal s φ} (hx : AllPos x) :
    AllReal (Host.rsqrt x) := (allPos_hostRsqrt hx).allReal

/-- The quotient of a real by a nonzero real is real: division by a nonzero real is multiplication by its
    reciprocal. -/
theorem real_div {a b : EReal} (ha : ∃ r : ℝ, a = (r : EReal)) (hb : ∃ r : ℝ, r ≠ 0 ∧ b = (r : EReal)) :
    ∃ r : ℝ, Ideal.div a b = (r : EReal) := by
  obtain ⟨r, rfl⟩ := ha; obtain ⟨q, hq, rfl⟩ := hb
  exact ⟨r * (1 / q), by rw [Ideal.div_coe hq, EReal.coe_mul]⟩

/-- The entrywise quotient of a real array by a nonzero array (for instance a broadcast nonzero literal) is
    real. -/
theorem allReal_hostDivf {s : Shape} {φ : FTy} {x y : FVec Ideal s φ} (hx : AllReal x) (hy : AllNonzero y) :
    AllReal (Host.divf x y) := fun i => real_div (hx i) (hy i)

/-- The entrywise quotient of a real array by a nonzero array, kernel-side spelling. -/
theorem allReal_divf {s : Shape} {φ : FTy} {x y : FVec Ideal s φ} (hx : AllReal x) (hy : AllNonzero y) :
    AllReal (divf x y) := fun i => real_div (hx i) (hy i)

/-- An integer converted to a float is real. -/
theorem allReal_sitofp {s : Shape} {w : Nat} (φ : FTy) (x : IVec s w) : AllReal (sitofp (F := Ideal) φ x) :=
  fun i => ⟨((x i).toInt : ℝ), rfl⟩

/-! ### Sums: scatter-add, contractions, reductions -/

/-- An accumulating scatter gives, at each index, the operand's entry plus a finite sum of update entries;
    with real operand and real updates the result is real. -/
theorem allReal_scatterAdd {s si u : Shape} {w : Nat} {φ : FTy} (d : ScatterDims s si u) (idx : IVec si w)
    {x : FVec Ideal s φ} {upd : FVec Ideal u φ} (hx : AllReal x) (hu : AllReal upd) :
    AllReal (Host.scatterAdd d x idx upd) := fun i => by
  show ∃ r : ℝ, x i + ∑ j ∈ Finset.univ.filter (fun j => d.resultIdx? j idx = some i), upd j = (r : EReal)
  exact real_add (hx i) (exists_real_sum _ _ (fun j _ => hu j))

/-- A contraction is, at each output index, a finite sum of products of one entry of each operand; with real
    operands and a real accumulator the result is real. -/
theorem allReal_matmul {sl sr so : Shape} {φ₁ φ₂ : FTy} (d : DotDims sl sr so) (prec : Option ContractPrecision)
    {l : FVec Ideal sl φ₁} {r : FVec Ideal sr φ₂} {acc : FVec Ideal so .f32}
    (hl : AllReal l) (hr : AllReal r) (hacc : AllReal acc) : AllReal (matmul d prec l r acc) := fun j => by
  show ∃ q : ℝ, acc j + ∑ k : d.contr.Idx, l (d.lhsIdx j k) * r (d.rhsIdx j k) = (q : EReal)
  exact real_add (hacc j) (exists_real_sum _ _ (fun k _ => real_mul (hl _) (hr _)))

/-- A contraction onto the zero accumulator (the splat of the zero literal) of real operands is real. -/
theorem allReal_matmul_zero {sl sr so : Shape} {φ₁ φ₂ : FTy} (d : DotDims sl sr so) (prec : Option ContractPrecision)
    {l : FVec Ideal sl φ₁} {r : FVec Ideal sr φ₂} (hl : AllReal l) (hr : AllReal r) :
    AllReal (matmul d prec l r (constant so .f32 0x00000000#32)) :=
  allReal_matmul d prec hl hr (allReal_constant ofBits_00000000)

/-- The host's contraction (onto zero) of real operands is real. -/
theorem allReal_dotGeneral {sl sr so : Shape} {φ₁ φ₂ : FTy} (d : DotDims sl sr so) (prec : Option ContractPrecision)
    {l : FVec Ideal sl φ₁} {r : FVec Ideal sr φ₂} (hl : AllReal l) (hr : AllReal r) :
    AllReal (Host.dotGeneral d prec l r) := fun j => by
  show ∃ q : ℝ, (0 : EReal) + ∑ k : d.contr.Idx, l (d.lhsIdx j k) * r (d.rhsIdx j k) = (q : EReal)
  exact real_add ⟨0, rfl⟩ (exists_real_sum _ _ (fun k _ => real_mul (hl _) (hr _)))

/-- The host's sum along axes, from a real initial value, of a real array is real. -/
theorem allReal_reduceAdd {s t u : Shape} {φ : FTy} {axes : List (Fin s.rank)} (h : s.ReducesTo axes t)
    (hu : 0 < u.numel) {x : FVec Ideal s φ} {init : u.Idx → Ideal φ} (hx : AllReal x) (hinit : AllReal init) :
    AllReal (Host.reduceAdd x init h hu) := fun j => by
  show ∃ q : ℝ, init (Shape.Idx.first hu) + ∑ i ∈ Finset.univ.filter (fun i => h.drop i = j), x i = (q : EReal)
  exact real_add (hinit _) (exists_real_sum _ _ (fun i _ => hx i))

/-- A kernel's sum along axes of a real array is real. -/
theorem allReal_multiReduction_add {s t : Shape} {φ : FTy} (axes : List (Fin s.rank)) {src : FVec Ideal s φ}
    (acc : BitVec φ.bits) (h : s.Reduces axes t) (hφ : FKind.Formats φ) (hacc : acc = FKind.neutral .add φ hφ)
    (hx : AllReal src) : AllReal (multiReduction .add axes t src acc h hφ hacc) := fun j => by
  show ∃ q : ℝ, ∑ i ∈ Finset.univ.filter (fun i => h.drop i = j), src i = (q : EReal)
  exact exists_real_sum _ _ (fun i _ => hx i)

/-! ### The finiteness test: an absolute value strictly below plus infinity -/

/-- The single-precision pattern 0x7F800000 denotes plus infinity. -/
theorem ofBits_7F800000 : Ideal.ofBits .f32 0x7F800000#32 = (⊤ : EReal) := by
  simp [Ideal.ofBits, Ideal.ieee]

/-- An extended real whose absolute value (the maximum of it and its negative) compares strictly below plus
    infinity is a real number: at either infinity the absolute value IS plus infinity. -/
theorem real_of_abs_lt_top {φ : FTy} (a : Ideal φ)
    (h : FloatOps.cmpf .olt (FloatOps.hostAbsf a) ((⊤ : EReal) : Ideal φ) = 1#1) : ∃ r : ℝ, a = (r : EReal) := by
  have h' : BitVec.ofBool (decide (max (a : EReal) (-a) < ⊤)) = 1#1 := h
  induction a using EReal.rec with
  | bot => simp at h'
  | top => simp at h'
  | coe r => exact ⟨r, rfl⟩

/-- The array form: if every entry of |x| compares strictly below an array whose entries are all plus
    infinity, then x is a real array. -/
theorem allReal_of_abs_lt_top {s : Shape} {φ : FTy} {x inf : FVec Ideal s φ} (hinf : ∀ i, inf i = (⊤ : EReal))
    (h : ∀ i, cmpf .olt (Host.absf x) inf i = 1#1) : AllReal x := fun i => by
  have hi : FloatOps.cmpf .olt (FloatOps.hostAbsf (x i)) (inf i) = 1#1 := h i
  rw [hinf i] at hi
  exact real_of_abs_lt_top (x i) hi

end Cert.LibFiniteOps

end
-- ==== Proof.GcnLaw.lean ====
/-
  The linearity of the graph aggregation, on the extended reals, for real-valued data.

  For a node with incoming edge set S, neighbour feature rows X e (32 entries), edge weights n e, the node's own
  row xi with self-loop weight dd, and a column W of a 32-row weight matrix:
      Σ_{e ∈ S} (X e · W) n e + (xi · W) dd  =  (Σ_{e ∈ S} X e n e + xi dd) · W .
  Projecting then aggregating equals aggregating then projecting. On the extended reals this needs every entry to
  be a real number: distributivity fails at the infinities.
-/
import proofs.«110348_j49383533969725_2_alg».proof.Proof.Spec
import proofs.«110348_j49383533969725_2_alg».proof.Proof.LibFiniteOps

noncomputable section

namespace Cert.GcnLaw

open Idealize.ShloMosaic Cert.Gru
open scoped BigOperators

/-- The identity over the reals. -/
theorem gcn_real {ι : Type} (S : Finset ι) (X : ι → Fin 32 → ℝ) (n : ι → ℝ) (xi : Fin 32 → ℝ) (dd : ℝ) (W : Fin 32 → ℝ) :
    (∑ e ∈ S, (∑ k, X e k * W k) * n e) + (∑ k, xi k * W k) * dd
      = ∑ k, ((∑ e ∈ S, X e k * n e) + xi k * dd) * W k := by
  have h1 : ∑ e ∈ S, (∑ k, X e k * W k) * n e = ∑ k, (∑ e ∈ S, X e k * n e) * W k := by
    simp only [Finset.sum_mul]
    rw [Finset.sum_comm]
    refine Finset.sum_congr rfl fun k _ => Finset.sum_congr rfl fun e _ => by ring
  have h2 : (∑ k, xi k * W k) * dd = ∑ k, (xi k * dd) * W k := by
    rw [Finset.sum_mul]
    refine Finset.sum_congr rfl fun k _ => by ring
  rw [h1, h2, ← Finset.sum_add_distrib]
  refine Finset.sum_congr rfl fun k _ => by ring

/-- The identity on the extended reals, every entry real; the sums start from the word of 0.0 as the programs'
    accumulations do. -/
theorem gcn_ereal {ι : Type} (S : Finset ι) (X : ι → Fin 32 → EReal) (n : ι → EReal) (xi : Fin 32 → EReal) (dd : EReal)
    (W : Fin 32 → EReal)
    (hX : ∀ e k, ∃ r : ℝ, X e k = (r : EReal)) (hn : ∀ e, ∃ r : ℝ, n e = (r : EReal))
    (hxi : ∀ k, ∃ r : ℝ, xi k = (r : EReal)) (hdd : ∃ r : ℝ, dd = (r : EReal)) (hW : ∀ k, ∃ r : ℝ, W k = (r : EReal)) :
    (zero32 + ∑ e ∈ S, (∑ k, X e k * W k) * n e) + (∑ k, xi k * W k) * dd
      = ∑ k, ((zero32 + ∑ e ∈ S, X e k * n e) + xi k * dd) * W k := by
  choose X' hX' using hX
  choose n' hn' using hn
  choose xi' hxi' using hxi
  obtain ⟨dd', rfl⟩ := hdd
  choose W' hW' using hW
  have hz : zero32 = ((0 : ℝ) : EReal) := by
    show Ideal.ofBits .f32 0x00000000#32 = _
    rw [Ideal.ofBits_zero_f32]; rfl
  simp only [hX', hn', hxi', hW', hz, ← EReal.coe_mul, Cert.LibFiniteOps.coe_finset_sum, ← EReal.coe_add]
  congr 1
  rw [zero_add]
  have := gcn_real S X' n' xi' dd' W'
  rw [this]
  refine Finset.sum_congr rfl fun k _ => by rw [zero_add]

end Cert.GcnLaw

end
-- ==== Proof.GcnOps.lean ====
/-
  The graph-convolved features of one node, two ways, and their agreement.

  With row numbers src (clamped, for reading) and dst (exact, for accumulating) per edge, an edge weight nrm e,
  a node weight dv i, features x0 (100000 x 32) and a weight matrix W (32 x 128):
    projecting first:  P = x0 · W,  then  agg i = Σ_{dst e = i} P (src e) nrm e  +  P i (dv i)²,  then + bias;
    aggregating first: A i = Σ_{dst e = i} x0 (src e) nrm e + x0 i (dv i)²  over the first 50000 nodes only,
                       then A · W + bias.
  For a node among the first 50000 both give the same row, provided every entry involved is a real number.
-/
import proofs.«110348_j49383533969725_2_alg».proof.Proof.RowOps
import proofs.«110348_j49383533969725_2_alg».proof.Proof.GcnLaw
import proofs.«110348_j49383533969725_2_alg».proof.Proof.LibDotSum
import Idealize.ShloMosaic.Lib.Pipeline.Value

noncomputable section

namespace Cert.GcnOps

open Idealize.ShloMosaic Idealize.ShloMosaic.ValueIdx Cert.Gru Cert.RowOps Cert.LibFiniteOps
open scoped BigOperators

variable {α : Type}

/-- A vector of E entries spread first to a column, then across C columns: entry (e, c) is entry e. -/
theorem bcast_col {E C : Nat} (v : (⟨1, ![E]⟩ : Shape).Idx → α)
    (h1 : (⟨1, ![E]⟩ : Shape).BroadcastsInDim ⟨2, ![E, 1]⟩ ![0])
    (h2 : (⟨2, ![E, 1]⟩ : Shape).BroadcastsInDim ⟨2, ![E, C]⟩ ![0, 1]) (e : Fin E) (c : Fin C) :
    broadcastInDim ⟨2, ![E, C]⟩ ![0, 1] h2 (broadcastInDim ⟨2, ![E, 1]⟩ ![0] h1 v) (ix2 e c) = v (ix1 e) := by
  rw [broadcastInDim_apply ![0, 1] h2 _ (ix2 e c) (ix2 e (0 : Fin 1)) (fun a => by
    match a with
    | ⟨0, _⟩ =>
      show e.val = if E = 1 then 0 else e.val
      split
      · have := e.isLt; omega
      · rfl
    | ⟨1, _⟩ =>
      show 0 = if (1 : Nat) = 1 then 0 else c.val
      rw [if_pos rfl])]
  exact broadcastInDim_apply ![0] h1 v (ix2 e (0 : Fin 1)) (ix1 e) (fun a => by
    match a with
    | ⟨0, _⟩ =>
      show e.val = if E = 1 then 0 else e.val
      split
      · have := e.isLt; omega
      · rfl)

/-- A vector of C entries spread first to a row, then down N rows: entry (i, c) is entry c. -/
theorem bcast_row {N C : Nat} (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (i : Fin N) (c : Fin C) :
    broadcastInDim ⟨2, ![N, C]⟩ ![0, 1] h2 (broadcastInDim ⟨2, ![1, C]⟩ ![1] h1 b) (ix2 i c) = b (ix1 c) := by
  rw [broadcastInDim_apply ![0, 1] h2 _ (ix2 i c) (ix2 (0 : Fin 1) c) (fun a => by
    match a with
    | ⟨0, _⟩ =>
      show 0 = if (1 : Nat) = 1 then 0 else i.val
      rw [if_pos rfl]
    | ⟨1, _⟩ =>
      show c.val = if C = 1 then 0 else c.val
      split
      · have := c.isLt; omega
      · rfl)]
  exact broadcastInDim_apply ![1] h1 b (ix2 (0 : Fin 1) c) (ix1 c) (fun a => by
    match a with
    | ⟨0, _⟩ =>
      show c.val = if C = 1 then 0 else c.val
      split
      · have := c.isLt; omega
      · rfl)

/-- The projected-then-aggregated features (with bias) of node i at column f, term by term. -/
theorem projAgg_apply
    (wfS : ScatterDims.WF ⟨2, ![100000, 128]⟩ ⟨2, ![400000, 1]⟩ ⟨2, ![400000, 128]⟩ [1] [0] [0] 1)
    (wfG : GatherDims.WF ⟨2, ![100000, 128]⟩ ⟨2, ![400000, 1]⟩ ⟨2, ![400000, 128]⟩ [1] [0] [] [0] [] 1 ![1, 128])
    (hz : (⟨0, ![]⟩ : Shape).BroadcastsInDim ⟨2, ![100000, 128]⟩ ![])
    (hn1 : (⟨1, ![400000]⟩ : Shape).BroadcastsInDim ⟨2, ![400000, 1]⟩ ![0])
    (hn2 : (⟨2, ![400000, 1]⟩ : Shape).BroadcastsInDim ⟨2, ![400000, 128]⟩ ![0, 1])
    (hd1 : (⟨1, ![100000]⟩ : Shape).BroadcastsInDim ⟨2, ![100000, 1]⟩ ![0])
    (hd2 : (⟨2, ![100000, 1]⟩ : Shape).BroadcastsInDim ⟨2, ![100000, 128]⟩ ![0, 1])
    (hb1 : (⟨1, ![128]⟩ : Shape).BroadcastsInDim ⟨2, ![1, 128]⟩ ![1])
    (hb2 : (⟨2, ![1, 128]⟩ : Shape).BroadcastsInDim ⟨2, ![100000, 128]⟩ ![0, 1])
    (h : FVec Ideal ⟨2, ![100000, 128]⟩ .f32) (dstCol srcCol : IVec ⟨2, ![400000, 1]⟩ 32)
    (nrm : FVec Ideal ⟨1, ![400000]⟩ .f32) (dv : FVec Ideal ⟨1, ![100000]⟩ .f32) (b : FVec Ideal ⟨1, ![128]⟩ .f32)
    (i : Fin 100000) (f : Fin 128) :
    addf (addf (Host.scatterAdd (rowScatter 100000 400000 128 wfS)
            (broadcastInDim ⟨2, ![100000, 128]⟩ ![] hz (constant ⟨0, ![]⟩ .f32 0x00000000#32)) dstCol
            (mulf (Host.gather (rowGather 100000 400000 128 wfG) h srcCol)
              (broadcastInDim ⟨2, ![400000, 128]⟩ ![0, 1] hn2 (broadcastInDim ⟨2, ![400000, 1]⟩ ![0] hn1 nrm))))
          (mulf h (broadcastInDim ⟨2, ![100000, 128]⟩ ![0, 1] hd2
            (broadcastInDim ⟨2, ![100000, 1]⟩ ![0] hd1 (mulf dv dv)))))
        (broadcastInDim ⟨2, ![100000, 128]⟩ ![0, 1] hb2 (broadcastInDim ⟨2, ![1, 128]⟩ ![1] hb1 b)) (ix2 i f)
      = ((zero32 + ∑ e ∈ Finset.univ.filter (fun e : Fin 400000 => (dstCol (ix2 e (0 : Fin 1))).toInt = (i.val : Int)),
            h (ix2 (clampRow 100000 (by decide) (srcCol (ix2 e (0 : Fin 1)))) f) * nrm (ix1 e))
          + h (ix2 i f) * (dv (ix1 i) * dv (ix1 i))) + b (ix1 f) := by
  show (Ideal.hostScatterAdd (rowScatter 100000 400000 128 wfS) _ dstCol _ (ix2 i f)
      + h (ix2 i f) * (broadcastInDim ⟨2, ![100000, 128]⟩ ![0, 1] hd2
            (broadcastInDim ⟨2, ![100000, 1]⟩ ![0] hd1 (mulf dv dv)) (ix2 i f)))
      + broadcastInDim ⟨2, ![100000, 128]⟩ ![0, 1] hb2 (broadcastInDim ⟨2, ![1, 128]⟩ ![1] hb1 b) (ix2 i f) = _
  rw [rowScatterAdd_apply, bcast_col, bcast_row]
  refine congrArg₂ (· + ·) (congrArg₂ (· + ·) (congrArg₂ (· + ·) rfl ?_) rfl) rfl
  refine Finset.sum_congr rfl fun e _ => ?_
  show Host.gather (rowGather 100000 400000 128 wfG) h srcCol (ix2 e f)
      * broadcastInDim ⟨2, ![400000, 128]⟩ ![0, 1] hn2 (broadcastInDim ⟨2, ![400000, 1]⟩ ![0] hn1 nrm) (ix2 e f) = _
  rw [rowGather_apply (by decide : 0 < 100000), bcast_col]

/-- The aggregated raw features of node i (among the first 50000) at column k, term by term. -/
theorem aggRaw_apply
    (wfS : ScatterDims.WF ⟨2, ![50000, 32]⟩ ⟨2, ![400000, 1]⟩ ⟨2, ![400000, 32]⟩ [1] [0] [0] 1)
    (wfG : GatherDims.WF ⟨2, ![100000, 32]⟩ ⟨2, ![400000, 1]⟩ ⟨2, ![400000, 32]⟩ [1] [0] [] [0] [] 1 ![1, 32])
    (hz : (⟨0, ![]⟩ : Shape).BroadcastsInDim ⟨2, ![50000, 32]⟩ ![])
    (hn1 : (⟨1, ![400000]⟩ : Shape).BroadcastsInDim ⟨2, ![400000, 1]⟩ ![0])
    (hn2 : (⟨2, ![400000, 1]⟩ : Shape).BroadcastsInDim ⟨2, ![400000, 32]⟩ ![0, 1])
    (hd1 : (⟨1, ![50000]⟩ : Shape).BroadcastsInDim ⟨2, ![50000, 1]⟩ ![0])
    (hd2 : (⟨2, ![50000, 1]⟩ : Shape).BroadcastsInDim ⟨2, ![50000, 32]⟩ ![0, 1])
    (hs2 : (⟨2, ![100000, 32]⟩ : Shape).Slices ![0, 0] ⟨2, ![50000, 32]⟩)
    (hs1 : (⟨1, ![100000]⟩ : Shape).Slices ![0] ⟨1, ![50000]⟩)
    (x0 : FVec Ideal ⟨2, ![100000, 32]⟩ .f32) (dstCol srcCol : IVec ⟨2, ![400000, 1]⟩ 32)
    (nrm : FVec Ideal ⟨1, ![400000]⟩ .f32) (dv : FVec Ideal ⟨1, ![100000]⟩ .f32)
    (i : Fin 50000) (k : Fin 32) :
    addf (Host.scatterAdd (rowScatter 50000 400000 32 wfS)
            (broadcastInDim ⟨2, ![50000, 32]⟩ ![] hz (constant ⟨0, ![]⟩ .f32 0x00000000#32)) dstCol
            (mulf (Host.gather (rowGather 100000 400000 32 wfG) x0 srcCol)
              (broadcastInDim ⟨2, ![400000, 32]⟩ ![0, 1] hn2 (broadcastInDim ⟨2, ![400000, 1]⟩ ![0] hn1 nrm))))
          (mulf (extractStridedSlice ⟨2, ![50000, 32]⟩ ![0, 0] x0 hs2)
            (broadcastInDim ⟨2, ![50000, 32]⟩ ![0, 1] hd2 (broadcastInDim ⟨2, ![50000, 1]⟩ ![0] hd1
              (mulf (extractStridedSlice ⟨1, ![50000]⟩ ![0] dv hs1) (extractStridedSlice ⟨1, ![50000]⟩ ![0] dv hs1)))))
        (ix2 i k)
      = (zero32 + ∑ e ∈ Finset.univ.filter (fun e : Fin 400000 => (dstCol (ix2 e (0 : Fin 1))).toInt = (i.val : Int)),
            x0 (ix2 (clampRow 100000 (by decide) (srcCol (ix2 e (0 : Fin 1)))) k) * nrm (ix1 e))
          + x0 (ix2 (up i) k) * (dv (ix1 (up i)) * dv (ix1 (up i))) := by
  show Ideal.hostScatterAdd (rowScatter 50000 400000 32 wfS) _ dstCol _ (ix2 i k)
      + extractStridedSlice ⟨2, ![50000, 32]⟩ ![0, 0] x0 hs2 (ix2 i k)
        * (broadcastInDim ⟨2, ![50000, 32]⟩ ![0, 1] hd2 (broadcastInDim ⟨2, ![50000, 1]⟩ ![0] hd1
              (mulf (extractStridedSlice ⟨1, ![50000]⟩ ![0] dv hs1) (extractStridedSlice ⟨1, ![50000]⟩ ![0] dv hs1)))
            (ix2 i k)) = _
  rw [rowScatterAdd_apply, bcast_col,
    extractStridedSlice_apply ![0, 0] x0 hs2 (ix2 i k) (ix2 (up i) k) (fun a => by
      match a with
      | ⟨0, _⟩ => show i.val = 0 + i.val; omega
      | ⟨1, _⟩ => show k.val = 0 + k.val; omega)]
  have hdv : extractStridedSlice ⟨1, ![50000]⟩ ![0] dv hs1 (ix1 i) = dv (ix1 (up i)) :=
    extractStridedSlice_apply ![0] dv hs1 (ix1 i) (ix1 (up i)) (fun a => by
      match a with
      | ⟨0, _⟩ => show i.val = 0 + i.val; omega)
  show _ + x0 (ix2 (up i) k) * (extractStridedSlice ⟨1, ![50000]⟩ ![0] dv hs1 (ix1 i)
      * extractStridedSlice ⟨1, ![50000]⟩ ![0] dv hs1 (ix1 i)) = _
  rw [hdv]
  refine congrArg₂ (· + ·) (congrArg₂ (· + ·) rfl ?_) rfl
  refine Finset.sum_congr rfl fun e _ => ?_
  show Host.gather (rowGather 100000 400000 32 wfG) x0 srcCol (ix2 e k)
      * broadcastInDim ⟨2, ![400000, 32]⟩ ![0, 1] hn2 (broadcastInDim ⟨2, ![400000, 1]⟩ ![0] hn1 nrm) (ix2 e k) = _
  rw [rowGather_apply (by decide : 0 < 100000), bcast_col]

/-- THE AGREEMENT: for node i among the first 50000 and column f, projecting then aggregating (read at row i of
    100000) is aggregating then projecting, given real features, weights, edge weights and node weights. The
    hypotheses hP / hR / hA are the two sides read term by term (projAgg_apply, aggRaw_apply) and the product
    P = x0 · W read at an entry. -/
theorem agg_commutes (x0 : (⟨2, ![100000, 32]⟩ : Shape).Idx → EReal) (W : (⟨2, ![32, 128]⟩ : Shape).Idx → EReal)
    (P : (⟨2, ![100000, 128]⟩ : Shape).Idx → EReal) (dstCol srcCol : IVec ⟨2, ![400000, 1]⟩ 32)
    (nrm : (⟨1, ![400000]⟩ : Shape).Idx → EReal) (dv : (⟨1, ![100000]⟩ : Shape).Idx → EReal) (b : EReal)
    (hx : AllReal x0) (hW : AllReal W) (hn : AllReal nrm) (hd : AllReal dv)
    (hP : ∀ (j : Fin 100000) (f : Fin 128), P (ix2 j f) = ∑ k : Fin 32, x0 (ix2 j k) * W (ix2 k f))
    (i : Fin 50000) (f : Fin 128) :
    ((zero32 + ∑ e ∈ Finset.univ.filter (fun e : Fin 400000 => (dstCol (ix2 e (0 : Fin 1))).toInt = ((up i).val : Int)),
          P (ix2 (clampRow 100000 (by decide) (srcCol (ix2 e (0 : Fin 1)))) f) * nrm (ix1 e))
        + P (ix2 (up i) f) * (dv (ix1 (up i)) * dv (ix1 (up i)))) + b
      = (∑ k : Fin 32,
          ((zero32 + ∑ e ∈ Finset.univ.filter (fun e : Fin 400000 => (dstCol (ix2 e (0 : Fin 1))).toInt = (i.val : Int)),
              x0 (ix2 (clampRow 100000 (by decide) (srcCol (ix2 e (0 : Fin 1)))) k) * nrm (ix1 e))
            + x0 (ix2 (up i) k) * (dv (ix1 (up i)) * dv (ix1 (up i)))) * W (ix2 k f)) + b := by
  refine congrArg (· + b) ?_
  simp only [hP]
  exact Cert.GcnLaw.gcn_ereal _ (fun e k => x0 (ix2 (clampRow 100000 (by decide) (srcCol (ix2 e (0 : Fin 1)))) k))
    (fun e => nrm (ix1 e)) (fun k => x0 (ix2 (up i) k)) (dv (ix1 (up i)) * dv (ix1 (up i))) (fun k => W (ix2 k f))
    (fun e k => hx _) (fun e => hn _) (fun k => hx _) (real_mul (hd _) (hd _)) (fun k => hW _)

end Cert.GcnOps

end
-- ==== Proof.Gcn.lean ====
/-
  The graph-convolved features in the two programs.

  Both programs compute, from the edge list alone, the node weights dv = 1 / sqrt (in-degree + 1) and the edge
  weights nrm e = dv (src e) dv (dst e). The in-degree is a count, so in-degree + 1 is a positive real number and
  every node and edge weight is a positive real number, whatever the edge list holds.
  The reference projects the features with the 32 x 128 weights and then aggregates over incoming edges (all
  100000 nodes); the kernel's surrounding code aggregates the raw 32 features (first 50000 nodes only) and leaves
  the projection to the kernel. For real features and weights the two agree on the first 50000 nodes.
-/
import proofs.«110348_j49383533969725_2_alg».proof.Proof.Gen.ReferenceIdeal.Read
import proofs.«110348_j49383533969725_2_alg».proof.Proof.Gen.KernelIdeal.Frame
import proofs.«110348_j49383533969725_2_alg».proof.Proof.GcnOps
import Idealize.ShloMosaic.Lib.StableHlo.Run

set_option maxRecDepth 16384

noncomputable section

namespace Cert.Gcn

open Idealize.ShloMosaic Idealize.ShloMosaic.ValueIdx Cert.Gru Cert.RowOps Cert.LibFiniteOps Cert.GcnOps
open scoped BigOperators

/-- A finite sum of ones is a nonnegative real number. -/
theorem sum_one32 {ι : Type} (F : Finset ι) : ∃ r : ℝ, 0 ≤ r ∧ ∑ _j ∈ F, one32 = (r : EReal) := by
  classical
  induction F using Finset.induction_on with
  | empty => exact ⟨0, le_refl _, by simp⟩
  | insert a s ha ih =>
    obtain ⟨r, hr, hs⟩ := ih
    refine ⟨1 + r, by linarith, ?_⟩
    rw [Finset.sum_insert ha, hs, one32_eq, EReal.coe_add, EReal.coe_one]

section Ref

open Cert.ReferenceIdeal Cert.ReferenceIdeal.Gen Cert.ReferenceIdeal.Read

/-- In-degree plus one is a positive real number at every node. -/
theorem deg_pos (x2 : (⟨S2x400000, .i32⟩ : BufTy).Contents (Elt Ideal)) : AllPos (val_main_v14 (F := Ideal) x2) := by
  intro i
  obtain ⟨r, hr, hs⟩ := sum_one32 (Finset.univ.filter (fun j =>
    scatter_S100000_S400000x1_S400000_n_0_0_1.resultIdx? j (val_main_v10 (F := Ideal) x2) = some i))
  refine ⟨0 + r + 1, by linarith, ?_⟩
  show (zero32 + ∑ j ∈ Finset.univ.filter (fun j =>
    scatter_S100000_S400000x1_S400000_n_0_0_1.resultIdx? j (val_main_v10 (F := Ideal) x2) = some i), one32) + one32 = _
  have hz : zero32 = ((0 : ℝ) : EReal) := by
    show Ideal.ofBits .f32 0x00000000#32 = _
    rw [Ideal.ofBits_zero_f32]; rfl
  rw [hs, one32_eq, hz, ← EReal.coe_add, ← EReal.coe_one, ← EReal.coe_add]

/-- The node weights are positive real numbers. -/
theorem dinv_pos (x2 : (⟨S2x400000, .i32⟩ : BufTy).Contents (Elt Ideal)) : AllPos (val_main_v15 (F := Ideal) x2) :=
  allPos_hostRsqrt (deg_pos x2)

/-- The edge weights are real numbers. -/
theorem norm_real (x2 : (⟨S2x400000, .i32⟩ : BufTy).Contents (Elt Ideal)) : AllReal (val_main_v31 (F := Ideal) x2) :=
  allReal_mulf (allPos_gather _ _ (dinv_pos x2)).allReal (allPos_gather _ _ (dinv_pos x2)).allReal

/-- The aggregated raw features of the first 50000 nodes, as the kernel's surrounding code computes them, written
    over the same edge columns, edge weights and node weights as the reference's. -/
def aggRaw (x0 : (⟨S100000x32, .f32⟩ : BufTy).Contents (Elt Ideal)) (x2 : (⟨S2x400000, .i32⟩ : BufTy).Contents (Elt Ideal)) :
    FVec Ideal ⟨2, ![50000, 32]⟩ .f32 :=
  addf (Host.scatterAdd (rowScatter 50000 400000 32 Cert.KernelIdeal.Gen.scatter_S50000x32_S400000x1_S400000x32_1_0_0_1_wf)
          (broadcastInDim ⟨2, ![50000, 32]⟩ ![] Cert.KernelIdeal.Gen.bcast_S_S50000x32 (constant ⟨0, ![]⟩ .f32 0x00000000#32))
          (val_main_v43 (F := Ideal) x2)
          (mulf (Host.gather (rowGather 100000 400000 32 Cert.KernelIdeal.Gen.gather_S100000x32_S400000x1_S400000x32_1_0_n_n_0_1_132_wf)
                  x0 (val_main_v37 (F := Ideal) x2))
            (broadcastInDim ⟨2, ![400000, 32]⟩ ![0, 1] Cert.KernelIdeal.Gen.bcast_S400000x1_S400000x32_0_1
              (broadcastInDim ⟨2, ![400000, 1]⟩ ![0] Cert.KernelIdeal.Gen.bcast_S400000_S400000x1_0 (val_main_v31 (F := Ideal) x2)))))
    (mulf (extractStridedSlice ⟨2, ![50000, 32]⟩ ![0, 0] x0 Cert.KernelIdeal.Gen.slices_S100000x32_S50000x32_0_0)
      (broadcastInDim ⟨2, ![50000, 32]⟩ ![0, 1] Cert.KernelIdeal.Gen.bcast_S50000x1_S50000x32_0_1
        (broadcastInDim ⟨2, ![50000, 1]⟩ ![0] Cert.KernelIdeal.Gen.bcast_S50000_S50000x1_0
          (mulf (extractStridedSlice ⟨1, ![50000]⟩ ![0] (val_main_v15 (F := Ideal) x2) Cert.KernelIdeal.Gen.slices_S100000_S50000_0)
            (extractStridedSlice ⟨1, ![50000]⟩ ![0] (val_main_v15 (F := Ideal) x2) Cert.KernelIdeal.Gen.slices_S100000_S50000_0)))))

/-- The aggregated raw features read at an entry: the edges into node i, each with its source row (clamped) and
    weight, plus the node's own row with its squared weight. -/
theorem aggRaw_at (x0 : (⟨S100000x32, .f32⟩ : BufTy).Contents (Elt Ideal)) (x2 : (⟨S2x400000, .i32⟩ : BufTy).Contents (Elt Ideal))
    (i : Fin 50000) (k : Fin 32) :
    aggRaw x0 x2 (ix2 i k)
      = (zero32 + ∑ e ∈ Finset.univ.filter (fun e : Fin 400000 =>
              (val_main_v43 (F := Ideal) x2 (ix2 e (0 : Fin 1))).toInt = (i.val : Int)),
            x0 (ix2 (clampRow 100000 (by decide) (val_main_v37 (F := Ideal) x2 (ix2 e (0 : Fin 1)))) k)
              * val_main_v31 (F := Ideal) x2 (ix1 e))
          + x0 (ix2 (up i) k) * (val_main_v15 (F := Ideal) x2 (ix1 (up i)) * val_main_v15 (F := Ideal) x2 (ix1 (up i))) := by
  unfold aggRaw
  exact aggRaw_apply Cert.KernelIdeal.Gen.scatter_S50000x32_S400000x1_S400000x32_1_0_0_1_wf
    Cert.KernelIdeal.Gen.gather_S100000x32_S400000x1_S400000x32_1_0_n_n_0_1_132_wf Cert.KernelIdeal.Gen.bcast_S_S50000x32
    Cert.KernelIdeal.Gen.bcast_S400000_S400000x1_0 Cert.KernelIdeal.Gen.bcast_S400000x1_S400000x32_0_1
    Cert.KernelIdeal.Gen.bcast_S50000_S50000x1_0 Cert.KernelIdeal.Gen.bcast_S50000x1_S50000x32_0_1
    Cert.KernelIdeal.Gen.slices_S100000x32_S50000x32_0_0 Cert.KernelIdeal.Gen.slices_S100000_S50000_0
    x0 (val_main_v43 (F := Ideal) x2) (val_main_v37 (F := Ideal) x2) (val_main_v31 (F := Ideal) x2)
    (val_main_v15 (F := Ideal) x2) i k

/-- The projection x0 · W read at an entry. -/
theorem proj_apply (x0 : (⟨S100000x32, .f32⟩ : BufTy).Contents (Elt Ideal)) (W : (⟨S32x128, .f32⟩ : BufTy).Contents (Elt Ideal))
    (j : Fin 100000) (f : Fin 128) :
    val_main_v16 (F := Ideal) x0 W (ix2 j f) = ∑ k : Fin 32, x0 (ix2 j k) * W (ix2 k f) := by
  rw [val_main_v16_apply]
  refine Finset.sum_congr rfl fun k _ => ?_
  have hl : lidx_main_v16 (ix2 j f) k = ix2 j k := funext fun a => by
    match a with
    | ⟨0, _⟩ => rfl
    | ⟨1, _⟩ => rfl
  have hr : ridx_main_v16 (ix2 j f) k = ix2 k f := funext fun a => by
    match a with
    | ⟨0, _⟩ => rfl
    | ⟨1, _⟩ => rfl
  rw [hl, hr]

/-- THE REFERENCE'S GRAPH CONVOLUTION with weights W and bias b, at node i of the first 50000 and column f, is the
    aggregated raw features of node i against column f of W, plus the bias. The three gates' convolutions are this
    one function at three pairs (W, b). -/
theorem ref_gcn (x0 : (⟨S100000x32, .f32⟩ : BufTy).Contents (Elt Ideal)) (x2 : (⟨S2x400000, .i32⟩ : BufTy).Contents (Elt Ideal))
    (W : (⟨S32x128, .f32⟩ : BufTy).Contents (Elt Ideal)) (b : (⟨S128, .f32⟩ : BufTy).Contents (Elt Ideal))
    (hx : AllReal x0) (hW : AllReal W) (i : Fin 50000) (f : Fin 128) :
    val_main_v52 (F := Ideal) x0 x2 W b (ix2 (up i) f)
      = (∑ k : Fin 32, aggRaw x0 x2 (ix2 i k) * W (ix2 k f)) + b (ix1 f) := by
  have hR := projAgg_apply scatter_S100000x128_S400000x1_S400000x128_1_0_0_1_wf
    gather_S100000x128_S400000x1_S400000x128_1_0_n_n_0_1_1128_wf bcast_S_S100000x128
    bcast_S400000_S400000x1_0 bcast_S400000x1_S400000x128_0_1 bcast_S100000_S100000x1_0 bcast_S100000x1_S100000x128_0_1
    bcast_S128_S1x128_1 bcast_S1x128_S100000x128_0_1
    (val_main_v16 (F := Ideal) x0 W) (val_main_v43 (F := Ideal) x2) (val_main_v37 (F := Ideal) x2)
    (val_main_v31 (F := Ideal) x2) (val_main_v15 (F := Ideal) x2) b (up i) f
  refine (show val_main_v52 (F := Ideal) x0 x2 W b (ix2 (up i) f) = _ from hR).trans ?_
  rw [agg_commutes x0 W (val_main_v16 (F := Ideal) x0 W) (val_main_v43 (F := Ideal) x2) (val_main_v37 (F := Ideal) x2)
    (val_main_v31 (F := Ideal) x2) (val_main_v15 (F := Ideal) x2) (b (ix1 f)) hx hW (norm_real x2) (dinv_pos x2).allReal
    (proj_apply x0 W) i f]
  refine congrArg (· + b (ix1 f)) (Finset.sum_congr rfl fun k _ => ?_)
  rw [aggRaw_at]

/-- The reset gate's convolution is the same function of its weights and bias. -/
theorem v89_eq (x0 : (⟨S100000x32, .f32⟩ : BufTy).Contents (Elt Ideal)) (x2 : (⟨S2x400000, .i32⟩ : BufTy).Contents (Elt Ideal))
    (W : (⟨S32x128, .f32⟩ : BufTy).Contents (Elt Ideal)) (b : (⟨S128, .f32⟩ : BufTy).Contents (Elt Ideal)) :
    val_main_v89 (F := Ideal) x0 x2 W b = val_main_v52 (F := Ideal) x0 x2 W b := rfl

/-- The candidate gate's convolution is the same function of its weights and bias. -/
theorem v126_eq (x0 : (⟨S100000x32, .f32⟩ : BufTy).Contents (Elt Ideal)) (x2 : (⟨S2x400000, .i32⟩ : BufTy).Contents (Elt Ideal))
    (W : (⟨S32x128, .f32⟩ : BufTy).Contents (Elt Ideal)) (b : (⟨S128, .f32⟩ : BufTy).Contents (Elt Ideal)) :
    val_main_v126 (F := Ideal) x0 x2 W b = val_main_v52 (F := Ideal) x0 x2 W b := rfl

end Ref

section Ker

open Cert.KernelIdeal Cert.KernelIdeal.Gen Idealize.SL.Sem Idealize.ShloMosaic.StableHlo Idealize.ShloMosaic.TcCoe

set_option maxRecDepth 65536 in
set_option maxHeartbeats 40000000 in
/-- The kernel's first operand, as the surrounding code leaves it, is the aggregated raw features of the argument
    arrays. -/
theorem V_agg (m : (ℓ : Loc nD τ sig) → Buf (Elt Ideal) ℓ) (c : Dev nD) :
    (V m c main_v50 : (⟨2, ![50000, 32]⟩ : Shape).Idx → EReal)
      = aggRaw (m ((c : Thread nD τ).loc main_arg0)) (m ((c : Thread nD τ).loc main_arg2)) := by
  dsimp only [V, hostOps0]
  after_results_simp
  rfl

end Ker

end Cert.Gcn

end
-- ==== Proof.RefSide.lean ====
/-
  The reference program's result entry in terms of the aggregated raw features.

  The three graph-convolved rows that enter the row specification are, for real node features and real
  input-to-hidden weights, the aggregated raw features of the node multiplied by the 32 x 128 weights, plus the
  bias: aggregation over incoming edges is linear, so it commutes with the projection. Substituting this in the
  entry of the reference's result gives the row specification over quantities the other program computes too.
-/
import proofs.«110348_j49383533969725_2_alg».proof.Proof.RefRow
import proofs.«110348_j49383533969725_2_alg».proof.Proof.Gcn

noncomputable section

namespace Cert.RefSide

open Cert.ReferenceIdeal Cert.ReferenceIdeal.Gen Cert.ReferenceIdeal.Read
open Idealize.ShloMosaic Idealize.ShloMosaic.ValueIdx Idealize.SL.Sem
open Cert.Gru
open scoped BigOperators

/-- The row output depends on the three convolved rows only through their values: equal rows give equal outputs. -/
theorem rowOut_congr {cz cz' cr cr' ch ch' : Fin 128 → EReal} (hz : cz = cz') (hr : cr = cr') (hh : ch = ch')
    (h : Fin 128 → EReal) (Lz1 Lz2 Lr1 Lr2 Lh1 Lh2 : Fin 128 → Fin 128 → EReal) (lzb lrb lhb : Fin 128 → EReal)
    (Wo : Fin 128 → Fin 8 → EReal) (bo : Fin 8 → EReal) (p : Fin 8) :
    rowOut cz cr ch h Lz1 Lz2 Lr1 Lr2 Lh1 Lh2 lzb lrb lhb Wo bo p
      = rowOut cz' cr' ch' h Lz1 Lz2 Lr1 Lr2 Lh1 Lh2 lzb lrb lhb Wo bo p := by
  subst hz hr hh; rfl

/-- On every device, from any memory m whose node features and three input-to-hidden weight matrices are real
    arrays, the entry (i, p) of the reference program's result is the row specification at: the aggregated raw
    features of node i against each gate's input weights plus its bias, row i of the hidden state, the gate weights
    split in upper and lower halves, the gate biases and the output layer. -/
theorem ref_side (m : (ℓ : Loc Cert.ReferenceIdeal.nD Cert.ReferenceIdeal.τ Cert.ReferenceIdeal.sig) → Buf (Elt Ideal) ℓ)
    (c : Dev Cert.ReferenceIdeal.nD)
    (h0 : Cert.LibFiniteOps.AllReal (m ((c.tc : Thread Cert.ReferenceIdeal.nD Cert.ReferenceIdeal.τ).loc Cert.ReferenceIdeal.main_arg0)))
    (h3 : Cert.LibFiniteOps.AllReal (m ((c.tc : Thread Cert.ReferenceIdeal.nD Cert.ReferenceIdeal.τ).loc Cert.ReferenceIdeal.main_arg3)))
    (h5 : Cert.LibFiniteOps.AllReal (m ((c.tc : Thread Cert.ReferenceIdeal.nD Cert.ReferenceIdeal.τ).loc Cert.ReferenceIdeal.main_arg5)))
    (h7 : Cert.LibFiniteOps.AllReal (m ((c.tc : Thread Cert.ReferenceIdeal.nD Cert.ReferenceIdeal.τ).loc Cert.ReferenceIdeal.main_arg7)))
    (i : Fin 50000) (p : Fin 8) :
    Cert.ReferenceIdeal.Value.res_main_v166 (F := Ideal) m c (ix2 i p)
      = Cert.Gru.rowOut
          (fun k => (∑ j : Fin 32, Cert.Gcn.aggRaw (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (ix2 i j) * (m ((c.tc : Thread Cert.ReferenceIdeal.nD Cert.ReferenceIdeal.τ).loc Cert.ReferenceIdeal.main_arg3)) (ix2 j k)) + (m ((c.tc : Thread Cert.ReferenceIdeal.nD Cert.ReferenceIdeal.τ).loc Cert.ReferenceIdeal.main_arg4)) (ix1 k))
          (fun k => (∑ j : Fin 32, Cert.Gcn.aggRaw (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (ix2 i j) * (m ((c.tc : Thread Cert.ReferenceIdeal.nD Cert.ReferenceIdeal.τ).loc Cert.ReferenceIdeal.main_arg5)) (ix2 j k)) + (m ((c.tc : Thread Cert.ReferenceIdeal.nD Cert.ReferenceIdeal.τ).loc Cert.ReferenceIdeal.main_arg6)) (ix1 k))
          (fun k => (∑ j : Fin 32, Cert.Gcn.aggRaw (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (ix2 i j) * (m ((c.tc : Thread Cert.ReferenceIdeal.nD Cert.ReferenceIdeal.τ).loc Cert.ReferenceIdeal.main_arg7)) (ix2 j k)) + (m ((c.tc : Thread Cert.ReferenceIdeal.nD Cert.ReferenceIdeal.τ).loc Cert.ReferenceIdeal.main_arg8)) (ix1 k))
          (fun k => (m ((c.tc : Thread Cert.ReferenceIdeal.nD Cert.ReferenceIdeal.τ).loc Cert.ReferenceIdeal.main_arg1)) (ix2 (Cert.Gru.up i) k))
          (fun k f => (m ((c.tc : Thread Cert.ReferenceIdeal.nD Cert.ReferenceIdeal.τ).loc Cert.ReferenceIdeal.main_arg9)) (ix2 (Fin.castAdd 128 k) f)) (fun k f => (m ((c.tc : Thread Cert.ReferenceIdeal.nD Cert.ReferenceIdeal.τ).loc Cert.ReferenceIdeal.main_arg9)) (ix2 (Fin.natAdd 128 k) f))
          (fun k f => (m ((c.tc : Thread Cert.ReferenceIdeal.nD Cert.ReferenceIdeal.τ).loc Cert.ReferenceIdeal.main_arg11)) (ix2 (Fin.castAdd 128 k) f)) (fun k f => (m ((c.tc : Thread Cert.ReferenceIdeal.nD Cert.ReferenceIdeal.τ).loc Cert.ReferenceIdeal.main_arg11)) (ix2 (Fin.natAdd 128 k) f))
          (fun k f => (m ((c.tc : Thread Cert.ReferenceIdeal.nD Cert.ReferenceIdeal.τ).loc Cert.ReferenceIdeal.main_arg13)) (ix2 (Fin.castAdd 128 k) f)) (fun k f => (m ((c.tc : Thread Cert.ReferenceIdeal.nD Cert.ReferenceIdeal.τ).loc Cert.ReferenceIdeal.main_arg13)) (ix2 (Fin.natAdd 128 k) f))
          (fun f => (m ((c.tc : Thread Cert.ReferenceIdeal.nD Cert.ReferenceIdeal.τ).loc Cert.ReferenceIdeal.main_arg10)) (ix1 f)) (fun f => (m ((c.tc : Thread Cert.ReferenceIdeal.nD Cert.ReferenceIdeal.τ).loc Cert.ReferenceIdeal.main_arg12)) (ix1 f)) (fun f => (m ((c.tc : Thread Cert.ReferenceIdeal.nD Cert.ReferenceIdeal.τ).loc Cert.ReferenceIdeal.main_arg14)) (ix1 f))
          (fun f q => (m ((c.tc : Thread Cert.ReferenceIdeal.nD Cert.ReferenceIdeal.τ).loc Cert.ReferenceIdeal.main_arg15)) (ix2 f q)) (fun q => (m ((c.tc : Thread Cert.ReferenceIdeal.nD Cert.ReferenceIdeal.τ).loc Cert.ReferenceIdeal.main_arg16)) (ix1 q)) p := by
  refine (Cert.RefRow.ref_row_run m c i p).trans ?_
  refine rowOut_congr (funext fun k => ?_) (funext fun k => ?_) (funext fun k => ?_) _ _ _ _ _ _ _ _ _ _ _ _ p
  · exact Cert.Gcn.ref_gcn _ _ _ _ h0 h3 i k
  · exact (congrFun (Cert.Gcn.v89_eq _ _ _ _) _).trans (Cert.Gcn.ref_gcn _ _ _ _ h0 h5 i k)
  · exact (congrFun (Cert.Gcn.v126_eq _ _ _ _) _).trans (Cert.Gcn.ref_gcn _ _ _ _ h0 h7 i k)

end Cert.RefSide

end
-- ==== Proof.KerArr.lean ====
/-
  From the blocks the kernel writes, grid point by grid point, to the whole result array.

  The result has 50000 rows of 8 entries. The grid has 25 points; point t computes rows 2000 t … 2000 t + 1999 of
  the result from rows 2000 t … 2000 t + 1999 of the two row-indexed operands (the aggregated features, 32 per
  row, and the hidden state, 128 per row) and from seventeen small operands (weights and biases) that every point
  reads whole. So entry (i, p) of the result is the block function of the kernel body evaluated on row block
  i / 2000 of the two large operands, read at row i % 2000 and column p: the blocks of the 25 points tile the
  array, row i lying in the block of point i / 2000.

  The second half reads the operands that the host prepares before the call as entries of the arguments: the
  hidden state is the first 50000 of 100000 rows, each 256-row gate matrix is split into its upper and lower
  128 rows, and each bias vector is laid out as one row.
-/
import proofs.«110348_j49383533969725_2_alg».proof.Proof.Gen.KernelIdeal.Value
import proofs.«110348_j49383533969725_2_alg».proof.Proof.Spec
import Idealize.ShloMosaic.Lib.Pipeline.Value
import Idealize.ShloMosaic.Lib.ValueIdx
import Idealize.ShloMosaic.Lib.StableHlo.Run

noncomputable section

namespace Cert.KerArr

open Cert.KernelIdeal Cert.KernelIdeal.Gen Idealize.ShloMosaic Idealize.ShloMosaic.TcCoe Idealize.SL.Sem
open Idealize.ShloMosaic.Pipeline (Dat)
open Idealize.ShloMosaic.ValueIdx

/-! ## The whole-array function -/

/-- Rows 2000 t … 2000 t + 1999 of a 50000-row array, as a 2000-row array. -/
def rowsBlk {C : Nat} (A : (⟨2, ![50000, C]⟩ : Shape).Idx → EReal) (t : Fin 25) :
    (⟨2, ![2000, C]⟩ : Shape).Idx → EReal :=
  fun y => A (ix2 ⟨t.val * 2000 + (y 0).val, by have h0 : (y 0).val < 2000 := (y 0).isLt; have ht := t.isLt; omega⟩ (y 1))

/-- The result array as one function of the operands: entry (i, p) is the body's block function on row block
    i / 2000 of the hidden state and of the aggregated features, read at row i % 2000 and column p. -/
def KG (A : Vec Ideal S50000x32 .f32) (H : Vec Ideal S50000x128 .f32) (Wz : Vec Ideal S32x128 .f32) (bz : Vec Ideal S1x128 .f32) (Wr : Vec Ideal S32x128 .f32) (br : Vec Ideal S1x128 .f32) (Wh : Vec Ideal S32x128 .f32) (bh : Vec Ideal S1x128 .f32) (Lz1 : Vec Ideal S128x128 .f32) (Lz2 : Vec Ideal S128x128 .f32) (lzb : Vec Ideal S1x128 .f32) (Lr1 : Vec Ideal S128x128 .f32) (Lr2 : Vec Ideal S128x128 .f32) (lrb : Vec Ideal S1x128 .f32) (Lh1 : Vec Ideal S128x128 .f32) (Lh2 : Vec Ideal S128x128 .f32) (lhb : Vec Ideal S1x128 .f32) (Wo : Vec Ideal S128x8 .f32) (bo : Vec Ideal S1x8 .f32) : Vec Ideal S50000x8 .f32 :=
  fun j => Value.E19 (F := Ideal) (rowsBlk H ⟨(j 0).val / 2000, by have h : (j 0).val < 50000 := (j 0).isLt; omega⟩) (rowsBlk A ⟨(j 0).val / 2000, by have h : (j 0).val < 50000 := (j 0).isLt; omega⟩) Wr br Wh bh Wz bz Lz1 Lz2 lzb Lr1 Lr2 lrb Lh1 Lh2 lhb Wo bo
    (ix2 (⟨(j 0).val % 2000, Nat.mod_lt _ (by decide)⟩ : Fin 2000) (j 1 : Fin 8))

/-- The whole-array function at row 2000 t + r is the block function of row block t at row r. -/
theorem KG_at (A : Vec Ideal S50000x32 .f32) (H : Vec Ideal S50000x128 .f32) (Wz : Vec Ideal S32x128 .f32) (bz : Vec Ideal S1x128 .f32) (Wr : Vec Ideal S32x128 .f32) (br : Vec Ideal S1x128 .f32) (Wh : Vec Ideal S32x128 .f32) (bh : Vec Ideal S1x128 .f32) (Lz1 : Vec Ideal S128x128 .f32) (Lz2 : Vec Ideal S128x128 .f32) (lzb : Vec Ideal S1x128 .f32) (Lr1 : Vec Ideal S128x128 .f32) (Lr2 : Vec Ideal S128x128 .f32) (lrb : Vec Ideal S1x128 .f32) (Lh1 : Vec Ideal S128x128 .f32) (Lh2 : Vec Ideal S128x128 .f32) (lhb : Vec Ideal S1x128 .f32) (Wo : Vec Ideal S128x8 .f32) (bo : Vec Ideal S1x8 .f32) (t : Fin 25) (y : S2000x8.Idx) (i : S50000x8.Idx)
    (h0 : (i 0).val = t.val * 2000 + (y 0).val) (h1 : (i 1).val = (y 1).val) :
    KG A H Wz bz Wr br Wh bh Lz1 Lz2 lzb Lr1 Lr2 lrb Lh1 Lh2 lhb Wo bo i
      = Value.E19 (F := Ideal) (rowsBlk H t) (rowsBlk A t) Wr br Wh bh Wz bz Lz1 Lz2 lzb Lr1 Lr2 lrb Lh1 Lh2 lhb Wo bo y := by
  have hy0 : (y 0).val < 2000 := (y 0).isLt
  have ht : (⟨(i 0).val / 2000, by have h : (i 0).val < 50000 := (i 0).isLt; omega⟩ : Fin 25) = t :=
    Fin.ext (by show (i 0).val / 2000 = t.val; omega)
  have hy : ix2 (⟨(i 0).val % 2000, Nat.mod_lt _ (by decide)⟩ : Fin 2000) (i 1 : Fin 8) = y := by
    funext a
    match a with
    | ⟨0, _⟩ => exact Fin.ext (by show (i 0).val % 2000 = (y 0).val; omega)
    | ⟨1, _⟩ => exact Fin.ext h1
  unfold KG
  rw [ht]
  exact congrArg (Value.E19 (F := Ideal) (rowsBlk H t) (rowsBlk A t) Wr br Wh bh Wz bz Lz1 Lz2 lzb Lr1 Lr2 lrb Lh1 Lh2 lhb Wo bo) hy

/-! ## The blocks the body reads -/

variable (m : (ℓ : Loc nD τ sig) → Buf (Elt Ideal) ℓ) (ρ : Dev nD → PrngReg)

theorem hz : (![0, 0] : Fin 2 → Nat) = fun _ => 0 := funext fun a => by fin_cases a <;> rfl

/-- A grid point as a number below 25. -/
abbrev pt (t : Fin cfg0.N) : Fin 25 := ⟨t.val, Nat.lt_of_lt_of_eq t.isLt N_0⟩

/-- The three windows that move with the grid have block index (t, 0) at point t. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx19 : ∀ t : Fin cfg0.N, win0_19.index t (0 : Fin 2) = t.val ∧ win0_19.index t (1 : Fin 2) = 0 :=
  (by decide +kernel : ∀ t : Fin grid0.N, _)

/-- Window 0's block of an array at point t is rows 2000 t … 2000 t + 1999 of the array. -/
theorem rows0 (t : Fin cfg0.N) (X : Vec Ideal S50000x32 .f32) (y : S2000x32.Idx) :
    ((cfg0.win 0).blk t).view.read (Elt Ideal) X y = rowsBlk X (pt t) y := by
  obtain ⟨e0, e1⟩ := idx0 t
  rw [View.read_apply]
  show X (((cfg0.win 0).blk t).view.emb y) = X (ix2 ⟨t.val * 2000 + (y 0).val, _⟩ (y 1))
  refine congrArg X (funext fun a => Fin.ext ?_)
  match a with
  | ⟨0, _⟩ => show win0_0.index t (0 : Fin 2) * 2000 + 1 * (y 0).val = t.val * 2000 + (y 0).val; rw [e0]; omega
  | ⟨1, _⟩ => show win0_0.index t (1 : Fin 2) * 32 + 1 * (y 1).val = (y 1).val; rw [e1]; omega

theorem blk0 (c : Dev nD) (t : Fin cfg0.N) : (iblk m c 0 t : Vec Ideal S2000x32 .f32) = rowsBlk (V m c main_v50) (pt t) :=
  funext fun y => rows0 t (V m c main_v50) y

/-- Window 1's block of an array at point t is rows 2000 t … 2000 t + 1999 of the array. -/
theorem rows1 (t : Fin cfg0.N) (X : Vec Ideal S50000x128 .f32) (y : S2000x128.Idx) :
    ((cfg0.win 1).blk t).view.read (Elt Ideal) X y = rowsBlk X (pt t) y := by
  obtain ⟨e0, e1⟩ := idx1 t
  rw [View.read_apply]
  show X (((cfg0.win 1).blk t).view.emb y) = X (ix2 ⟨t.val * 2000 + (y 0).val, _⟩ (y 1))
  refine congrArg X (funext fun a => Fin.ext ?_)
  match a with
  | ⟨0, _⟩ => show win0_1.index t (0 : Fin 2) * 2000 + 1 * (y 0).val = t.val * 2000 + (y 0).val; rw [e0]; omega
  | ⟨1, _⟩ => show win0_1.index t (1 : Fin 2) * 128 + 1 * (y 1).val = (y 1).val; rw [e1]; omega

theorem blk1 (c : Dev nD) (t : Fin cfg0.N) : (iblk m c 1 t : Vec Ideal S2000x128 .f32) = rowsBlk (V m c main_v51) (pt t) :=
  funext fun y => rows1 t (V m c main_v51) y

/-- Window 2's block index is (0, 0) at every point. -/
theorem idx2 : ∀ t : Fin cfg0.N, win0_2.index t (0 : Fin 2) = 0 ∧ win0_2.index t (1 : Fin 2) = 0 :=
  (by decide +kernel : ∀ t : Fin grid0.N, _)

/-- So window 2's block of an array is the whole array, at every point. -/
theorem whole2 (t : Fin cfg0.N) (X : Vec Ideal S32x128 .f32) (y : S32x128.Idx) :
    ((cfg0.win 2).blk t).view.read (Elt Ideal) X y = X y := by
  obtain ⟨e0, e1⟩ := idx2 t
  rw [View.read_apply]
  show X (((cfg0.win 2).blk t).view.emb y) = X y
  refine congrArg X (funext fun a => Fin.ext ?_)
  match a with
  | ⟨0, _⟩ => show win0_2.index t (0 : Fin 2) * 32 + 1 * (y 0).val = (y 0).val; rw [e0]; omega
  | ⟨1, _⟩ => show win0_2.index t (1 : Fin 2) * 128 + 1 * (y 1).val = (y 1).val; rw [e1]; omega

theorem blk2 (c : Dev nD) (t : Fin cfg0.N) : (iblk m c 2 t : Vec Ideal S32x128 .f32) = V m c main_arg3 :=
  funext fun y => whole2 t (V m c main_arg3) y

/-- Window 3's block index is (0, 0) at every point. -/
theorem idx3 : ∀ t : Fin cfg0.N, win0_3.index t (0 : Fin 2) = 0 ∧ win0_3.index t (1 : Fin 2) = 0 :=
  (by decide +kernel : ∀ t : Fin grid0.N, _)

/-- So window 3's block of an array is the whole array, at every point. -/
theorem whole3 (t : Fin cfg0.N) (X : Vec Ideal S1x128 .f32) (y : S1x128.Idx) :
    ((cfg0.win 3).blk t).view.read (Elt Ideal) X y = X y := by
  obtain ⟨e0, e1⟩ := idx3 t
  rw [View.read_apply]
  show X (((cfg0.win 3).blk t).view.emb y) = X y
  refine congrArg X (funext fun a => Fin.ext ?_)
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

theorem blk3 (c : Dev nD) (t : Fin cfg0.N) : (iblk m c 3 t : Vec Ideal S1x128 .f32) = V m c main_v58 :=
  funext fun y => whole3 t (V m c main_v58) y

/-- Window 4's block index is (0, 0) at every point. -/
theorem idx4 : ∀ t : Fin cfg0.N, win0_4.index t (0 : Fin 2) = 0 ∧ win0_4.index t (1 : Fin 2) = 0 :=
  (by decide +kernel : ∀ t : Fin grid0.N, _)

/-- So window 4's block of an array is the whole array, at every point. -/
theorem whole4 (t : Fin cfg0.N) (X : Vec Ideal S32x128 .f32) (y : S32x128.Idx) :
    ((cfg0.win 4).blk t).view.read (Elt Ideal) X y = X y := by
  obtain ⟨e0, e1⟩ := idx4 t
  rw [View.read_apply]
  show X (((cfg0.win 4).blk t).view.emb y) = X y
  refine congrArg X (funext fun a => Fin.ext ?_)
  match a with
  | ⟨0, _⟩ => show win0_4.index t (0 : Fin 2) * 32 + 1 * (y 0).val = (y 0).val; rw [e0]; omega
  | ⟨1, _⟩ => show win0_4.index t (1 : Fin 2) * 128 + 1 * (y 1).val = (y 1).val; rw [e1]; omega

theorem blk4 (c : Dev nD) (t : Fin cfg0.N) : (iblk m c 4 t : Vec Ideal S32x128 .f32) = V m c main_arg5 :=
  funext fun y => whole4 t (V m c main_arg5) y

/-- Window 5's block index is (0, 0) at every point. -/
theorem idx5 : ∀ t : Fin cfg0.N, win0_5.index t (0 : Fin 2) = 0 ∧ win0_5.index t (1 : Fin 2) = 0 :=
  (by decide +kernel : ∀ t : Fin grid0.N, _)

/-- So window 5's block of an array is the whole array, at every point. -/
theorem whole5 (t : Fin cfg0.N) (X : Vec Ideal S1x128 .f32) (y : S1x128.Idx) :
    ((cfg0.win 5).blk t).view.read (Elt Ideal) X y = X y := by
  obtain ⟨e0, e1⟩ := idx5 t
  rw [View.read_apply]
  show X (((cfg0.win 5).blk t).view.emb y) = X y
  refine congrArg X (funext fun a => Fin.ext ?_)
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

theorem blk5 (c : Dev nD) (t : Fin cfg0.N) : (iblk m c 5 t : Vec Ideal S1x128 .f32) = V m c main_v59 :=
  funext fun y => whole5 t (V m c main_v59) y

/-- Window 6's block index is (0, 0) at every point. -/
theorem idx6 : ∀ t : Fin cfg0.N, win0_6.index t (0 : Fin 2) = 0 ∧ win0_6.index t (1 : Fin 2) = 0 :=
  (by decide +kernel : ∀ t : Fin grid0.N, _)

/-- So window 6's block of an array is the whole array, at every point. -/
theorem whole6 (t : Fin cfg0.N) (X : Vec Ideal S32x128 .f32) (y : S32x128.Idx) :
    ((cfg0.win 6).blk t).view.read (Elt Ideal) X y = X y := by
  obtain ⟨e0, e1⟩ := idx6 t
  rw [View.read_apply]
  show X (((cfg0.win 6).blk t).view.emb y) = X y
  refine congrArg X (funext fun a => Fin.ext ?_)
  match a with
  | ⟨0, _⟩ => show win0_6.index t (0 : Fin 2) * 32 + 1 * (y 0).val = (y 0).val; rw [e0]; omega
  | ⟨1, _⟩ => show win0_6.index t (1 : Fin 2) * 128 + 1 * (y 1).val = (y 1).val; rw [e1]; omega

theorem blk6 (c : Dev nD) (t : Fin cfg0.N) : (iblk m c 6 t : Vec Ideal S32x128 .f32) = V m c main_arg7 :=
  funext fun y => whole6 t (V m c main_arg7) y

/-- Window 7's block index is (0, 0) at every point. -/
theorem idx7 : ∀ t : Fin cfg0.N, win0_7.index t (0 : Fin 2) = 0 ∧ win0_7.index t (1 : Fin 2) = 0 :=
  (by decide +kernel : ∀ t : Fin grid0.N, _)

/-- So window 7's block of an array is the whole array, at every point. -/
theorem whole7 (t : Fin cfg0.N) (X : Vec Ideal S1x128 .f32) (y : S1x128.Idx) :
    ((cfg0.win 7).blk t).view.read (Elt Ideal) X y = X y := by
  obtain ⟨e0, e1⟩ := idx7 t
  rw [View.read_apply]
  show X (((cfg0.win 7).blk t).view.emb y) = X y
  refine congrArg X (funext fun a => Fin.ext ?_)
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

theorem blk7 (c : Dev nD) (t : Fin cfg0.N) : (iblk m c 7 t : Vec Ideal S1x128 .f32) = V m c main_v60 :=
  funext fun y => whole7 t (V m c main_v60) y

/-- Window 8's block index is (0, 0) at every point. -/
theorem idx8 : ∀ t : Fin cfg0.N, win0_8.index t (0 : Fin 2) = 0 ∧ win0_8.index t (1 : Fin 2) = 0 :=
  (by decide +kernel : ∀ t : Fin grid0.N, _)

/-- So window 8's block of an array is the whole array, at every point. -/
theorem whole8 (t : Fin cfg0.N) (X : Vec Ideal S128x128 .f32) (y : S128x128.Idx) :
    ((cfg0.win 8).blk t).view.read (Elt Ideal) X y = X y := by
  obtain ⟨e0, e1⟩ := idx8 t
  rw [View.read_apply]
  show X (((cfg0.win 8).blk t).view.emb y) = X y
  refine congrArg X (funext fun a => Fin.ext ?_)
  match a with
  | ⟨0, _⟩ => show win0_8.index t (0 : Fin 2) * 128 + 1 * (y 0).val = (y 0).val; rw [e0]; omega
  | ⟨1, _⟩ => show win0_8.index t (1 : Fin 2) * 128 + 1 * (y 1).val = (y 1).val; rw [e1]; omega

theorem blk8 (c : Dev nD) (t : Fin cfg0.N) : (iblk m c 8 t : Vec Ideal S128x128 .f32) = V m c main_v52 :=
  funext fun y => whole8 t (V m c main_v52) y

/-- Window 9's block index is (0, 0) at every point. -/
theorem idx9 : ∀ t : Fin cfg0.N, win0_9.index t (0 : Fin 2) = 0 ∧ win0_9.index t (1 : Fin 2) = 0 :=
  (by decide +kernel : ∀ t : Fin grid0.N, _)

/-- So window 9's block of an array is the whole array, at every point. -/
theorem whole9 (t : Fin cfg0.N) (X : Vec Ideal S128x128 .f32) (y : S128x128.Idx) :
    ((cfg0.win 9).blk t).view.read (Elt Ideal) X y = X y := by
  obtain ⟨e0, e1⟩ := idx9 t
  rw [View.read_apply]
  show X (((cfg0.win 9).blk t).view.emb y) = X y
  refine congrArg X (funext fun a => Fin.ext ?_)
  match a with
  | ⟨0, _⟩ => show win0_9.index t (0 : Fin 2) * 128 + 1 * (y 0).val = (y 0).val; rw [e0]; omega
  | ⟨1, _⟩ => show win0_9.index t (1 : Fin 2) * 128 + 1 * (y 1).val = (y 1).val; rw [e1]; omega

theorem blk9 (c : Dev nD) (t : Fin cfg0.N) : (iblk m c 9 t : Vec Ideal S128x128 .f32) = V m c main_v53 :=
  funext fun y => whole9 t (V m c main_v53) y

/-- Window 10's block index is (0, 0) at every point. -/
theorem idx10 : ∀ t : Fin cfg0.N, win0_10.index t (0 : Fin 2) = 0 ∧ win0_10.index t (1 : Fin 2) = 0 :=
  (by decide +kernel : ∀ t : Fin grid0.N, _)

/-- So window 10's block of an array is the whole array, at every point. -/
theorem whole10 (t : Fin cfg0.N) (X : Vec Ideal S1x128 .f32) (y : S1x128.Idx) :
    ((cfg0.win 10).blk t).view.read (Elt Ideal) X y = X y := by
  obtain ⟨e0, e1⟩ := idx10 t
  rw [View.read_apply]
  show X (((cfg0.win 10).blk t).view.emb y) = X y
  refine congrArg X (funext fun a => Fin.ext ?_)
  match a with
  | ⟨0, _⟩ => show win0_10.index t (0 : Fin 2) * 1 + 1 * (y 0).val = (y 0).val; rw [e0]; omega
  | ⟨1, _⟩ => show win0_10.index t (1 : Fin 2) * 128 + 1 * (y 1).val = (y 1).val; rw [e1]; omega

theorem blk10 (c : Dev nD) (t : Fin cfg0.N) : (iblk m c 10 t : Vec Ideal S1x128 .f32) = V m c main_v61 :=
  funext fun y => whole10 t (V m c main_v61) y

/-- Window 11's block index is (0, 0) at every point. -/
theorem idx11 : ∀ t : Fin cfg0.N, win0_11.index t (0 : Fin 2) = 0 ∧ win0_11.index t (1 : Fin 2) = 0 :=
  (by decide +kernel : ∀ t : Fin grid0.N, _)

/-- So window 11's block of an array is the whole array, at every point. -/
theorem whole11 (t : Fin cfg0.N) (X : Vec Ideal S128x128 .f32) (y : S128x128.Idx) :
    ((cfg0.win 11).blk t).view.read (Elt Ideal) X y = X y := by
  obtain ⟨e0, e1⟩ := idx11 t
  rw [View.read_apply]
  show X (((cfg0.win 11).blk t).view.emb y) = X y
  refine congrArg X (funext fun a => Fin.ext ?_)
  match a with
  | ⟨0, _⟩ => show win0_11.index t (0 : Fin 2) * 128 + 1 * (y 0).val = (y 0).val; rw [e0]; omega
  | ⟨1, _⟩ => show win0_11.index t (1 : Fin 2) * 128 + 1 * (y 1).val = (y 1).val; rw [e1]; omega

theorem blk11 (c : Dev nD) (t : Fin cfg0.N) : (iblk m c 11 t : Vec Ideal S128x128 .f32) = V m c main_v54 :=
  funext fun y => whole11 t (V m c main_v54) y

/-- Window 12's block index is (0, 0) at every point. -/
theorem idx12 : ∀ t : Fin cfg0.N, win0_12.index t (0 : Fin 2) = 0 ∧ win0_12.index t (1 : Fin 2) = 0 :=
  (by decide +kernel : ∀ t : Fin grid0.N, _)

/-- So window 12's block of an array is the whole array, at every point. -/
theorem whole12 (t : Fin cfg0.N) (X : Vec Ideal S128x128 .f32) (y : S128x128.Idx) :
    ((cfg0.win 12).blk t).view.read (Elt Ideal) X y = X y := by
  obtain ⟨e0, e1⟩ := idx12 t
  rw [View.read_apply]
  show X (((cfg0.win 12).blk t).view.emb y) = X y
  refine congrArg X (funext fun a => Fin.ext ?_)
  match a with
  | ⟨0, _⟩ => show win0_12.index t (0 : Fin 2) * 128 + 1 * (y 0).val = (y 0).val; rw [e0]; omega
  | ⟨1, _⟩ => show win0_12.index t (1 : Fin 2) * 128 + 1 * (y 1).val = (y 1).val; rw [e1]; omega

theorem blk12 (c : Dev nD) (t : Fin cfg0.N) : (iblk m c 12 t : Vec Ideal S128x128 .f32) = V m c main_v55 :=
  funext fun y => whole12 t (V m c main_v55) y

/-- Window 13's block index is (0, 0) at every point. -/
theorem idx13 : ∀ t : Fin cfg0.N, win0_13.index t (0 : Fin 2) = 0 ∧ win0_13.index t (1 : Fin 2) = 0 :=
  (by decide +kernel : ∀ t : Fin grid0.N, _)

/-- So window 13's block of an array is the whole array, at every point. -/
theorem whole13 (t : Fin cfg0.N) (X : Vec Ideal S1x128 .f32) (y : S1x128.Idx) :
    ((cfg0.win 13).blk t).view.read (Elt Ideal) X y = X y := by
  obtain ⟨e0, e1⟩ := idx13 t
  rw [View.read_apply]
  show X (((cfg0.win 13).blk t).view.emb y) = X y
  refine congrArg X (funext fun a => Fin.ext ?_)
  match a with
  | ⟨0, _⟩ => show win0_13.index t (0 : Fin 2) * 1 + 1 * (y 0).val = (y 0).val; rw [e0]; omega
  | ⟨1, _⟩ => show win0_13.index t (1 : Fin 2) * 128 + 1 * (y 1).val = (y 1).val; rw [e1]; omega

theorem blk13 (c : Dev nD) (t : Fin cfg0.N) : (iblk m c 13 t : Vec Ideal S1x128 .f32) = V m c main_v62 :=
  funext fun y => whole13 t (V m c main_v62) y

/-- Window 14's block index is (0, 0) at every point. -/
theorem idx14 : ∀ t : Fin cfg0.N, win0_14.index t (0 : Fin 2) = 0 ∧ win0_14.index t (1 : Fin 2) = 0 :=
  (by decide +kernel : ∀ t : Fin grid0.N, _)

/-- So window 14's block of an array is the whole array, at every point. -/
theorem whole14 (t : Fin cfg0.N) (X : Vec Ideal S128x128 .f32) (y : S128x128.Idx) :
    ((cfg0.win 14).blk t).view.read (Elt Ideal) X y = X y := by
  obtain ⟨e0, e1⟩ := idx14 t
  rw [View.read_apply]
  show X (((cfg0.win 14).blk t).view.emb y) = X y
  refine congrArg X (funext fun a => Fin.ext ?_)
  match a with
  | ⟨0, _⟩ => show win0_14.index t (0 : Fin 2) * 128 + 1 * (y 0).val = (y 0).val; rw [e0]; omega
  | ⟨1, _⟩ => show win0_14.index t (1 : Fin 2) * 128 + 1 * (y 1).val = (y 1).val; rw [e1]; omega

theorem blk14 (c : Dev nD) (t : Fin cfg0.N) : (iblk m c 14 t : Vec Ideal S128x128 .f32) = V m c main_v56 :=
  funext fun y => whole14 t (V m c main_v56) y

/-- Window 15's block index is (0, 0) at every point. -/
theorem idx15 : ∀ t : Fin cfg0.N, win0_15.index t (0 : Fin 2) = 0 ∧ win0_15.index t (1 : Fin 2) = 0 :=
  (by decide +kernel : ∀ t : Fin grid0.N, _)

/-- So window 15's block of an array is the whole array, at every point. -/
theorem whole15 (t : Fin cfg0.N) (X : Vec Ideal S128x128 .f32) (y : S128x128.Idx) :
    ((cfg0.win 15).blk t).view.read (Elt Ideal) X y = X y := by
  obtain ⟨e0, e1⟩ := idx15 t
  rw [View.read_apply]
  show X (((cfg0.win 15).blk t).view.emb y) = X y
  refine congrArg X (funext fun a => Fin.ext ?_)
  match a with
  | ⟨0, _⟩ => show win0_15.index t (0 : Fin 2) * 128 + 1 * (y 0).val = (y 0).val; rw [e0]; omega
  | ⟨1, _⟩ => show win0_15.index t (1 : Fin 2) * 128 + 1 * (y 1).val = (y 1).val; rw [e1]; omega

theorem blk15 (c : Dev nD) (t : Fin cfg0.N) : (iblk m c 15 t : Vec Ideal S128x128 .f32) = V m c main_v57 :=
  funext fun y => whole15 t (V m c main_v57) y

/-- Window 16's block index is (0, 0) at every point. -/
theorem idx16 : ∀ t : Fin cfg0.N, win0_16.index t (0 : Fin 2) = 0 ∧ win0_16.index t (1 : Fin 2) = 0 :=
  (by decide +kernel : ∀ t : Fin grid0.N, _)

/-- So window 16's block of an array is the whole array, at every point. -/
theorem whole16 (t : Fin cfg0.N) (X : Vec Ideal S1x128 .f32) (y : S1x128.Idx) :
    ((cfg0.win 16).blk t).view.read (Elt Ideal) X y = X y := by
  obtain ⟨e0, e1⟩ := idx16 t
  rw [View.read_apply]
  show X (((cfg0.win 16).blk t).view.emb y) = X y
  refine congrArg X (funext fun a => Fin.ext ?_)
  match a with
  | ⟨0, _⟩ => show win0_16.index t (0 : Fin 2) * 1 + 1 * (y 0).val = (y 0).val; rw [e0]; omega
  | ⟨1, _⟩ => show win0_16.index t (1 : Fin 2) * 128 + 1 * (y 1).val = (y 1).val; rw [e1]; omega

theorem blk16 (c : Dev nD) (t : Fin cfg0.N) : (iblk m c 16 t : Vec Ideal S1x128 .f32) = V m c main_v63 :=
  funext fun y => whole16 t (V m c main_v63) y

/-- Window 17's block index is (0, 0) at every point. -/
theorem idx17 : ∀ t : Fin cfg0.N, win0_17.index t (0 : Fin 2) = 0 ∧ win0_17.index t (1 : Fin 2) = 0 :=
  (by decide +kernel : ∀ t : Fin grid0.N, _)

/-- So window 17's block of an array is the whole array, at every point. -/
theorem whole17 (t : Fin cfg0.N) (X : Vec Ideal S128x8 .f32) (y : S128x8.Idx) :
    ((cfg0.win 17).blk t).view.read (Elt Ideal) X y = X y := by
  obtain ⟨e0, e1⟩ := idx17 t
  rw [View.read_apply]
  show X (((cfg0.win 17).blk t).view.emb y) = X y
  refine congrArg X (funext fun a => Fin.ext ?_)
  match a with
  | ⟨0, _⟩ => show win0_17.index t (0 : Fin 2) * 128 + 1 * (y 0).val = (y 0).val; rw [e0]; omega
  | ⟨1, _⟩ => show win0_17.index t (1 : Fin 2) * 8 + 1 * (y 1).val = (y 1).val; rw [e1]; omega

theorem blk17 (c : Dev nD) (t : Fin cfg0.N) : (iblk m c 17 t : Vec Ideal S128x8 .f32) = V m c main_arg15 :=
  funext fun y => whole17 t (V m c main_arg15) y

/-- Window 18's block index is (0, 0) at every point. -/
theorem idx18 : ∀ t : Fin cfg0.N, win0_18.index t (0 : Fin 2) = 0 ∧ win0_18.index t (1 : Fin 2) = 0 :=
  (by decide +kernel : ∀ t : Fin grid0.N, _)

/-- So window 18's block of an array is the whole array, at every point. -/
theorem whole18 (t : Fin cfg0.N) (X : Vec Ideal S1x8 .f32) (y : S1x8.Idx) :
    ((cfg0.win 18).blk t).view.read (Elt Ideal) X y = X y := by
  obtain ⟨e0, e1⟩ := idx18 t
  rw [View.read_apply]
  show X (((cfg0.win 18).blk t).view.emb y) = X y
  refine congrArg X (funext fun a => Fin.ext ?_)
  match a with
  | ⟨0, _⟩ => show win0_18.index t (0 : Fin 2) * 1 + 1 * (y 0).val = (y 0).val; rw [e0]; omega
  | ⟨1, _⟩ => show win0_18.index t (1 : Fin 2) * 8 + 1 * (y 1).val = (y 1).val; rw [e1]; omega

theorem blk18 (c : Dev nD) (t : Fin cfg0.N) : (iblk m c 18 t : Vec Ideal S1x8 .f32) = V m c main_v64 :=
  funext fun y => whole18 t (V m c main_v64) y

/-! ## What a point writes back, and the array after the run -/

/-- The body's stored block is the block function of its loaded operands: every load is of a whole staging buffer. -/
theorem out_eq {F : FTy → Type} [FloatOps F] (x0 : Vec F S2000x32 .f32) (x1 : Vec F S2000x128 .f32) (x2 : Vec F S32x128 .f32) (x3 : Vec F S1x128 .f32) (x4 : Vec F S32x128 .f32) (x5 : Vec F S1x128 .f32) (x6 : Vec F S32x128 .f32) (x7 : Vec F S1x128 .f32) (x8 : Vec F S128x128 .f32) (x9 : Vec F S128x128 .f32) (x10 : Vec F S1x128 .f32) (x11 : Vec F S128x128 .f32) (x12 : Vec F S128x128 .f32) (x13 : Vec F S1x128 .f32) (x14 : Vec F S128x128 .f32) (x15 : Vec F S128x128 .f32) (x16 : Vec F S1x128 .f32) (x17 : Vec F S128x8 .f32) (x18 : Vec F S1x8 .f32) :
    out0_19 x0 x1 x2 x3 x4 x5 x6 x7 x8 x9 x10 x11 x12 x13 x14 x15 x16 x17 x18 = Value.E19 x1 x0 x4 x5 x6 x7 x2 x3 x8 x9 x10 x11 x12 x13 x14 x15 x16 x17 x18 := by
  funext y
  unfold out0_19
  simp only [View.ld_unit_zero (S := S2000x32) hz, View.ld_unit_zero (S := S2000x128) hz, View.ld_unit_zero (S := S32x128) hz, View.ld_unit_zero (S := S1x128) hz, View.ld_unit_zero (S := S128x128) hz, View.ld_unit_zero (S := S128x8) hz, View.ld_unit_zero (S := S1x8) hz]
  exact Value.canon19_eq x1 x0 x4 x5 x6 x7 x2 x3 x8 x9 x10 x11 x12 x13 x14 x15 x16 x17 x18 y

/-- The same, with each loaded operand replaced by an equal one. -/
theorem out_eq_of {F : FTy → Type} [FloatOps F] {x0 z0 : Vec F S2000x32 .f32} {x1 z1 : Vec F S2000x128 .f32} {x2 z2 : Vec F S32x128 .f32} {x3 z3 : Vec F S1x128 .f32} {x4 z4 : Vec F S32x128 .f32} {x5 z5 : Vec F S1x128 .f32} {x6 z6 : Vec F S32x128 .f32} {x7 z7 : Vec F S1x128 .f32} {x8 z8 : Vec F S128x128 .f32} {x9 z9 : Vec F S128x128 .f32} {x10 z10 : Vec F S1x128 .f32} {x11 z11 : Vec F S128x128 .f32} {x12 z12 : Vec F S128x128 .f32} {x13 z13 : Vec F S1x128 .f32} {x14 z14 : Vec F S128x128 .f32} {x15 z15 : Vec F S128x128 .f32} {x16 z16 : Vec F S1x128 .f32} {x17 z17 : Vec F S128x8 .f32} {x18 z18 : Vec F S1x8 .f32}
    (h0 : x0 = z0) (h1 : x1 = z1) (h2 : x2 = z2) (h3 : x3 = z3) (h4 : x4 = z4) (h5 : x5 = z5) (h6 : x6 = z6) (h7 : x7 = z7) (h8 : x8 = z8) (h9 : x9 = z9) (h10 : x10 = z10) (h11 : x11 = z11) (h12 : x12 = z12) (h13 : x13 = z13) (h14 : x14 = z14) (h15 : x15 = z15) (h16 : x16 = z16) (h17 : x17 = z17) (h18 : x18 = z18) :
    out0_19 x0 x1 x2 x3 x4 x5 x6 x7 x8 x9 x10 x11 x12 x13 x14 x15 x16 x17 x18 = Value.E19 z1 z0 z4 z5 z6 z7 z2 z3 z8 z9 z10 z11 z12 z13 z14 z15 z16 z17 z18 := by
  subst h0 h1 h2 h3 h4 h5 h6 h7 h8 h9 h10 h11 h12 h13 h14 h15 h16 h17 h18
  exact out_eq x0 x1 x2 x3 x4 x5 x6 x7 x8 x9 x10 x11 x12 x13 x14 x15 x16 x17 x18

/-- The result's blocks are never cut short: what is written back is the whole stored block. -/
theorem cut19 (t : Fin cfg0.N) (Z : Vec Ideal S2000x8 .f32) (y : S2000x8.Idx) :
    (cfg0.win 19).cut (grid0.coords t) Z y = Z y := rfl

/-- Entry (r, p) of point t's block of a result-shaped array is the array's entry (2000 t + r, p). -/
theorem read19 (t : Fin cfg0.N) (G : Vec Ideal S50000x8 .f32) (y : S2000x8.Idx) (i : S50000x8.Idx)
    (h0 : (i 0).val = t.val * 2000 + (y 0).val) (h1 : (i 1).val = (y 1).val) :
    ((cfg0.win 19).blk t).view.read (Elt Ideal) G y = G i := by
  obtain ⟨e0, e1⟩ := idx19 t
  rw [View.read_apply]
  show G (((cfg0.win 19).blk t).view.emb y) = G i
  refine congrArg G (funext fun a => Fin.ext ?_)
  match a with
  | ⟨0, _⟩ => show win0_19.index t (0 : Fin 2) * 2000 + 1 * (y 0).val = (i 0).val; rw [e0, h0]; omega
  | ⟨1, _⟩ => show win0_19.index t (1 : Fin 2) * 8 + 1 * (y 1).val = (i 1).val; rw [e1, h1]; omega

/-- Point t writes back rows 2000 t … 2000 t + 1999 of the whole-array function. -/
theorem flushed_eq (c : Dev nD) (t : Fin cfg0.N) :
    (dats m 0 c).flushed 19 t = ((cfg0.win 19).blk t).view.read (Elt Ideal)
      (KG (V m c main_v50) (V m c main_v51) (V m c main_arg3) (V m c main_v58) (V m c main_arg5) (V m c main_v59) (V m c main_arg7) (V m c main_v60) (V m c main_v52) (V m c main_v53) (V m c main_v61) (V m c main_v54) (V m c main_v55) (V m c main_v62) (V m c main_v56) (V m c main_v57) (V m c main_v63) (V m c main_arg15) (V m c main_v64)) := by
  rw [Value.flushed19]
  funext y
  refine (cut19 t _ y).trans ?_
  refine (congrFun (out_eq_of (F := Ideal) (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (blk15 m c t) (blk16 m c t) (blk17 m c t) (blk18 m c t)) y).trans ?_
  have hy0 : (y 0).val < 2000 := (y 0).isLt
  refine ((KG_at (V m c main_v50) (V m c main_v51) (V m c main_arg3) (V m c main_v58) (V m c main_arg5) (V m c main_v59) (V m c main_arg7) (V m c main_v60) (V m c main_v52) (V m c main_v53) (V m c main_v61) (V m c main_v54) (V m c main_v55) (V m c main_v62) (V m c main_v56) (V m c main_v57) (V m c main_v63) (V m c main_arg15) (V m c main_v64) (pt t) y
    (ix2 (⟨t.val * 2000 + (y 0).val, by have ht : t.val < 25 := (pt t).isLt; omega⟩ : Fin 50000) (y 1 : Fin 8)) rfl rfl).symm).trans ?_
  exact (read19 t _ y _ rfl rfl).symm

/-- An entry of the result lies in point t's block iff each coordinate is in the block's range on its axis. -/
theorem mem_blk (t : Fin cfg0.N) (i : S50000x8.Idx) :
    i ∈ ((cfg0.win 19).blk t).view.set ↔ ∀ a : Fin 2, win0_19.index t a * S2000x8.size a ≤ (i a).val ∧ (i a).val < win0_19.index t a * S2000x8.size a + S2000x8.size a := by
  show i ∈ ((View.whole main_v65).slice (win0_19.rect t)).set ↔ _
  rw [View.set_slice_whole, Rect.mem_set_unit]
  exact Iff.rfl

/-- The blocks tile the result: row i lies in the block of point i / 2000. -/
theorem cover (i : S50000x8.Idx) :
    ∃ t : Fin cfg0.N, (cfg0.win 19).flush t = true ∧ i ∈ ((cfg0.win 19).blk t).view.set := by
  have hi0 : (i 0).val < 50000 := (i 0).isLt
  have hi1 : (i 1).val < 8 := (i 1).isLt
  obtain ⟨t, ht⟩ : ∃ t : Fin cfg0.N, t.val = (i 0).val / 2000 :=
    ⟨⟨(i 0).val / 2000, Nat.lt_of_lt_of_eq (show (i 0).val / 2000 < 25 by omega) N_0.symm⟩, rfl⟩
  obtain ⟨e0, e1⟩ := idx19 t
  refine ⟨t, flush0_19 t, ?_⟩
  rw [mem_blk]
  intro a
  match a with
  | ⟨0, _⟩ => show win0_19.index t (0 : Fin 2) * 2000 ≤ (i 0).val ∧ (i 0).val < win0_19.index t (0 : Fin 2) * 2000 + 2000; rw [e0]; omega
  | ⟨1, _⟩ => show win0_19.index t (1 : Fin 2) * 8 ≤ (i 1).val ∧ (i 1).val < win0_19.index t (1 : Fin 2) * 8 + 8; rw [e1]; omega

/-- The result array after the run is the whole-array function of the operands as the call finds them. -/
theorem final (c : Dev nD) :
    (dats m 0 c).arrAt 19 cfg0.N = KG (V m c main_v50) (V m c main_v51) (V m c main_arg3) (V m c main_v58) (V m c main_arg5) (V m c main_v59) (V m c main_arg7) (V m c main_v60) (V m c main_v52) (V m c main_v53) (V m c main_v61) (V m c main_v54) (V m c main_v55) (V m c main_v62) (V m c main_v56) (V m c main_v57) (V m c main_v63) (V m c main_arg15) (V m c main_v64) :=
  (dats m 0 c).arrAt_eq_of_cover 19 (KG (V m c main_v50) (V m c main_v51) (V m c main_arg3) (V m c main_v58) (V m c main_arg5) (V m c main_v59) (V m c main_arg7) (V m c main_v60) (V m c main_v52) (V m c main_v53) (V m c main_v61) (V m c main_v54) (V m c main_v55) (V m c main_v62) (V m c main_v56) (V m c main_v57) (V m c main_v63) (V m c main_arg15) (V m c main_v64))
    (fun t _ => flushed_eq m c t) cover

/-- The kernel's run: the result buffer at the whole-array function, the arguments unchanged. -/
theorem run : θ_run defs (onTc (τ := τ) (main (F := Ideal))) ⟨m, fun _ => 0, ρ⟩ fun r => ∀ c : Dev nD,
      r.2.mem ((c : Thread nD τ).loc main_v65) = KG (V m c main_v50) (V m c main_v51) (V m c main_arg3) (V m c main_v58) (V m c main_arg5) (V m c main_v59) (V m c main_arg7) (V m c main_v60) (V m c main_v52) (V m c main_v53) (V m c main_v61) (V m c main_v54) (V m c main_v55) (V m c main_v62) (V m c main_v56) (V m c main_v57) (V m c main_v63) (V m c main_arg15) (V m c main_v64)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans (final m c), (h c).2⟩) (Value.run_blocks m ρ)

end Cert.KerArr

end
-- ==== Proof.KerOps.lean ====
/-
  The operands the kernel reads that the host program writes just before it, read at one entry.

  The hidden state reaches the kernel as the first 50000 of its 100000 rows; each gate's 256 x 128 weight matrix
  reaches it as two 128 x 128 halves (rows 0..127 and rows 128..255); each bias vector of length n reaches it as a
  1 x n row. So an entry of such an operand is an entry of the argument array it was cut or spread from: row i of
  the slice is row i of the array, row k of a lower half is row 128 + k of the matrix, and entry (0, f) of a bias
  row is entry f of the vector.
-/
import proofs.«110348_j49383533969725_2_alg».proof.Proof.Gen.KernelIdeal.Frame
import proofs.«110348_j49383533969725_2_alg».proof.Proof.Spec
import Idealize.ShloMosaic.Lib.Pipeline.Value
import Idealize.ShloMosaic.Lib.ValueIdx
import Idealize.ShloMosaic.Lib.StableHlo.Run

noncomputable section

namespace Cert.KerOps

open Cert.KernelIdeal Cert.KernelIdeal.Gen Idealize.ShloMosaic Idealize.ShloMosaic.ValueIdx Idealize.SL.Sem
open Idealize.ShloMosaic.StableHlo Idealize.ShloMosaic.TcCoe

variable (m : (ℓ : Loc nD τ sig) → Buf (Elt Ideal) ℓ) (c : Dev nD)

set_option maxRecDepth 65536 in
set_option maxHeartbeats 40000000 in
/-- The hidden block the kernel reads is the first 50000 rows of the hidden-state argument. -/
theorem V_v51 : (V m c main_v51 : S50000x128.Idx → EReal)
    = extractStridedSlice S50000x128 ![0, 0] (m ((c : Thread nD τ).loc main_arg1)) slices_S100000x128_S50000x128_0_0 := by
  dsimp only [V, hostOps0]
  after_results_simp

/-- Its entry (i, k) is the argument's entry (i, k), row i taken among all 100000. -/
theorem v51_apply (i : Fin 50000) (k : Fin 128) :
    V m c main_v51 (ix2 i k) = m ((c : Thread nD τ).loc main_arg1) (ix2 (Cert.Gru.up i) k) := by
  rw [V_v51]
  exact extractStridedSlice_apply ![0, 0] _ _ (ix2 i k) (ix2 (Cert.Gru.up i) k) (fun a => by
    match a with
    | ⟨0, _⟩ => show i.val = 0 + i.val; omega
    | ⟨1, _⟩ => show k.val = 0 + k.val; omega)

set_option maxRecDepth 65536 in
set_option maxHeartbeats 40000000 in
/-- The upper half of the first gate's 256 x 128 weight matrix: its rows 0 to 127. -/
theorem V_v52 : (V m c main_v52 : S128x128.Idx → EReal)
    = extractStridedSlice S128x128 ![0, 0] (m ((c : Thread nD τ).loc main_arg9)) slices_S256x128_S128x128_0_0 := by
  dsimp only [V, hostOps0]
  after_results_simp

/-- Its entry (i, k) is the matrix's entry (i, k). -/
theorem v52_apply (i : Fin 128) (k : Fin 128) :
    V m c main_v52 (ix2 i k) = m ((c : Thread nD τ).loc main_arg9) (ix2 (Fin.castAdd 128 i) k) := by
  rw [V_v52]
  exact extractStridedSlice_apply ![0, 0] _ _ (ix2 i k) (ix2 (Fin.castAdd 128 i) k) (fun a => by
    match a with
    | ⟨0, _⟩ => show i.val = 0 + i.val; omega
    | ⟨1, _⟩ => show k.val = 0 + k.val; omega)

set_option maxRecDepth 65536 in
set_option maxHeartbeats 40000000 in
/-- The lower half of the first gate's 256 x 128 weight matrix: its rows 128 to 255. -/
theorem V_v53 : (V m c main_v53 : S128x128.Idx → EReal)
    = extractStridedSlice S128x128 ![128, 0] (m ((c : Thread nD τ).loc main_arg9)) slices_S256x128_S128x128_128_0 := by
  dsimp only [V, hostOps0]
  after_results_simp

/-- Its entry (i, k) is the matrix's entry (128 + i, k). -/
theorem v53_apply (i : Fin 128) (k : Fin 128) :
    V m c main_v53 (ix2 i k) = m ((c : Thread nD τ).loc main_arg9) (ix2 (Fin.natAdd 128 i) k) := by
  rw [V_v53]
  exact extractStridedSlice_apply ![128, 0] _ _ (ix2 i k) (ix2 (Fin.natAdd 128 i) k) (fun a => by
    match a with
    | ⟨0, _⟩ => show 128 + i.val = 128 + i.val; omega
    | ⟨1, _⟩ => show k.val = 0 + k.val; omega)

set_option maxRecDepth 65536 in
set_option maxHeartbeats 40000000 in
/-- The upper half of the second gate's 256 x 128 weight matrix: its rows 0 to 127. -/
theorem V_v54 : (V m c main_v54 : S128x128.Idx → EReal)
    = extractStridedSlice S128x128 ![0, 0] (m ((c : Thread nD τ).loc main_arg11)) slices_S256x128_S128x128_0_0 := by
  dsimp only [V, hostOps0]
  after_results_simp

/-- Its entry (i, k) is the matrix's entry (i, k). -/
theorem v54_apply (i : Fin 128) (k : Fin 128) :
    V m c main_v54 (ix2 i k) = m ((c : Thread nD τ).loc main_arg11) (ix2 (Fin.castAdd 128 i) k) := by
  rw [V_v54]
  exact extractStridedSlice_apply ![0, 0] _ _ (ix2 i k) (ix2 (Fin.castAdd 128 i) k) (fun a => by
    match a with
    | ⟨0, _⟩ => show i.val = 0 + i.val; omega
    | ⟨1, _⟩ => show k.val = 0 + k.val; omega)

set_option maxRecDepth 65536 in
set_option maxHeartbeats 40000000 in
/-- The lower half of the second gate's 256 x 128 weight matrix: its rows 128 to 255. -/
theorem V_v55 : (V m c main_v55 : S128x128.Idx → EReal)
    = extractStridedSlice S128x128 ![128, 0] (m ((c : Thread nD τ).loc main_arg11)) slices_S256x128_S128x128_128_0 := by
  dsimp only [V, hostOps0]
  after_results_simp

/-- Its entry (i, k) is the matrix's entry (128 + i, k). -/
theorem v55_apply (i : Fin 128) (k : Fin 128) :
    V m c main_v55 (ix2 i k) = m ((c : Thread nD τ).loc main_arg11) (ix2 (Fin.natAdd 128 i) k) := by
  rw [V_v55]
  exact extractStridedSlice_apply ![128, 0] _ _ (ix2 i k) (ix2 (Fin.natAdd 128 i) k) (fun a => by
    match a with
    | ⟨0, _⟩ => show 128 + i.val = 128 + i.val; omega
    | ⟨1, _⟩ => show k.val = 0 + k.val; omega)

set_option maxRecDepth 65536 in
set_option maxHeartbeats 40000000 in
/-- The upper half of the third gate's 256 x 128 weight matrix: its rows 0 to 127. -/
theorem V_v56 : (V m c main_v56 : S128x128.Idx → EReal)
    = extractStridedSlice S128x128 ![0, 0] (m ((c : Thread nD τ).loc main_arg13)) slices_S256x128_S128x128_0_0 := by
  dsimp only [V, hostOps0]
  after_results_simp

/-- Its entry (i, k) is the matrix's entry (i, k). -/
theorem v56_apply (i : Fin 128) (k : Fin 128) :
    V m c main_v56 (ix2 i k) = m ((c : Thread nD τ).loc main_arg13) (ix2 (Fin.castAdd 128 i) k) := by
  rw [V_v56]
  exact extractStridedSlice_apply ![0, 0] _ _ (ix2 i k) (ix2 (Fin.castAdd 128 i) k) (fun a => by
    match a with
    | ⟨0, _⟩ => show i.val = 0 + i.val; omega
    | ⟨1, _⟩ => show k.val = 0 + k.val; omega)

set_option maxRecDepth 65536 in
set_option maxHeartbeats 40000000 in
/-- The lower half of the third gate's 256 x 128 weight matrix: its rows 128 to 255. -/
theorem V_v57 : (V m c main_v57 : S128x128.Idx → EReal)
    = extractStridedSlice S128x128 ![128, 0] (m ((c : Thread nD τ).loc main_arg13)) slices_S256x128_S128x128_128_0 := by
  dsimp only [V, hostOps0]
  after_results_simp

/-- Its entry (i, k) is the matrix's entry (128 + i, k). -/
theorem v57_apply (i : Fin 128) (k : Fin 128) :
    V m c main_v57 (ix2 i k) = m ((c : Thread nD τ).loc main_arg13) (ix2 (Fin.natAdd 128 i) k) := by
  rw [V_v57]
  exact extractStridedSlice_apply ![128, 0] _ _ (ix2 i k) (ix2 (Fin.natAdd 128 i) k) (fun a => by
    match a with
    | ⟨0, _⟩ => show 128 + i.val = 128 + i.val; omega
    | ⟨1, _⟩ => show k.val = 0 + k.val; omega)

set_option maxRecDepth 65536 in
set_option maxHeartbeats 40000000 in
/-- The first input bias as the kernel reads it: the vector of length 128 as one row. -/
theorem V_v58 : (V m c main_v58 : S1x128.Idx → EReal)
    = broadcastInDim S1x128 ![1] bcast_S128_S1x128_1 (m ((c : Thread nD τ).loc main_arg4)) := by
  dsimp only [V, hostOps0]
  after_results_simp

/-- Its entry (0, f) is the vector's entry f. -/
theorem v58_apply (f : Fin 128) :
    V m c main_v58 (ix2 (0 : Fin 1) f) = m ((c : Thread nD τ).loc main_arg4) (ix1 f) := by
  rw [V_v58]
  exact broadcastInDim_apply ![1] _ _ (ix2 (0 : Fin 1) f) (ix1 f) (fun a => by
    match a with
    | ⟨0, _⟩ =>
      refine (if_neg ?_).symm
      show ¬ (128 : ℕ) = 1
      decide)

set_option maxRecDepth 65536 in
set_option maxHeartbeats 40000000 in
/-- The second input bias as the kernel reads it: the vector of length 128 as one row. -/
theorem V_v59 : (V m c main_v59 : S1x128.Idx → EReal)
    = broadcastInDim S1x128 ![1] bcast_S128_S1x128_1 (m ((c : Thread nD τ).loc main_arg6)) := by
  dsimp only [V, hostOps0]
  after_results_simp

/-- Its entry (0, f) is the vector's entry f. -/
theorem v59_apply (f : Fin 128) :
    V m c main_v59 (ix2 (0 : Fin 1) f) = m ((c : Thread nD τ).loc main_arg6) (ix1 f) := by
  rw [V_v59]
  exact broadcastInDim_apply ![1] _ _ (ix2 (0 : Fin 1) f) (ix1 f) (fun a => by
    match a with
    | ⟨0, _⟩ =>
      refine (if_neg ?_).symm
      show ¬ (128 : ℕ) = 1
      decide)

set_option maxRecDepth 65536 in
set_option maxHeartbeats 40000000 in
/-- The third input bias as the kernel reads it: the vector of length 128 as one row. -/
theorem V_v60 : (V m c main_v60 : S1x128.Idx → EReal)
    = broadcastInDim S1x128 ![1] bcast_S128_S1x128_1 (m ((c : Thread nD τ).loc main_arg8)) := by
  dsimp only [V, hostOps0]
  after_results_simp

/-- Its entry (0, f) is the vector's entry f. -/
theorem v60_apply (f : Fin 128) :
    V m c main_v60 (ix2 (0 : Fin 1) f) = m ((c : Thread nD τ).loc main_arg8) (ix1 f) := by
  rw [V_v60]
  exact broadcastInDim_apply ![1] _ _ (ix2 (0 : Fin 1) f) (ix1 f) (fun a => by
    match a with
    | ⟨0, _⟩ =>
      refine (if_neg ?_).symm
      show ¬ (128 : ℕ) = 1
      decide)

set_option maxRecDepth 65536 in
set_option maxHeartbeats 40000000 in
/-- The first gate's bias as the kernel reads it: the vector of length 128 as one row. -/
theorem V_v61 : (V m c main_v61 : S1x128.Idx → EReal)
    = broadcastInDim S1x128 ![1] bcast_S128_S1x128_1 (m ((c : Thread nD τ).loc main_arg10)) := by
  dsimp only [V, hostOps0]
  after_results_simp

/-- Its entry (0, f) is the vector's entry f. -/
theorem v61_apply (f : Fin 128) :
    V m c main_v61 (ix2 (0 : Fin 1) f) = m ((c : Thread nD τ).loc main_arg10) (ix1 f) := by
  rw [V_v61]
  exact broadcastInDim_apply ![1] _ _ (ix2 (0 : Fin 1) f) (ix1 f) (fun a => by
    match a with
    | ⟨0, _⟩ =>
      refine (if_neg ?_).symm
      show ¬ (128 : ℕ) = 1
      decide)

set_option maxRecDepth 65536 in
set_option maxHeartbeats 40000000 in
/-- The second gate's bias as the kernel reads it: the vector of length 128 as one row. -/
theorem V_v62 : (V m c main_v62 : S1x128.Idx → EReal)
    = broadcastInDim S1x128 ![1] bcast_S128_S1x128_1 (m ((c : Thread nD τ).loc main_arg12)) := by
  dsimp only [V, hostOps0]
  after_results_simp

/-- Its entry (0, f) is the vector's entry f. -/
theorem v62_apply (f : Fin 128) :
    V m c main_v62 (ix2 (0 : Fin 1) f) = m ((c : Thread nD τ).loc main_arg12) (ix1 f) := by
  rw [V_v62]
  exact broadcastInDim_apply ![1] _ _ (ix2 (0 : Fin 1) f) (ix1 f) (fun a => by
    match a with
    | ⟨0, _⟩ =>
      refine (if_neg ?_).symm
      show ¬ (128 : ℕ) = 1
      decide)

set_option maxRecDepth 65536 in
set_option maxHeartbeats 40000000 in
/-- The third gate's bias as the kernel reads it: the vector of length 128 as one row. -/
theorem V_v63 : (V m c main_v63 : S1x128.Idx → EReal)
    = broadcastInDim S1x128 ![1] bcast_S128_S1x128_1 (m ((c : Thread nD τ).loc main_arg14)) := by
  dsimp only [V, hostOps0]
  after_results_simp

/-- Its entry (0, f) is the vector's entry f. -/
theorem v63_apply (f : Fin 128) :
    V m c main_v63 (ix2 (0 : Fin 1) f) = m ((c : Thread nD τ).loc main_arg14) (ix1 f) := by
  rw [V_v63]
  exact broadcastInDim_apply ![1] _ _ (ix2 (0 : Fin 1) f) (ix1 f) (fun a => by
    match a with
    | ⟨0, _⟩ =>
      refine (if_neg ?_).symm
      show ¬ (128 : ℕ) = 1
      decide)

set_option maxRecDepth 65536 in
set_option maxHeartbeats 40000000 in
/-- The output bias as the kernel reads it: the vector of length 8 as one row. -/
theorem V_v64 : (V m c main_v64 : S1x8.Idx → EReal)
    = broadcastInDim S1x8 ![1] bcast_S8_S1x8_1 (m ((c : Thread nD τ).loc main_arg16)) := by
  dsimp only [V, hostOps0]
  after_results_simp

/-- Its entry (0, q) is the vector's entry q. -/
theorem v64_apply (f : Fin 8) :
    V m c main_v64 (ix2 (0 : Fin 1) f) = m ((c : Thread nD τ).loc main_arg16) (ix1 f) := by
  rw [V_v64]
  exact broadcastInDim_apply ![1] _ _ (ix2 (0 : Fin 1) f) (ix1 f) (fun a => by
    match a with
    | ⟨0, _⟩ =>
      refine (if_neg ?_).symm
      show ¬ (8 : ℕ) = 1
      decide)

end Cert.KerOps

end
-- ==== Proof.KerRow.lean ====
/-
  The kernel body's value at one entry of a block, as the shared row specification.

  A block holds 2000 nodes. For node r of the block the body forms three feature rows
      c(k) = sum_j x(r, j) * W(j, k) + b(k)          (32 aggregated features against a 32 x 128 matrix, plus a bias row)
  then the update gate z, the reset gate r and the candidate of a gated recurrent step from those rows and the
  node's hidden row h, each gate's 256-row weight matrix given as its upper half (against c) and its lower half
  (against h), and finally the 8 outputs  max(h', 0) * Wo + bo.  Every matrix product has one contracted axis and a
  zero accumulator, so read at an entry it is a finite sum over that axis; every bias is one row repeated over the
  2000 nodes, so read at (r, f) it is the row's entry f. With those two readings the body's term at (r, p) is,
  literally, the row specification.
-/
import proofs.«110348_j49383533969725_2_alg».proof.Proof.Gen.KernelIdeal.Value
import proofs.«110348_j49383533969725_2_alg».proof.Proof.Spec
import proofs.«110348_j49383533969725_2_alg».proof.Proof.LibDotSum
import Idealize.ShloMosaic.Lib.ValueLayout

noncomputable section

namespace Cert.KerRow

open Idealize.ShloMosaic Idealize.ShloMosaic.ValueIdx Cert.KernelIdeal Cert.KernelIdeal.Gen
open scoped BigOperators

/-! ## A matrix product into a zero accumulator, read at an entry -/

/-- Left operand's row coordinate under `mm32`'s contraction: the output's row. -/
theorem mm32_l0 (i : S2000x128.Idx) (q : dot_S2000x32_S32x128_S2000x128_1_0_0_1_n_n.contr.Idx) : (dot_S2000x32_S32x128_S2000x128_1_0_0_1_n_n.lhsIdx i q 0).val = (i 0).val := by
  unfold DotDims.lhsIdx
  rw [dif_neg (show ¬(0 : Fin S2000x32.rank) ∈ dot_S2000x32_S32x128_S2000x128_1_0_0_1_n_n.lhsBatch by decide),
    dif_pos (show (0 : Fin S2000x32.rank) ∈ dot_S2000x32_S32x128_S2000x128_1_0_0_1_n_n.lhsNonContracting by decide)]
  rfl

/-- Right operand's column coordinate under `mm32`'s contraction: the output's column. -/
theorem mm32_r1 (i : S2000x128.Idx) (q : dot_S2000x32_S32x128_S2000x128_1_0_0_1_n_n.contr.Idx) : (dot_S2000x32_S32x128_S2000x128_1_0_0_1_n_n.rhsIdx i q 1).val = (i 1).val := by
  unfold DotDims.rhsIdx
  rw [dif_neg (show ¬(1 : Fin S32x128.rank) ∈ dot_S2000x32_S32x128_S2000x128_1_0_0_1_n_n.rhsBatch by decide),
    dif_pos (show (1 : Fin S32x128.rank) ∈ dot_S2000x32_S32x128_S2000x128_1_0_0_1_n_n.rhsNonContracting by decide)]
  rfl

/-- (2000 x 32) times (32 x 128): entry (r, f) is the sum over the 32 contracted positions. -/
theorem mm32 (a : FVec Ideal S2000x32 .f32) (b : FVec Ideal S32x128 .f32) (r : Fin 2000) (f : Fin 128) :
    matmul dot_S2000x32_S32x128_S2000x128_1_0_0_1_n_n none a b (constant (F := Ideal) S2000x128 .f32 0x00000000#32) (ix2 r f)
      = ∑ k : Fin 32, a (ix2 r k) * b (ix2 k f) := by
  refine DotSum.matmul_zero_eq_sum dot_S2000x32_S32x128_S2000x128_1_0_0_1_n_n 32 rfl rfl a b (ix2 r f) (fun k => ix2 r k) (fun k => ix2 k f) ?_ ?_
  · intro k
    have hk := contrEquiv1_symm_val dot_S2000x32_S32x128_S2000x128_1_0_0_1_n_n 32 rfl rfl k
    exact funext fun ax => Fin.ext (by
      match ax with
      | ⟨0, _⟩ => exact mm32_l0 _ _
      | ⟨1, _⟩ => exact (dot_S2000x32_S32x128_S2000x128_1_0_0_1_n_n.lhsIdx_val_of_single rfl _ _).trans hk)
  · intro k
    have hk := contrEquiv1_symm_val dot_S2000x32_S32x128_S2000x128_1_0_0_1_n_n 32 rfl rfl k
    exact funext fun ax => Fin.ext (by
      match ax with
      | ⟨0, _⟩ => exact (dot_S2000x32_S32x128_S2000x128_1_0_0_1_n_n.rhsIdx_val_of_single rfl _ _).trans hk
      | ⟨1, _⟩ => exact mm32_r1 _ _)

/-- Left operand's row coordinate under `mm128`'s contraction: the output's row. -/
theorem mm128_l0 (i : S2000x128.Idx) (q : dot_S2000x128_S128x128_S2000x128_1_0_0_1_n_n.contr.Idx) : (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- Right operand's column coordinate under `mm128`'s contraction: the output's column. -/
theorem mm128_r1 (i : S2000x128.Idx) (q : dot_S2000x128_S128x128_S2000x128_1_0_0_1_n_n.contr.Idx) : (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- (2000 x 128) times (128 x 128): entry (r, f) is the sum over the 128 contracted positions. -/
theorem mm128 (a : FVec Ideal S2000x128 .f32) (b : FVec Ideal S128x128 .f32) (r : Fin 2000) (f : Fin 128) :
    matmul dot_S2000x128_S128x128_S2000x128_1_0_0_1_n_n none a b (constant (F := Ideal) S2000x128 .f32 0x00000000#32) (ix2 r f)
      = ∑ k : Fin 128, a (ix2 r k) * b (ix2 k f) := by
  refine DotSum.matmul_zero_eq_sum dot_S2000x128_S128x128_S2000x128_1_0_0_1_n_n 128 rfl rfl a b (ix2 r f) (fun k => ix2 r k) (fun k => ix2 k f) ?_ ?_
  · intro k
    have hk := contrEquiv1_symm_val dot_S2000x128_S128x128_S2000x128_1_0_0_1_n_n 128 rfl rfl k
    exact funext fun ax => Fin.ext (by
      match ax with
      | ⟨0, _⟩ => exact mm128_l0 _ _
      | ⟨1, _⟩ => exact (dot_S2000x128_S128x128_S2000x128_1_0_0_1_n_n.lhsIdx_val_of_single rfl _ _).trans hk)
  · intro k
    have hk := contrEquiv1_symm_val dot_S2000x128_S128x128_S2000x128_1_0_0_1_n_n 128 rfl rfl k
    exact funext fun ax => Fin.ext (by
      match ax with
      | ⟨0, _⟩ => exact (dot_S2000x128_S128x128_S2000x128_1_0_0_1_n_n.rhsIdx_val_of_single rfl _ _).trans hk
      | ⟨1, _⟩ => exact mm128_r1 _ _)

/-- Left operand's row coordinate under `mm8`'s contraction: the output's row. -/
theorem mm8_l0 (i : S2000x8.Idx) (q : dot_S2000x128_S128x8_S2000x8_1_0_0_1_n_n.contr.Idx) : (dot_S2000x128_S128x8_S2000x8_1_0_0_1_n_n.lhsIdx i q 0).val = (i 0).val := by
  unfold DotDims.lhsIdx
  rw [dif_neg (show ¬(0 : Fin S2000x128.rank) ∈ dot_S2000x128_S128x8_S2000x8_1_0_0_1_n_n.lhsBatch by decide),
    dif_pos (show (0 : Fin S2000x128.rank) ∈ dot_S2000x128_S128x8_S2000x8_1_0_0_1_n_n.lhsNonContracting by decide)]
  rfl

/-- Right operand's column coordinate under `mm8`'s contraction: the output's column. -/
theorem mm8_r1 (i : S2000x8.Idx) (q : dot_S2000x128_S128x8_S2000x8_1_0_0_1_n_n.contr.Idx) : (dot_S2000x128_S128x8_S2000x8_1_0_0_1_n_n.rhsIdx i q 1).val = (i 1).val := by
  unfold DotDims.rhsIdx
  rw [dif_neg (show ¬(1 : Fin S128x8.rank) ∈ dot_S2000x128_S128x8_S2000x8_1_0_0_1_n_n.rhsBatch by decide),
    dif_pos (show (1 : Fin S128x8.rank) ∈ dot_S2000x128_S128x8_S2000x8_1_0_0_1_n_n.rhsNonContracting by decide)]
  rfl

/-- (2000 x 128) times (128 x 8): entry (r, p) is the sum over the 128 contracted positions. -/
theorem mm8 (a : FVec Ideal S2000x128 .f32) (b : FVec Ideal S128x8 .f32) (r : Fin 2000) (f : Fin 8) :
    matmul dot_S2000x128_S128x8_S2000x8_1_0_0_1_n_n none a b (constant (F := Ideal) S2000x8 .f32 0x00000000#32) (ix2 r f)
      = ∑ k : Fin 128, a (ix2 r k) * b (ix2 k f) := by
  refine DotSum.matmul_zero_eq_sum dot_S2000x128_S128x8_S2000x8_1_0_0_1_n_n 128 rfl rfl a b (ix2 r f) (fun k => ix2 r k) (fun k => ix2 k f) ?_ ?_
  · intro k
    have hk := contrEquiv1_symm_val dot_S2000x128_S128x8_S2000x8_1_0_0_1_n_n 128 rfl rfl k
    exact funext fun ax => Fin.ext (by
      match ax with
      | ⟨0, _⟩ => exact mm8_l0 _ _
      | ⟨1, _⟩ => exact (dot_S2000x128_S128x8_S2000x8_1_0_0_1_n_n.lhsIdx_val_of_single rfl _ _).trans hk)
  · intro k
    have hk := contrEquiv1_symm_val dot_S2000x128_S128x8_S2000x8_1_0_0_1_n_n 128 rfl rfl k
    exact funext fun ax => Fin.ext (by
      match ax with
      | ⟨0, _⟩ => exact (dot_S2000x128_S128x8_S2000x8_1_0_0_1_n_n.rhsIdx_val_of_single rfl _ _).trans hk
      | ⟨1, _⟩ => exact mm8_r1 _ _)

/-! ## The three feature rows -/

/-- A feature row at (r, f): the node's 32 aggregated features against column f of the weights, plus the bias
    row's entry f (the bias is one row, repeated over the 2000 nodes of the block). -/
theorem feat_at (x : Vec Ideal S2000x32 .f32) (W : Vec Ideal S32x128 .f32) (b : Vec Ideal S1x128 .f32)
    (r : Fin 2000) (f : Fin 128) :
    k0_pay4 (F := Ideal) x W b (ix2 r f) = (∑ j : Fin 32, x (ix2 r j) * W (ix2 j f)) + b (ix2 (0 : Fin 1) f) := by
  show (matmul dot_S2000x32_S32x128_S2000x128_1_0_0_1_n_n none (shapeCast S2000x32 x _) W
        (constant (F := Ideal) S2000x128 .f32 0x00000000#32) (ix2 r f) : EReal)
      + broadcastTo S2000x128 (shapeCast S1x128 b _) _ (ix2 r f) = _
  rw [shapeCast_self, shapeCast_self, mm32, broadcastTo_1b_ab_apply]

/-- The second feature row is the same term as the first, over its own weights and bias. -/
theorem pay5_eq (x : Vec Ideal S2000x32 .f32) (W : Vec Ideal S32x128 .f32) (b : Vec Ideal S1x128 .f32) :
    k0_pay5 (F := Ideal) x W b = k0_pay4 (F := Ideal) x W b := rfl

/-! ## A gate's pre-activation -/

/-- The pre-activation of a gate as a block: the rows a against the upper weights, the rows h against the lower
    weights, plus the bias row repeated over the nodes. -/
def preact (a h : FVec Ideal S2000x128 .f32) (L1 L2 : Vec Ideal S128x128 .f32) (b : Vec Ideal S1x128 .f32) :
    FVec Ideal S2000x128 .f32 :=
  addf
    (addf
      (matmul dot_S2000x128_S128x128_S2000x128_1_0_0_1_n_n none a
        (shapeCast S128x128 L1 Facts₀.shapeCasts_S128x128_S128x128 : FVec Ideal S128x128 .f32) (constant (F := Ideal) S2000x128 .f32 0x00000000#32))
      (matmul dot_S2000x128_S128x128_S2000x128_1_0_0_1_n_n none h
        (shapeCast S128x128 L2 Facts₀.shapeCasts_S128x128_S128x128 : FVec Ideal S128x128 .f32) (constant (F := Ideal) S2000x128 .f32 0x00000000#32)))
    (broadcastTo S2000x128 (shapeCast S1x128 b Facts₀.shapeCasts_S1x128_S1x128) Facts₀.broadcasts_S1x128_S2000x128)

/-- At (r, f) it is the specification's gate of row r of a and row r of h. -/
theorem preact_at (a h : FVec Ideal S2000x128 .f32) (L1 L2 : Vec Ideal S128x128 .f32) (b : Vec Ideal S1x128 .f32)
    (r : Fin 2000) (f : Fin 128) :
    preact a h L1 L2 b (ix2 r f)
      = Cert.Gru.gate (fun k => a (ix2 r k)) (fun k => h (ix2 r k)) (fun k g => L1 (ix2 k g)) (fun k g => L2 (ix2 k g))
          (fun g => b (ix2 (0 : Fin 1) g)) f := by
  show ((matmul dot_S2000x128_S128x128_S2000x128_1_0_0_1_n_n none a (shapeCast S128x128 L1 _ : FVec Ideal S128x128 .f32)
          (constant (F := Ideal) S2000x128 .f32 0x00000000#32) (ix2 r f) : EReal)
        + matmul dot_S2000x128_S128x128_S2000x128_1_0_0_1_n_n none h (shapeCast S128x128 L2 _ : FVec Ideal S128x128 .f32)
          (constant (F := Ideal) S2000x128 .f32 0x00000000#32) (ix2 r f))
      + broadcastTo S2000x128 (shapeCast S1x128 b _) _ (ix2 r f) = _
  rw [shapeCast_self, shapeCast_self, shapeCast_self, mm128, mm128, broadcastTo_1b_ab_apply]
  rfl

/-- The update gate's pre-activation, which the body computes in two payloads (the two products, then the bias),
    is the same block. -/
theorem zpre_eq (x : Vec Ideal S2000x32 .f32) (h : Vec Ideal S2000x128 .f32) (W : Vec Ideal S32x128 .f32)
    (b : Vec Ideal S1x128 .f32) (L1 L2 : Vec Ideal S128x128 .f32) (lb : Vec Ideal S1x128 .f32) :
    addf (k0_pay6 (F := Ideal) x h W b L1 L2)
        (broadcastTo S2000x128 (shapeCast S1x128 lb Facts₀.shapeCasts_S1x128_S1x128) Facts₀.broadcasts_S1x128_S2000x128)
      = preact (k0_pay4 (F := Ideal) x W b) (shapeCast S2000x128 h Facts₀.shapeCasts_S2000x128_S2000x128) L1 L2 lb := rfl

/-! ## The outputs -/

/-- The last payload over the named pre-activations: the new hidden block z * h + (1 - z) * tanh(candidate), clamped
    below at zero, against the output weights. -/
theorem pay8_eq (v3 v15 v21 v28 v31 : FVec Ideal S2000x128 .f32) (L34 L37 : Vec Ideal S128x128 .f32)
    (b41 : Vec Ideal S1x128 .f32) (L47 L50 : Vec Ideal S128x128 .f32) (b54 : Vec Ideal S1x128 .f32)
    (W66 : Vec Ideal S128x8 .f32) :
    k0_pay8 (F := Ideal) v3 v15 v21 v28 v31 L34 L37 b41 L47 L50 b54 W66
      = matmul (φ₂ := .f32) dot_S2000x128_S128x8_S2000x8_1_0_0_1_n_n none
          (maximumf
            (addf (mulf (logistic (addf v28 v31)) v3)
              (mulf (subf (broadcast S2000x128 (Scalar.ofBits (F := Ideal) .f32 0x3F800000#32)) (logistic (addf v28 v31)))
                (tanh (preact v21 (mulf v3 (logistic (preact v15 v3 L34 L37 b41))) L47 L50 b54))))
            (broadcast S2000x128 (Scalar.ofBits (F := Ideal) .f32 0x00000000#32)) : FVec Ideal S2000x128 .f32)
          W66 (constant (F := Ideal) S2000x8 .f32 0x00000000#32) := rfl

/-- The last payload at (r, p): a sum over the 128 hidden positions f of the clamped new hidden entry times the
    output weight, with both logistic functions in the specification's quotient spelling. -/
theorem pay8_at (v3 v15 v21 v28 v31 : FVec Ideal S2000x128 .f32) (L34 L37 : Vec Ideal S128x128 .f32)
    (b41 : Vec Ideal S1x128 .f32) (L47 L50 : Vec Ideal S128x128 .f32) (b54 : Vec Ideal S1x128 .f32)
    (W66 : Vec Ideal S128x8 .f32) (r : Fin 2000) (p : Fin 8) :
    k0_pay8 (F := Ideal) v3 v15 v21 v28 v31 L34 L37 b41 L47 L50 b54 W66 (ix2 r p)
      = ∑ f : Fin 128,
          max (Cert.Gru.sigm (addf v28 v31 (ix2 r f)) * v3 (ix2 r f)
                + (Cert.Gru.one32 - Cert.Gru.sigm (addf v28 v31 (ix2 r f)))
                  * Ideal.tanh (Cert.Gru.gate (fun k => v21 (ix2 r k))
                      (fun k => v3 (ix2 r k) * Cert.Gru.sigm (Cert.Gru.gate (fun k' => v15 (ix2 r k')) (fun k' => v3 (ix2 r k'))
                          (fun a c => L34 (ix2 a c)) (fun a c => L37 (ix2 a c)) (fun c => b41 (ix2 (0 : Fin 1) c)) k))
                      (fun a c => L47 (ix2 a c)) (fun a c => L50 (ix2 a c)) (fun c => b54 (ix2 (0 : Fin 1) c)) f))
              Cert.Gru.zero32
            * W66 (ix2 f p) := by
  rw [pay8_eq, mm8]
  refine Finset.sum_congr rfl fun f _ => ?_
  refine congrArg (· * W66 (ix2 f p)) ?_
  show max (Ideal.logistic (addf v28 v31 (ix2 r f)) * v3 (ix2 r f)
        + (Cert.Gru.one32 - Ideal.logistic (addf v28 v31 (ix2 r f)))
          * Ideal.tanh (preact v21 (mulf v3 (logistic (preact v15 v3 L34 L37 b41))) L47 L50 b54 (ix2 r f)))
      Cert.Gru.zero32 = _
  have hr : (fun k => (mulf v3 (logistic (preact v15 v3 L34 L37 b41)) : FVec Ideal S2000x128 .f32) (ix2 r k))
      = fun k => v3 (ix2 r k) * Cert.Gru.sigm (Cert.Gru.gate (fun k' => v15 (ix2 r k')) (fun k' => v3 (ix2 r k'))
          (fun a c => L34 (ix2 a c)) (fun a c => L37 (ix2 a c)) (fun c => b41 (ix2 (0 : Fin 1) c)) k) :=
    funext fun k => by
      show v3 (ix2 r k) * Ideal.logistic (preact v15 v3 L34 L37 b41 (ix2 r k)) = _
      rw [preact_at, Cert.Gru.sigm_eq_logistic]
  rw [preact_at, hr, Cert.Gru.sigm_eq_logistic]

/-! ## The block the body leaves, at one entry -/

/-- Entry (r, p) of the block the body leaves is output p of the row specification, at: the three feature rows of
    node r (its aggregated features against the three input weight matrices, plus their biases), its hidden row,
    the six half weight matrices of the gates, the three gate biases, and the output weights and bias. -/
theorem E19_row (P0 : Vec Ideal S2000x128 .f32) (P1 : Vec Ideal S2000x32 .f32) (P2 : Vec Ideal S32x128 .f32)
    (P3 : Vec Ideal S1x128 .f32) (P4 : Vec Ideal S32x128 .f32) (P5 : Vec Ideal S1x128 .f32) (P6 : Vec Ideal S32x128 .f32)
    (P7 : Vec Ideal S1x128 .f32) (P8 P9 : Vec Ideal S128x128 .f32) (P10 : Vec Ideal S1x128 .f32)
    (P11 P12 : Vec Ideal S128x128 .f32) (P13 : Vec Ideal S1x128 .f32) (P14 P15 : Vec Ideal S128x128 .f32)
    (P16 : Vec Ideal S1x128 .f32) (P17 : Vec Ideal S128x8 .f32) (P18 : Vec Ideal S1x8 .f32) (r : Fin 2000) (p : Fin 8) :
    Cert.KernelIdeal.Value.E19 (F := Ideal) P0 P1 P2 P3 P4 P5 P6 P7 P8 P9 P10 P11 P12 P13 P14 P15 P16 P17 P18 (ix2 r p)
      = Cert.Gru.rowOut
          (fun k => (∑ j : Fin 32, P1 (ix2 r j) * P6 (ix2 j k)) + P7 (ix2 (0 : Fin 1) k))
          (fun k => (∑ j : Fin 32, P1 (ix2 r j) * P2 (ix2 j k)) + P3 (ix2 (0 : Fin 1) k))
          (fun k => (∑ j : Fin 32, P1 (ix2 r j) * P4 (ix2 j k)) + P5 (ix2 (0 : Fin 1) k))
          (fun k => P0 (ix2 r k))
          (fun k f => P8 (ix2 k f)) (fun k f => P9 (ix2 k f)) (fun k f => P11 (ix2 k f)) (fun k f => P12 (ix2 k f))
          (fun k f => P14 (ix2 k f)) (fun k f => P15 (ix2 k f))
          (fun f => P10 (ix2 (0 : Fin 1) f)) (fun f => P13 (ix2 (0 : Fin 1) f)) (fun f => P16 (ix2 (0 : Fin 1) f))
          (fun f q => P17 (ix2 f q)) (fun q => P18 (ix2 (0 : Fin 1) q)) p := by
  have e0 : Cert.KernelIdeal.Value.ix19_0 (ix2 r p) = ix2 r p :=
    funext fun a => Fin.ext (by match a with | ⟨0, _⟩ => rfl | ⟨1, _⟩ => rfl)
  have e1 : Cert.KernelIdeal.Value.ix19_1 (ix2 r p) = ix2 (0 : Fin 1) p :=
    funext fun a => Fin.ext (by match a with | ⟨0, _⟩ => rfl | ⟨1, _⟩ => rfl)
  show (k0_pay8 (F := Ideal) (shapeCast S2000x128 P0 _) (k0_pay4 P1 P2 P3) (k0_pay5 P1 P4 P5) (k0_pay6 P1 P0 P6 P7 P8 P9)
        (broadcastTo S2000x128 (shapeCast S1x128 P10 _) _) P11 P12 P13 P14 P15 P16 P17
        (Cert.KernelIdeal.Value.ix19_0 (ix2 r p)) : EReal)
      + P18 (Cert.KernelIdeal.Value.ix19_1 (ix2 r p)) = _
  rw [e0, e1, pay8_at, zpre_eq, shapeCast_self, pay5_eq]
  simp only [preact_at, feat_at]
  rfl

end Cert.KerRow

end
-- ==== Proof.Bridge.lean ====
/-
  The two programs' results are one array.

  Entry (i, p) of either result is the row specification at the same data: the aggregated raw features of node i
  against each gate's 32 x 128 weights plus its bias, row i of the hidden state, the halves of the three 256 x 128
  gate weights, the gate biases, and the output layer. The kernel computes it block by block of 2000 rows (row i
  lies in block i / 2000 at position i % 2000) from operands that the surrounding code slices and reshapes out of
  the argument arrays; the reference computes it for all 100000 rows and keeps the first 50000.
-/
import proofs.«110348_j49383533969725_2_alg».proof.Proof.RefSide
import proofs.«110348_j49383533969725_2_alg».proof.Proof.KerArr
import proofs.«110348_j49383533969725_2_alg».proof.Proof.KerOps
import proofs.«110348_j49383533969725_2_alg».proof.Proof.KerRow

set_option maxRecDepth 16384

noncomputable section

namespace Cert.Bridge

open Idealize.ShloMosaic Idealize.ShloMosaic.ValueIdx Idealize.SL.Sem Idealize.ShloMosaic.TcCoe
open Cert.Gru Cert.LibFiniteOps
open scoped BigOperators

/-- The row specification depends on its arguments only through their values. -/
theorem rowOut_congr_all {cz cz' cr cr' ch ch' h h' : Fin 128 → EReal}
    {Lz1 Lz1' Lz2 Lz2' Lr1 Lr1' Lr2 Lr2' Lh1 Lh1' Lh2 Lh2' : Fin 128 → Fin 128 → EReal}
    {lzb lzb' lrb lrb' lhb lhb' : Fin 128 → EReal} {Wo Wo' : Fin 128 → Fin 8 → EReal} {bo bo' : Fin 8 → EReal}
    (e1 : cz = cz') (e2 : cr = cr') (e3 : ch = ch') (e4 : h = h') (e5 : Lz1 = Lz1') (e6 : Lz2 = Lz2') (e7 : Lr1 = Lr1')
    (e8 : Lr2 = Lr2') (e9 : Lh1 = Lh1') (e10 : Lh2 = Lh2') (e11 : lzb = lzb') (e12 : lrb = lrb') (e13 : lhb = lhb')
    (e14 : Wo = Wo') (e15 : bo = bo') (p : Fin 8) :
    rowOut cz cr ch h Lz1 Lz2 Lr1 Lr2 Lh1 Lh2 lzb lrb lhb Wo bo p
      = rowOut cz' cr' ch' h' Lz1' Lz2' Lr1' Lr2' Lh1' Lh2' lzb' lrb' lhb' Wo' bo' p := by
  subst e1 e2 e3 e4 e5 e6 e7 e8 e9 e10 e11 e12 e13 e14 e15; rfl

/-- Entry (i, p) of the common result, as a function of the seventeen argument arrays. -/
def spec (x0 : (⟨2, ![100000, 32]⟩ : Shape).Idx → EReal) (x1 : (⟨2, ![100000, 128]⟩ : Shape).Idx → EReal)
    (x2 : (⟨2, ![2, 400000]⟩ : Shape).Idx → BitVec 32)
    (x3 : (⟨2, ![32, 128]⟩ : Shape).Idx → EReal) (x4 : (⟨1, ![128]⟩ : Shape).Idx → EReal)
    (x5 : (⟨2, ![32, 128]⟩ : Shape).Idx → EReal) (x6 : (⟨1, ![128]⟩ : Shape).Idx → EReal)
    (x7 : (⟨2, ![32, 128]⟩ : Shape).Idx → EReal) (x8 : (⟨1, ![128]⟩ : Shape).Idx → EReal)
    (x9 : (⟨2, ![256, 128]⟩ : Shape).Idx → EReal) (x10 : (⟨1, ![128]⟩ : Shape).Idx → EReal)
    (x11 : (⟨2, ![256, 128]⟩ : Shape).Idx → EReal) (x12 : (⟨1, ![128]⟩ : Shape).Idx → EReal)
    (x13 : (⟨2, ![256, 128]⟩ : Shape).Idx → EReal) (x14 : (⟨1, ![128]⟩ : Shape).Idx → EReal)
    (x15 : (⟨2, ![128, 8]⟩ : Shape).Idx → EReal) (x16 : (⟨1, ![8]⟩ : Shape).Idx → EReal)
    (i : Fin 50000) (p : Fin 8) : EReal :=
  rowOut (fun k => (∑ j : Fin 32, Cert.Gcn.aggRaw x0 x2 (ix2 i j) * x3 (ix2 j k)) + x4 (ix1 k))
    (fun k => (∑ j : Fin 32, Cert.Gcn.aggRaw x0 x2 (ix2 i j) * x5 (ix2 j k)) + x6 (ix1 k))
    (fun k => (∑ j : Fin 32, Cert.Gcn.aggRaw x0 x2 (ix2 i j) * x7 (ix2 j k)) + x8 (ix1 k))
    (fun k => x1 (ix2 (up i) k))
    (fun k f => x9 (ix2 (Fin.castAdd 128 k) f)) (fun k f => x9 (ix2 (Fin.natAdd 128 k) f))
    (fun k f => x11 (ix2 (Fin.castAdd 128 k) f)) (fun k f => x11 (ix2 (Fin.natAdd 128 k) f))
    (fun k f => x13 (ix2 (Fin.castAdd 128 k) f)) (fun k f => x13 (ix2 (Fin.natAdd 128 k) f))
    (fun f => x10 (ix1 f)) (fun f => x12 (ix1 f)) (fun f => x14 (ix1 f))
    (fun f q => x15 (ix2 f q)) (fun q => x16 (ix1 q)) p

section Ref

open Cert.ReferenceIdeal

/-- The reference's result entry is the common entry of its argument arrays. -/
theorem ref_spec (m : (ℓ : Loc nD τ sig) → Buf (Elt Ideal) ℓ) (c : Dev nD)
    (h0 : AllReal (m ((c.tc : Thread nD τ).loc main_arg0))) (h3 : AllReal (m ((c.tc : Thread nD τ).loc main_arg3)))
    (h5 : AllReal (m ((c.tc : Thread nD τ).loc main_arg5))) (h7 : AllReal (m ((c.tc : Thread nD τ).loc main_arg7)))
    (i : Fin 50000) (p : Fin 8) :
    Cert.ReferenceIdeal.Value.res_main_v166 (F := Ideal) m c (ix2 i p)
      = spec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) i p :=
  Cert.RefSide.ref_side m c h0 h3 h5 h7 i p

end Ref

section Ker

open Cert.KernelIdeal Cert.KernelIdeal.Gen Cert.KerArr Cert.KerOps

/-- Row i of a 50000-row matrix is row i % 2000 of its block i / 2000. -/
theorem rowsBlk_at {C : Nat} (A : (⟨2, ![50000, C]⟩ : Shape).Idx → EReal) (i : Fin 50000) (j : Fin C) :
    rowsBlk A ⟨i.val / 2000, by have := i.isLt; omega⟩ (ix2 (⟨i.val % 2000, by omega⟩ : Fin 2000) j) = A (ix2 i j) := by
  unfold rowsBlk
  refine congrArg (fun r => A (ix2 r j)) (Fin.ext ?_)
  show i.val / 2000 * 2000 + i.val % 2000 = i.val
  omega

set_option maxRecDepth 65536 in
set_option maxHeartbeats 4000000 in
/-- The kernel's result entry is the common entry of its argument arrays. -/
theorem ker_spec (m : (ℓ : Loc nD τ sig) → Buf (Elt Ideal) ℓ) (c : Dev nD) (i : Fin 50000) (p : Fin 8) :
    KG (V m c main_v50) (V m c main_v51) (V m c main_arg3) (V m c main_v58) (V m c main_arg5) (V m c main_v59) (V m c main_arg7) (V m c main_v60) (V m c main_v52) (V m c main_v53) (V m c main_v61) (V m c main_v54) (V m c main_v55) (V m c main_v62) (V m c main_v56) (V m c main_v57) (V m c main_v63) (V m c main_arg15) (V m c main_v64) (ix2 i p)
      = spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) i p := by
  rw [KG_at _ _ _ _ _ _ _ _ _ _ _ _ _ _ _ _ _ _ _ (⟨i.val / 2000, by have := i.isLt; omega⟩ : Fin 25)
    (ix2 (⟨i.val % 2000, by omega⟩ : Fin 2000) p) (ix2 i p)
    (by show i.val = i.val / 2000 * 2000 + i.val % 2000; omega) rfl]
  rw [Cert.KerRow.E19_row]
  unfold spec
  simp only [rowsBlk_at]
  refine rowOut_congr_all (funext fun k => ?_) (funext fun k => ?_) (funext fun k => ?_) (funext fun k => ?_)
    (funext fun k => funext fun f => ?_) (funext fun k => funext fun f => ?_)
    (funext fun k => funext fun f => ?_) (funext fun k => funext fun f => ?_)
    (funext fun k => funext fun f => ?_) (funext fun k => funext fun f => ?_)
    (funext fun f => ?_) (funext fun f => ?_) (funext fun f => ?_)
    (funext fun f => funext fun q => ?_) (funext fun q => ?_) p
  · rw [v58_apply, V_main_arg3, Cert.Gcn.V_agg]
  · rw [v59_apply, V_main_arg5, Cert.Gcn.V_agg]
  · rw [v60_apply, V_main_arg7, Cert.Gcn.V_agg]
  · rw [v51_apply]
  · rw [v52_apply]
  · rw [v53_apply]
  · rw [v54_apply]
  · rw [v55_apply]
  · rw [v56_apply]
  · rw [v57_apply]
  · rw [v61_apply]
  · rw [v62_apply]
  · rw [v63_apply]
  · rw [V_main_arg15]
  · rw [v64_apply]

end Ker

end Cert.Bridge

end
-- ==== Proof.FinArgs.lean ====
/-
  From the finiteness precondition to real-valued argument arrays.

  The precondition is a conjunction of sixteen tests, one per floating-point argument array x, each of the form
  "every entry of |x| compares strictly below plus infinity". The conjunction is a left-nested chain of
  bitwise "and"s of one-bit scalars, and each test is an "and"-reduction, from the constant one, of the entrywise
  comparison. If the whole chain evaluates to one, then every link is one, so every entry of every tested array
  has absolute value strictly below plus infinity, that is, is neither of the two infinities: it is a real number.
  Here this is carried out for four of the arrays (the ones a later argument needs).
-/
import proofs.«110348_j49383533969725_2_alg».proof.Defs
import proofs.«110348_j49383533969725_2_alg».proof.Proof.Gen.Pre_finite_inputs
import proofs.«110348_j49383533969725_2_alg».proof.Proof.LibFiniteOps
import Idealize.ShloMosaic.Lib.ReduceAll
import Idealize.ShloMosaic.Lib.ValueIdx

noncomputable section

namespace Cert.FinArgs

open Idealize.ShloMosaic Idealize.SL.Sem
open Idealize.ShloMosaic.ValueIdx
open Cert.Pre_finite_inputs
open Cert.LibFiniteOps

/-- The scalar shape has exactly one index. -/
instance : Subsingleton S_.Idx := ⟨fun a b => funext fun d => d.elim0⟩

/-- One link of the chain: if the "and" of two one-bit scalars is one, both are one. -/
theorem andi_one {x y : IVec S_ 1} (h : andi x y ix0 = 1#1) : x ix0 = 1#1 ∧ y ix0 = 1#1 :=
  IntOp.andi_eq_one.1 h

/-- One test: if the "and"-reduction over all axes of the comparison |x| < +infinity is one, then every entry
    of x is a real number. -/
theorem allReal_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1) : AllReal x := by
  refine allReal_of_abs_lt_top
    (inf := broadcastInDim s ![] hb (constant (F := Ideal) S_ .f32 0x7F800000#32)) (fun i => ?_) (fun i => ?_)
  · exact ofBits_7F800000
  · exact Host.reduce_andi_all _ _ hr hu _ e i

section Chain

variable [hFacts : Facts]

/-- The last stretch of the chain: if it is one, so is the partial conjunction it was handed. -/
theorem part4_one (a15 : FVec Ideal S128x8 .f32) (a16 : FVec Ideal S8 .f32) (v63 v67 : IVec S_ 1)
    (h : fn_part4 (F := Ideal) a15 a16 v63 v67 ix0 = 1#1) : v63 ix0 = 1#1 := by
  unfold fn_part4 at h
  dsimp only at h
  exact (andi_one (andi_one (andi_one h).1).1).1

/-- The third stretch: if it is one, so is the partial conjunction it was handed. -/
theorem part3_one (a12 : FVec Ideal S128 .f32) (a13 : FVec Ideal S256x128 .f32) (a14 : FVec Ideal S128 .f32)
    (a15 : FVec Ideal S128x8 .f32) (a16 : FVec Ideal S8 .f32) (v48 : IVec S_ 1) (v49 v50 : FVec Ideal S256x128 .f32)
    (h : fn_part3 (F := Ideal) a12 a13 a14 a15 a16 v48 v49 v50 ix0 = 1#1) : v48 ix0 = 1#1 := by
  unfold fn_part3 at h
  dsimp only at h
  exact (andi_one (andi_one (andi_one (part4_one _ _ _ _ h)).1).1).1

/-- The second stretch: if it is one, so is the partial conjunction it was handed. -/
theorem part2_one (a8 : FVec Ideal S128 .f32) (a9 : FVec Ideal S256x128 .f32) (a10 : FVec Ideal S128 .f32)
    (a11 : FVec Ideal S256x128 .f32) (a12 : FVec Ideal S128 .f32) (a13 : FVec Ideal S256x128 .f32)
    (a14 : FVec Ideal S128 .f32) (a15 : FVec Ideal S128x8 .f32) (a16 : FVec Ideal S8 .f32) (v33 : IVec S_ 1)
    (h : fn_part2 (F := Ideal) a8 a9 a10 a11 a12 a13 a14 a15 a16 v33 ix0 = 1#1) : v33 ix0 = 1#1 := by
  unfold fn_part2 at h
  dsimp only at h
  exact (andi_one (andi_one (andi_one (part3_one _ _ _ _ _ _ _ _ h)).1).1).1

/-- The first stretch tests four arrays, among them the two weight matrices a5 and a7: if it is one, the partial
    conjunction it was handed is one and both matrices are real. -/
theorem part1_one (a5 : FVec Ideal S32x128 .f32) (a6 : FVec Ideal S128 .f32) (a7 : FVec Ideal S32x128 .f32)
    (a8 : FVec Ideal S128 .f32) (a9 : FVec Ideal S256x128 .f32) (a10 : FVec Ideal S128 .f32)
    (a11 : FVec Ideal S256x128 .f32) (a12 : FVec Ideal S128 .f32) (a13 : FVec Ideal S256x128 .f32)
    (a14 : FVec Ideal S128 .f32) (a15 : FVec Ideal S128x8 .f32) (a16 : FVec Ideal S8 .f32)
    (v13 : IVec S_ 1) (v16 : IVec S128 1)
    (h : fn_part1 (F := Ideal) a5 a6 a7 a8 a9 a10 a11 a12 a13 a14 a15 a16 v13 v16 ix0 = 1#1) :
    v13 ix0 = 1#1 ∧ AllReal a5 ∧ AllReal a7 := by
  unfold fn_part1 at h
  dsimp only at h
  have h33 := andi_one (part2_one _ _ _ _ _ _ _ _ _ _ h)
  have h28 := andi_one h33.1
  have h23 := andi_one h28.1
  have h18 := andi_one h23.1
  exact ⟨h18.1, allReal_of_all a5 _ _ _ h23.2, allReal_of_all a7 _ _ _ h33.2⟩

/-- The whole chain: if the conjunction of the sixteen tests is one, the arrays a0, a3, a5 and a7 are real. -/
theorem real_of_fn (a0 : FVec Ideal S100000x32 .f32) (a1 : FVec Ideal S100000x128 .f32) (a2 : IVec S2x400000 32)
    (a3 : FVec Ideal S32x128 .f32) (a4 : FVec Ideal S128 .f32) (a5 : FVec Ideal S32x128 .f32)
    (a6 : FVec Ideal S128 .f32) (a7 : FVec Ideal S32x128 .f32) (a8 : FVec Ideal S128 .f32)
    (a9 : FVec Ideal S256x128 .f32) (a10 : FVec Ideal S128 .f32) (a11 : FVec Ideal S256x128 .f32)
    (a12 : FVec Ideal S128 .f32) (a13 : FVec Ideal S256x128 .f32) (a14 : FVec Ideal S128 .f32)
    (a15 : FVec Ideal S128x8 .f32) (a16 : FVec Ideal S8 .f32)
    (h : fn (F := Ideal) a0 a1 a2 a3 a4 a5 a6 a7 a8 a9 a10 a11 a12 a13 a14 a15 a16 = (fun _ => 1#1)) :
    AllReal a0 ∧ AllReal a3 ∧ AllReal a5 ∧ AllReal a7 := by
  have h0 := congrFun h ix0
  unfold fn at h0
  dsimp only at h0
  obtain ⟨h13, r5, r7⟩ := part1_one _ _ _ _ _ _ _ _ _ _ _ _ _ _ h0
  have h8 := andi_one h13
  have h3 := andi_one h8.1
  exact ⟨allReal_of_all a0 _ _ _ h3.1, allReal_of_all a3 _ _ _ h8.2, r5, r7⟩

end Chain

/-- At the program's argument buffers: under the certificate's precondition, on every device, the node-feature
    array (argument 0) and the three input-to-hidden weight matrices (arguments 3, 5 and 7) are real arrays. -/
theorem real_args (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Cert.LibFiniteOps.AllReal (m ((c.tc : Thread Cert.KernelIdeal.nD Cert.KernelIdeal.τ).loc Cert.KernelIdeal.main_arg0))
    ∧ Cert.LibFiniteOps.AllReal (m ((c.tc : Thread _ _).loc Cert.KernelIdeal.main_arg3))
    ∧ Cert.LibFiniteOps.AllReal (m ((c.tc : Thread _ _).loc Cert.KernelIdeal.main_arg5))
    ∧ Cert.LibFiniteOps.AllReal (m ((c.tc : Thread _ _).loc Cert.KernelIdeal.main_arg7)) :=
  real_of_fn (hFacts := Cert.Pre_finite_inputs.Gen.facts) _ _ _ _ _ _ _ _ _ _ _ _ _ _ _ _ _ (h c)

end Cert.FinArgs

end
-- ==== Proof.lean ====
/-
  One step of a gated recurrent unit over graph-convolved node features, followed by a rectifier and an 8-way
  output layer, for the first 50000 of 100000 nodes: a fused kernel against its plain reference.

  Both programs derive node weights 1 / sqrt (in-degree + 1) and edge weights from the edge list, convolve the 32
  node features over the graph for each of three gates, combine them with the hidden state through the update,
  reset and candidate gates, and apply the output layer. They differ in three ways, none of which changes a value
  on the extended reals when the features and the three input weight matrices are real:
    • the reference projects the features to 128 columns and then aggregates over incoming edges, for all nodes;
      the kernel's surrounding code aggregates the 32 raw features, for the first 50000 nodes only, and the kernel
      projects afterwards (aggregation is linear: this is where finiteness of the inputs is used);
    • the reference multiplies the concatenation [features, hidden] by a 256-row matrix; the kernel multiplies the
      two halves separately and adds;
    • the kernel works on blocks of 2000 rows, the reference on all rows at once, keeping the first 50000.
  The idealization rewrote nothing, so its conjunct is trivial; the three frames are the generated ones.
-/
import proofs.«110348_j49383533969725_2_alg».proof.Defs
import proofs.«110348_j49383533969725_2_alg».proof.Proof.Gen.Kernel
import proofs.«110348_j49383533969725_2_alg».proof.Proof.Gen.Kernel.Skeleton
import proofs.«110348_j49383533969725_2_alg».proof.Proof.Gen.Kernel.Launch
import proofs.«110348_j49383533969725_2_alg».proof.Proof.Gen.Kernel.Points
import proofs.«110348_j49383533969725_2_alg».proof.Proof.Gen.Kernel.Frame
import proofs.«110348_j49383533969725_2_alg».proof.Proof.Gen.KernelIdeal
import proofs.«110348_j49383533969725_2_alg».proof.Proof.Gen.KernelIdeal.Skeleton
import proofs.«110348_j49383533969725_2_alg».proof.Proof.Gen.KernelIdeal.Launch
import proofs.«110348_j49383533969725_2_alg».proof.Proof.Gen.KernelIdeal.Points
import proofs.«110348_j49383533969725_2_alg».proof.Proof.Gen.KernelIdeal.Frame
import proofs.«110348_j49383533969725_2_alg».proof.Proof.Gen.ReferenceIdeal
import proofs.«110348_j49383533969725_2_alg».proof.Proof.Gen.Pre_finite_inputs
import proofs.«110348_j49383533969725_2_alg».proof.Proof.Gen.KernelIdeal.Value
import proofs.«110348_j49383533969725_2_alg».proof.Proof.Gen.ReferenceIdeal.Run
import proofs.«110348_j49383533969725_2_alg».proof.Proof.Gen.ReferenceIdeal.Read
import proofs.«110348_j49383533969725_2_alg».proof.Proof.Bridge
import proofs.«110348_j49383533969725_2_alg».proof.Proof.FinArgs
import Idealize.ShloMosaic.Adequacy
import Idealize.ShloMosaic.Init

noncomputable section

namespace Cert.Proof

open Idealize.ShloMosaic Idealize.ShloMosaic.TcCoe Idealize.ShloMosaic.ValueIdx Idealize.SL.Sem

/-- The kernel as printed runs, faults nowhere and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, real where the precondition says so, the idealized kernel and the
    idealized reference end with the same result array: entry by entry both are the common row specification. -/
theorem algebraic : Cert.algebraic_KernelIdeal_ReferenceIdeal := by
  intro m ρ m' ρ' hpre hagree
  refine ⟨_, Cert.KerArr.run m ρ, ?_⟩
  refine (θ_run Cert.ReferenceIdeal.defs _ _).mono (fun _ h c => ⟨(h c).1.trans ?_, (h c).2⟩)
    (Cert.ReferenceIdeal.Value.run (F := Ideal) m' ρ')
  obtain ⟨r0, r3, r5, r7⟩ := Cert.FinArgs.real_args m hpre c
  have hg := hagree c
  funext j
  obtain ⟨i, p, rfl⟩ : ∃ (i : Fin 50000) (p : Fin 8), j = ix2 i p := ⟨j 0, j 1, eq_ix2 j⟩
  rw [Cert.Bridge.ker_spec m c i p,
    Cert.Bridge.ref_spec m' c (by rw [hg.1]; exact r0) (by rw [hg.2.2.2.1]; exact r3)
      (by rw [hg.2.2.2.2.2.1]; exact r5) (by rw [hg.2.2.2.2.2.2.2.1]; exact r7) i p]
  rw [hg.1, hg.2.1, hg.2.2.1, hg.2.2.2.1, hg.2.2.2.2.1, hg.2.2.2.2.2.1, hg.2.2.2.2.2.2.1, hg.2.2.2.2.2.2.2.1, hg.2.2.2.2.2.2.2.2.1, hg.2.2.2.2.2.2.2.2.2.1, hg.2.2.2.2.2.2.2.2.2.2.1, hg.2.2.2.2.2.2.2.2.2.2.2.1, hg.2.2.2.2.2.2.2.2.2.2.2.2.1, hg.2.2.2.2.2.2.2.2.2.2.2.2.2.1, hg.2.2.2.2.2.2.2.2.2.2.2.2.2.2.1, hg.2.2.2.2.2.2.2.2.2.2.2.2.2.2.2.1, hg.2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
